-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part6 {F : FTy → Type} [FloatOps F] (main_arg23 : FVec F S128x64 .f32) (main_arg24 : FVec F S64 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x64 .f32 := Host.absf main_arg23
  let main_cst_40 : FVec F S_ .f32 := constant S_ .f32 0x7F800000#32
  let main_v105 : FVec F S128x64 .f32 := broadcastInDim S128x64 ![] bcast_S_S128x64 main_cst_40
  let main_v106 : IVec S128x64 1 := cmpf .olt main_v104 main_v105
  let main_c_41 : IVec S_ 1 := constantI S_ 1 1#1
  let main_v107 : IVec S_ 1 := (fun x v => Host.reduce IntOp.andi x v reducesTo_S128x64_S_d0_1 h_S_) main_v106 main_c_41
  let main_v108 : IVec S_ 1 := andi main_v103 main_v107
  let main_v109 : FVec F S64 .f32 := Host.absf main_arg24
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  main_v113

def fn_part5 {F : FTy → Type} [FloatOps F] (main_arg20 : FVec F S128 .f32) (main_arg21 : FVec F S128x128 .f32) (main_arg22 : FVec F S128 .f32) (main_arg23 : FVec F S128x64 .f32) (main_arg24 : FVec F S64 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg21
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S128 .f32) (main_arg17 : FVec F S128 .f32) (main_arg18 : FVec F S128 .f32) (main_arg19 : FVec F S128 .f32) (main_arg20 : FVec F S128 .f32) (main_arg21 : FVec F S128x128 .f32) (main_arg22 : FVec F S128 .f32) (main_arg23 : FVec F S128x64 .f32) (main_arg24 : FVec F S64 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x128 .f32) (main_arg22 : FVec F S128 .f32) (main_arg23 : FVec F S128x64 .f32) (main_arg24 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x128 .f32) (main_arg22 : FVec F S128 .f32) (main_arg23 : FVec F S128x64 .f32) (main_arg24 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x128 .f32) (main_arg22 : FVec F S128 .f32) (main_arg23 : FVec F S128x64 .f32) (main_arg24 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S50000x64 .f32) (main_arg1 : IVec S800000 32) (main_arg2 : IVec S800000 32) (main_arg3 : FVec F S64x128 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x128 .f32) (main_arg22 : FVec F S128 .f32) (main_arg23 : FVec F S128x64 .f32) (main_arg24 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S50000x64 : Shape := ⟨2, ![50000, 64]⟩
abbrev S800000 : Shape := ⟨1, ![800000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S5000x64 : Shape := ⟨2, ![5000, 64]⟩
abbrev S5000x1 : Shape := ⟨2, ![5000, 1]⟩
abbrev S5000x128 : Shape := ⟨2, ![5000, 128]⟩
abbrev S800000x128 : Shape := ⟨2, ![800000, 128]⟩
abbrev S1x128 : Shape := ⟨2, ![1, 128]⟩

abbrev nBuf : Space → Nat
  | .hbm => 86
  | .vmem => 52
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128x128, .f32⟩
  | .hbm, ⟨22, _⟩ => ⟨S128, .f32⟩
  | .hbm, ⟨23, _⟩ => ⟨S128x64, .f32⟩
  | .hbm, ⟨24, _⟩ => ⟨S64, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S_, .i32⟩
  | .hbm, ⟨79, _⟩ => ⟨S_, .f32⟩
  | .hbm, ⟨80, _⟩ => ⟨S128x128, .f32⟩
  | .hbm, ⟨81, _⟩ => ⟨S_, .i32⟩
  | .hbm, ⟨82, _⟩ => ⟨S_, .f32⟩
  | .hbm, ⟨83, _⟩ => ⟨S128, .f32⟩
  | .hbm, ⟨84, _⟩ => ⟨S50000x128, .f32⟩
  | .hbm, ⟨85, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S128, .f32⟩
  | .local _ .vmem, ⟨28, _⟩ => ⟨S128, .f32⟩
  | .local _ .vmem, ⟨29, _⟩ => ⟨S128, .f32⟩
  | .local _ .vmem, ⟨30, _⟩ => ⟨S128, .f32⟩
  | .local _ .vmem, ⟨31, _⟩ => ⟨S128, .f32⟩
  | .local _ .vmem, ⟨32, _⟩ => ⟨S128x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x1, .f32⟩
  | .local _ .vmem, ⟨40, _⟩ => ⟨S5000x1, .f32⟩
  | .local _ .vmem, ⟨41, _⟩ => ⟨S128, .f32⟩
  | .local _ .vmem, ⟨42, _⟩ => ⟨S128, .f32⟩
  | .local _ .vmem, ⟨43, _⟩ => ⟨S128, .f32⟩
  | .local _ .vmem, ⟨44, _⟩ => ⟨S128, .f32⟩
  | .local _ .vmem, ⟨45, _⟩ => ⟨S128, .f32⟩
  | .local _ .vmem, ⟨46, _⟩ => ⟨S128x128, .f32⟩
  | .local _ .vmem, ⟨47, _⟩ => ⟨S128, .f32⟩
  | .local _ .vmem, ⟨48, _⟩ => ⟨S128x128, .f32⟩
  | .local _ .vmem, ⟨49, _⟩ => ⟨S128, .f32⟩
  | .local _ .vmem, ⟨50, _⟩ => ⟨S5000x128, .f32⟩
  | .local _ .vmem, ⟨51, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_cst_0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst_1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_c : Ref sig .tc := ⟨.hbm, 37, rfl⟩
abbrev main_v9 : Ref sig .tc := ⟨.hbm, 38, rfl⟩
abbrev main_v10 : Ref sig .tc := ⟨.hbm, 39, rfl⟩
abbrev main_c_2 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_3 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_c_4 : Ref sig .tc := ⟨.hbm, 51, rfl⟩
abbrev main_v20 : Ref sig .tc := ⟨.hbm, 52, rfl⟩
abbrev main_v21 : Ref sig .tc := ⟨.hbm, 53, rfl⟩
abbrev main_c_5 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_6 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_c_7 : Ref sig .tc := ⟨.hbm, 65, rfl⟩
abbrev main_v31 : Ref sig .tc := ⟨.hbm, 66, rfl⟩
abbrev main_v32 : Ref sig .tc := ⟨.hbm, 67, rfl⟩
abbrev main_c_8 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_9 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_c_10 : Ref sig .tc := ⟨.hbm, 78, rfl⟩
abbrev main_call0_v0 : Ref sig .tc := ⟨.hbm, 79, rfl⟩
abbrev main_v41 : Ref sig .tc := ⟨.hbm, 80, rfl⟩
abbrev main_c_11 : Ref sig .tc := ⟨.hbm, 81, rfl⟩
abbrev main_call1_v0 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg9_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg8_0 : Ref sig .tc := ⟨.vmem, 46, rfl⟩
abbrev cc3_stg9_0 : Ref sig .tc := ⟨.vmem, 47, rfl⟩
abbrev cc3_stg10_0 : Ref sig .tc := ⟨.vmem, 48, rfl⟩
abbrev cc3_stg11_0 : Ref sig .tc := ⟨.vmem, 49, rfl⟩
abbrev cc3_stg12_0 : Ref sig .tc := ⟨.vmem, 50, rfl⟩
abbrev cc3_stg12_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem9_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem8_0 : DmaSem sig := 46
abbrev cc3_sem9_0 : DmaSem sig := 47
abbrev cc3_sem10_0 : DmaSem sig := 48
abbrev cc3_sem11_0 : DmaSem sig := 49
abbrev cc3_sem12_0 : DmaSem sig := 50
abbrev cc3_sem12_1 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S128x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 2 → Memref sig .tc .vmem S5000x128 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  pads_S128x64_S128x128_000_0640 : S128x64.Pads (![0, 0] : Fin 2 → Nat) ![0, 64] ![0, 0] S128x128
  h_S_ : 0 < S_.numel
  pads_S64_S128_0640 : S64.Pads (![0] : Fin 1 → Nat) ![64] ![0] S128
  shapeCasts_S128x128_S128x128 : S128x128.ShapeCasts S128x128
  shapeCasts_S128_S128 : S128.ShapeCasts S128
  slices_S50000x128_S50000x64_0_0 : S50000x128.Slices ![0, 0] S50000x64
  scatter_S50000_S800000x1_S800000_n_0_0_1_wf : ScatterDims.WF S50000 S800000x1 S800000 [] [0] [0] 1
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S50000x128.size a
  hwx2_9 : ∀ i : grid2.Coords, EltTy.bits .f32 = 32 ∨ (Rect.block (s := S50000x128) S5000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128.size a ≤ S128.size a
  hwx3_9 : ∀ i : grid3.Coords, EltTy.bits .f32 = 32 ∨ (Rect.block (s := S128) S128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S128x128.size a ≤ S128x128.size a
  hwx3_10 : ∀ i : grid3.Coords, EltTy.bits .f32 = 32 ∨ (Rect.block (s := S128x128) S128x128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S128.size a ≤ S128.size a
  hwx3_11 : ∀ i : grid3.Coords, EltTy.bits .f32 = 32 ∨ (Rect.block (s := S128) S128.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S5000x128.size a ≤ S50000x128.size a
  hwx3_12 : ∀ i : grid3.Coords, EltTy.bits .f32 = 32 ∨ (Rect.block (s := S50000x128) S5000x128.size (cc3_transform_12 i) (hinb3_12 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v19) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg13) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg14) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg15) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v30) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v40) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg16) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg17) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg18) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg19) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg20) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg21) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg22) S128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v41) S128x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v42) S128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v43) S5000x128.size cc3_transform_12 reads3_12 true false 2 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

class Facts : Prop extends Facts₀ where

variable [Facts]
-- ==== ReferenceIdeal.lean ====
abbrev S50000x64 : Shape := ⟨2, ![50000, 64]⟩
abbrev S800000 : Shape := ⟨1, ![800000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S50000x128 : Shape := ⟨2, ![50000, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S1x64 : Shape := ⟨2, ![1, 64]⟩

abbrev nBuf : Space → Nat
  | .hbm => 255
  | .vmem => 0
  | .smem => 0
  | _ => 0

abbrev hbmTy0_0 (i : Nat) : BufTy := match i % 128 with
  | 0 => ⟨S50000x64, .f32⟩
  | 1 => ⟨S800000, .i32⟩
  | 2 => ⟨S800000, .i32⟩
  | 3 => ⟨S64x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128x128, .f32⟩
  | 16 => ⟨S128, .f32⟩
  | 17 => ⟨S128, .f32⟩
  | 18 => ⟨S128, .f32⟩
  | 19 => ⟨S128, .f32⟩
  | 20 => ⟨S128, .f32⟩
  | 21 => ⟨S128x128, .f32⟩
  | 22 => ⟨S128, .f32⟩
  | 23 => ⟨S128x64, .f32⟩
  | 24 => ⟨S64, .f32⟩
  | 25 => ⟨S50000x128, .f32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S50000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S800000, .f32⟩
  | 55 => ⟨S800000x1, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x128, .f32⟩
  | 65 => ⟨S800000x128, .f32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S50000, .f32⟩
  | 72 => ⟨S50000x1, .f32⟩
  | 73 => ⟨S50000x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S128, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S50000x128, .f32⟩
  | 99 => ⟨S_, .f32⟩
  | 100 => ⟨S800000, .f32⟩
  | 101 => ⟨S_, .f32⟩
  | 102 => ⟨S50000, .f32⟩
  | 103 => ⟨S800000x1, .i32⟩
  | 104 => ⟨S50000, .f32⟩
  | 105 => ⟨S_, .f32⟩
  | 106 => ⟨S50000, .f32⟩
  | 107 => ⟨S50000, .f32⟩
  | 108 => ⟨S50000, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000, .f32⟩
  | 127 => ⟨S800000, .f32⟩
  | _ => ⟨S50000x64, .f32⟩

abbrev hbmTy0_1 (i : Nat) : BufTy := match i % 128 with
  | 0 => ⟨S800000x1, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x128, .f32⟩
  | 10 => ⟨S800000x128, .f32⟩
  | 11 => ⟨S800000x128, .f32⟩
  | 12 => ⟨S_, .f32⟩
  | 13 => ⟨S50000x128, .f32⟩
  | 14 => ⟨S800000x1, .i32⟩
  | 15 => ⟨S50000x128, .f32⟩
  | 16 => ⟨S50000, .f32⟩
  | 17 => ⟨S50000x1, .f32⟩
  | 18 => ⟨S50000x128, .f32⟩
  | 19 => ⟨S50000x128, .f32⟩
  | 20 => ⟨S50000x128, .f32⟩
  | 21 => ⟨S1x128, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S_, .f32⟩
  | 28 => ⟨S128, .f32⟩
  | 29 => ⟨S128, .f32⟩
  | 30 => ⟨S128, .f32⟩
  | 31 => ⟨S1x128, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S1x128, .f32⟩
  | 38 => ⟨S50000x128, .f32⟩
  | 39 => ⟨S50000x128, .f32⟩
  | 40 => ⟨S_, .f32⟩
  | 41 => ⟨S50000x128, .f32⟩
  | 42 => ⟨S50000x128, .f32⟩
  | 43 => ⟨S50000x128, .f32⟩
  | 44 => ⟨S_, .f32⟩
  | 45 => ⟨S800000, .f32⟩
  | 46 => ⟨S_, .f32⟩
  | 47 => ⟨S50000, .f32⟩
  | 48 => ⟨S800000x1, .i32⟩
  | 49 => ⟨S50000, .f32⟩
  | 50 => ⟨S_, .f32⟩
  | 51 => ⟨S50000, .f32⟩
  | 52 => ⟨S50000, .f32⟩
  | 53 => ⟨S50000, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000, .f32⟩
  | 72 => ⟨S800000, .f32⟩
  | 73 => ⟨S800000x1, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x128, .f32⟩
  | 83 => ⟨S800000x128, .f32⟩
  | 84 => ⟨S800000x128, .f32⟩
  | 85 => ⟨S_, .f32⟩
  | 86 => ⟨S50000x128, .f32⟩
  | 87 => ⟨S800000x1, .i32⟩
  | 88 => ⟨S50000x128, .f32⟩
  | 89 => ⟨S50000, .f32⟩
  | 90 => ⟨S50000x1, .f32⟩
  | 91 => ⟨S50000x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S_, .f32⟩
  | 101 => ⟨S128, .f32⟩
  | 102 => ⟨S128, .f32⟩
  | 103 => ⟨S128, .f32⟩
  | 104 => ⟨S1x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S50000x64, .f32⟩
  | 124 => ⟨S1x64, .f32⟩
  | 125 => ⟨S50000x64, .f32⟩
  | 126 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_cst_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst_1 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_c : Ref sig .tc := ⟨.hbm, 36, rfl⟩
abbrev main_v8 : Ref sig .tc := ⟨.hbm, 37, rfl⟩
abbrev main_v9 : Ref sig .tc := ⟨.hbm, 38, rfl⟩
abbrev main_c_2 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_c_3 : Ref sig .tc := ⟨.hbm, 45, rfl⟩
abbrev main_v15 : Ref sig .tc := ⟨.hbm, 46, rfl⟩
abbrev main_v16 : Ref sig .tc := ⟨.hbm, 47, rfl⟩
abbrev main_c_4 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_c_5 : Ref sig .tc := ⟨.hbm, 56, rfl⟩
abbrev main_v24 : Ref sig .tc := ⟨.hbm, 57, rfl⟩
abbrev main_v25 : Ref sig .tc := ⟨.hbm, 58, rfl⟩
abbrev main_c_6 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_7 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_8 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_call0_cst : Ref sig .tc := ⟨.hbm, 95, rfl⟩
abbrev main_call0_v0 : Ref sig .tc := ⟨.hbm, 96, rfl⟩
abbrev main_v59 : Ref sig .tc := ⟨.hbm, 97, rfl⟩
abbrev main_v60 : Ref sig .tc := ⟨.hbm, 98, rfl⟩
abbrev main_cst_9 : Ref sig .tc := ⟨.hbm, 99, rfl⟩
abbrev main_v61 : Ref sig .tc := ⟨.hbm, 100, rfl⟩
abbrev main_cst_10 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_11 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_c_12 : Ref sig .tc := ⟨.hbm, 109, rfl⟩
abbrev main_v68 : Ref sig .tc := ⟨.hbm, 110, rfl⟩
abbrev main_v69 : Ref sig .tc := ⟨.hbm, 111, rfl⟩
abbrev main_c_13 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_c_14 : Ref sig .tc := ⟨.hbm, 118, rfl⟩
abbrev main_v75 : Ref sig .tc := ⟨.hbm, 119, rfl⟩
abbrev main_v76 : Ref sig .tc := ⟨.hbm, 120, rfl⟩
abbrev main_c_15 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_c_16 : Ref sig .tc := ⟨.hbm, 129, rfl⟩
abbrev main_v84 : Ref sig .tc := ⟨.hbm, 130, rfl⟩
abbrev main_v85 : Ref sig .tc := ⟨.hbm, 131, rfl⟩
abbrev main_c_17 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_18 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_19 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_call1_cst : Ref sig .tc := ⟨.hbm, 168, rfl⟩
abbrev main_call1_v0 : Ref sig .tc := ⟨.hbm, 169, rfl⟩
abbrev main_v119 : Ref sig .tc := ⟨.hbm, 170, rfl⟩
abbrev main_v120 : Ref sig .tc := ⟨.hbm, 171, rfl⟩
abbrev main_cst_20 : Ref sig .tc := ⟨.hbm, 172, rfl⟩
abbrev main_v121 : Ref sig .tc := ⟨.hbm, 173, rfl⟩
abbrev main_cst_21 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_cst_22 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_c_23 : Ref sig .tc := ⟨.hbm, 182, rfl⟩
abbrev main_v128 : Ref sig .tc := ⟨.hbm, 183, rfl⟩
abbrev main_v129 : Ref sig .tc := ⟨.hbm, 184, rfl⟩
abbrev main_c_24 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_c_25 : Ref sig .tc := ⟨.hbm, 191, rfl⟩
abbrev main_v135 : Ref sig .tc := ⟨.hbm, 192, rfl⟩
abbrev main_v136 : Ref sig .tc := ⟨.hbm, 193, rfl⟩
abbrev main_c_26 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_c_27 : Ref sig .tc := ⟨.hbm, 202, rfl⟩
abbrev main_v144 : Ref sig .tc := ⟨.hbm, 203, rfl⟩
abbrev main_v145 : Ref sig .tc := ⟨.hbm, 204, rfl⟩
abbrev main_c_28 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_cst_29 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_cst_30 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_call2_cst : Ref sig .tc := ⟨.hbm, 241, rfl⟩
abbrev main_call2_v0 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_call3_cst : Ref sig .tc := ⟨.hbm, 248, rfl⟩
abbrev main_call3_v0 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x64_S64x128_S50000x128_1_0_0_1_n_n_wf : DotDims.WF S50000x64 S64x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  A three-layer graph convolution with inference batch norm and a two-layer head, as plain functions of rows.

  Nodes are `Fin N`, edges `Fin E`, and an edge carries two 32-bit words: its source and its destination.
  An edge lands on node `i` when its destination word, read as a signed integer, is `i`; it reads the node
  named by its source word, read signed after a negative word has had the number of nodes added, and clamped into the nodes.
  With `deg i` one plus the number of edges landing on `i` and `d i = deg i ^ (-1/2)`, one convolution of the
  rows `h` is, at node `i`,

      (sum over the edges e landing on i of  h (s e) * (d (s e) * d (t e)))  +  h i * (d i * d i)  +  b

  (`convRow`), where `t e` is the destination word read the way the source word is. Since every edge in the sum has
  `t e = i`, and `d i` is a nonnegative real, this is

      d i * ((sum over the edges e landing on i of  h (s e) * d (s e))  +  h i * d i)  +  b

  (`combineRow` of the aggregated and the own SCALED rows `h * d`): multiplication by a nonnegative real distributes
  over every sum of extended reals. The two networks below differ only in which of the two forms each layer uses.
-/
import Idealize.ShloMosaic.PureOps.Ideal
import Idealize.ShloMosaic.Lib.ValueIdx

noncomputable section

open Idealize.ShloMosaic Idealize.ShloMosaic.ValueIdx

namespace Cert.Gcn

/-- The batch norm's epsilon, zero and one, as the 32-bit patterns both programs spell. -/
abbrev eps32 : EReal := Ideal.ofBits .f32 0x3727C5AC#32
abbrev zero32 : EReal := Ideal.ofBits .f32 0x00000000#32
abbrev one32 : EReal := Ideal.ofBits .f32 0x3F800000#32

section Rows
variable {K F G H : Nat}

/-- A row against a matrix. -/
def rowMat (a : Fin K → EReal) (W : Fin K → Fin F → EReal) : Fin F → EReal := fun f => ∑ k : Fin K, a k * W k f

/-- Inference batch norm, then the positive part, feature by feature. -/
def bnRelu (z m v g be : Fin F → EReal) : Fin F → EReal :=
  fun f => max ((z f - m f) * Ideal.rsqrt (v f + eps32) * g f + be f) zero32

/-- A node's aggregated row `sc` and its own scaled row `hs`, combined and biased. -/
def combineRow (d : EReal) (sc hs b : Fin F → EReal) : Fin F → EReal := fun f => d * (sc f + hs f) + b f

/-- A row projected, then scaled by the node's `d`. -/
def projRow (x : Fin K → EReal) (W : Fin K → Fin F → EReal) (d : EReal) : Fin F → EReal := fun f => rowMat x W f * d

/-- A middle layer's row: combine, normalize, project into the next layer, scale. -/
def layerRow (sc hs : Fin F → EReal) (d : EReal) (b g be m v : Fin F → EReal) (W : Fin F → Fin G → EReal) : Fin G → EReal :=
  projRow (bnRelu (combineRow d sc hs b) m v g be) W d

/-- The head: a hidden layer with a positive part, then the output layer. -/
def headRow (a : Fin F → EReal) (W1 : Fin F → Fin G → EReal) (b1 : Fin G → EReal) (W2 : Fin G → Fin H → EReal)
    (b2 : Fin H → EReal) : Fin H → EReal :=
  fun j => rowMat (fun k => max (rowMat a W1 k + b1 k) zero32) W2 j + b2 j

/-- The last layer's row: combine, normalize, then the head. -/
def finalRow (sc hs : Fin F → EReal) (d : EReal) (b g be m v : Fin F → EReal) (W1 : Fin F → Fin G → EReal)
    (b1 : Fin G → EReal) (W2 : Fin G → Fin H → EReal) (b2 : Fin H → EReal) : Fin H → EReal :=
  headRow (bnRelu (combineRow d sc hs b) m v g be) W1 b1 W2 b2

/-- The head's columns that an output layer padded with further columns shares with the unpadded one. -/
theorem headRow_cols {H' : Nat} (a : Fin F → EReal) (W1 : Fin F → Fin G → EReal) (b1 : Fin G → EReal)
    (Wp : Fin G → Fin H' → EReal) (bp : Fin H' → EReal) (W2 : Fin G → Fin H → EReal) (b2 : Fin H → EReal)
    (ι : Fin H → Fin H') (hW : ∀ k j, Wp k (ι j) = W2 k j) (hb : ∀ j, bp (ι j) = b2 j) (j : Fin H) :
    headRow a W1 b1 Wp bp (ι j) = headRow a W1 b1 W2 b2 j := by
  unfold headRow rowMat
  rw [hb j]
  exact congrArg (· + b2 j) (Finset.sum_congr rfl fun k _ => by rw [hW k j])

end Rows

section Graph
variable {N E : Nat}

/-- A source or destination word as the gathers read it: a negative word has the number of nodes added. -/
def wrapWord (N : Nat) (w : BitVec 32) : BitVec 32 :=
  Scalar.select (IntOp.cmpi .slt w 0#32) (IntOp.addi w (BitVec.ofNat 32 N)) w

/-- The node a word names for a gather: wrapped, read signed, clamped into the nodes. -/
def nodeOf (hN : 0 < N) (w : BitVec 32) : Fin N := ⟨min (wrapWord N w).toInt.toNat (N - 1), by omega⟩

/-- One plus the number of edges landing on `i`. -/
def deg (dst : Fin E → BitVec 32) (i : Fin N) : EReal :=
  one32 + (zero32 + ∑ e : Fin E, if (dst e).toInt = (i.val : Int) then one32 else 0)

/-- `deg ^ (-1/2)`. -/
def dinv (dst : Fin E → BitVec 32) (i : Fin N) : EReal := Ideal.rsqrt (deg dst i)

variable {F : Nat}

/-- The rows `u` of the edges' source nodes, summed over the edges landing on `i`. -/
def agg (hN : 0 < N) (src dst : Fin E → BitVec 32) (u : Fin N → Fin F → EReal) (i : Fin N) : Fin F → EReal :=
  fun f => zero32 + ∑ e : Fin E, if (dst e).toInt = (i.val : Int) then u (nodeOf hN (src e)) f else 0

/-- One convolution of the rows `h` in the reference's form: each edge weighted by `d` at both its ends, the
    node's own row by `d * d`. -/
def convRow (hN : 0 < N) (src dst : Fin E → BitVec 32) (h : Fin N → Fin F → EReal) (b : Fin F → EReal) (i : Fin N) :
    Fin F → EReal :=
  fun f => ((zero32 + ∑ e : Fin E, if (dst e).toInt = (i.val : Int) then
        h (nodeOf hN (src e)) f * (dinv dst (nodeOf hN (src e)) * dinv (N := N) dst (nodeOf hN (dst e))) else 0)
      + h i f * (dinv dst i * dinv dst i)) + b f

end Graph

/-- The arguments of the network, as rows. -/
structure Args where
  x : Fin 50000 → Fin 64 → EReal
  src : Fin 800000 → BitVec 32
  dst : Fin 800000 → BitVec 32
  W0 : Fin 64 → Fin 128 → EReal
  b0 : Fin 128 → EReal
  g0 : Fin 128 → EReal
  be0 : Fin 128 → EReal
  m0 : Fin 128 → EReal
  v0 : Fin 128 → EReal
  W1 : Fin 128 → Fin 128 → EReal
  b1 : Fin 128 → EReal
  g1 : Fin 128 → EReal
  be1 : Fin 128 → EReal
  m1 : Fin 128 → EReal
  v1 : Fin 128 → EReal
  W2 : Fin 128 → Fin 128 → EReal
  b2 : Fin 128 → EReal
  g2 : Fin 128 → EReal
  be2 : Fin 128 → EReal
  m2 : Fin 128 → EReal
  v2 : Fin 128 → EReal
  Wm1 : Fin 128 → Fin 128 → EReal
  bm1 : Fin 128 → EReal
  Wm2 : Fin 128 → Fin 64 → EReal
  bm2 : Fin 64 → EReal

theorem nodes_pos : 0 < 50000 := by decide

namespace Args
variable (A : Args)

/-- `d` at a node. -/
def d (i : Fin 50000) : EReal := dinv A.dst i

/-! ### The network with every layer in the scaled form -/

def hs0 (i : Fin 50000) : Fin 128 → EReal := projRow (A.x i) A.W0 (A.d i)
def hs1 (i : Fin 50000) : Fin 128 → EReal :=
  layerRow (agg nodes_pos A.src A.dst A.hs0 i) (A.hs0 i) (A.d i) A.b0 A.g0 A.be0 A.m0 A.v0 A.W1
def hs2 (i : Fin 50000) : Fin 128 → EReal :=
  layerRow (agg nodes_pos A.src A.dst A.hs1 i) (A.hs1 i) (A.d i) A.b1 A.g1 A.be1 A.m1 A.v1 A.W2
/-- The result, scaled form. -/
def outScaled (i : Fin 50000) : Fin 64 → EReal :=
  finalRow (agg nodes_pos A.src A.dst A.hs2 i) (A.hs2 i) (A.d i) A.b2 A.g2 A.be2 A.m2 A.v2 A.Wm1 A.bm1 A.Wm2 A.bm2

/-! ### The network with every layer in the reference's form -/

def a0 (i : Fin 50000) : Fin 128 → EReal :=
  bnRelu (convRow nodes_pos A.src A.dst (fun n => rowMat (A.x n) A.W0) A.b0 i) A.m0 A.v0 A.g0 A.be0
def a1 (i : Fin 50000) : Fin 128 → EReal :=
  bnRelu (convRow nodes_pos A.src A.dst (fun n => rowMat (A.a0 n) A.W1) A.b1 i) A.m1 A.v1 A.g1 A.be1
def a2 (i : Fin 50000) : Fin 128 → EReal :=
  bnRelu (convRow nodes_pos A.src A.dst (fun n => rowMat (A.a1 n) A.W2) A.b2 i) A.m2 A.v2 A.g2 A.be2
/-- The result, reference form. -/
def outRef (i : Fin 50000) : Fin 64 → EReal := headRow (A.a2 i) A.Wm1 A.bm1 A.Wm2 A.bm2

end Args

/-- The 25 argument arrays, read as rows. -/
def argsOf
    (x0 : (⟨2, ![50000, 64]⟩ : Shape).Idx → EReal) (x1 x2 : (⟨1, ![800000]⟩ : Shape).Idx → BitVec 32)
    (x3 : (⟨2, ![64, 128]⟩ : Shape).Idx → EReal) (x4 x5 x6 x7 x8 : (⟨1, ![128]⟩ : Shape).Idx → EReal)
    (x9 : (⟨2, ![128, 128]⟩ : Shape).Idx → EReal) (x10 x11 x12 x13 x14 : (⟨1, ![128]⟩ : Shape).Idx → EReal)
    (x15 : (⟨2, ![128, 128]⟩ : Shape).Idx → EReal) (x16 x17 x18 x19 x20 : (⟨1, ![128]⟩ : Shape).Idx → EReal)
    (x21 : (⟨2, ![128, 128]⟩ : Shape).Idx → EReal) (x22 : (⟨1, ![128]⟩ : Shape).Idx → EReal)
    (x23 : (⟨2, ![128, 64]⟩ : Shape).Idx → EReal) (x24 : (⟨1, ![64]⟩ : Shape).Idx → EReal) : Args where
  x := fun i k => x0 (ix2 i k)
  src := fun e => x1 (ix1 e)
  dst := fun e => x2 (ix1 e)
  W0 := fun k f => x3 (ix2 k f)
  b0 := fun f => x4 (ix1 f)
  g0 := fun f => x5 (ix1 f)
  be0 := fun f => x6 (ix1 f)
  m0 := fun f => x7 (ix1 f)
  v0 := fun f => x8 (ix1 f)
  W1 := fun k f => x9 (ix2 k f)
  b1 := fun f => x10 (ix1 f)
  g1 := fun f => x11 (ix1 f)
  be1 := fun f => x12 (ix1 f)
  m1 := fun f => x13 (ix1 f)
  v1 := fun f => x14 (ix1 f)
  W2 := fun k f => x15 (ix2 k f)
  b2 := fun f => x16 (ix1 f)
  g2 := fun f => x17 (ix1 f)
  be2 := fun f => x18 (ix1 f)
  m2 := fun f => x19 (ix1 f)
  v2 := fun f => x20 (ix1 f)
  Wm1 := fun k f => x21 (ix2 k f)
  bm1 := fun f => x22 (ix1 f)
  Wm2 := fun k f => x23 (ix2 k f)
  bm2 := fun f => x24 (ix1 f)

end Cert.Gcn

end
-- ==== Proof.Law.lean ====
/-
  The two forms of the network are one function.

  Each `d i` is a nonnegative real: `deg i` is one plus a count, a real at least one, and its inverse square root is a
  nonnegative real. An edge landing on `i` has a destination word that, read signed, is `i`: it is not negative, so
  wrapping leaves it alone, and clamped it still names `i`. Multiplication by a nonnegative real distributes over any sum
  of extended reals — infinite terms included, which matters from the second layer on, where a batch norm's scale may be
  infinite — and multiplication of extended reals is commutative and associative. So one convolution in the reference's
  form,  (sum of h (s e) * (d (s e) * d i)) + h i * (d i * d i) + b,  is  d i * ((sum of h (s e) * d (s e)) + h i * d i) + b,
  the combination of the aggregated and the own scaled rows; layer by layer the two networks agree.
-/
import proofs.«172491_j1821066133824_2_alg».proof.Proof.Spec
import Idealize.ShloMosaic.PureOps.Ideal.Laws

noncomputable section

open Idealize.ShloMosaic

namespace Cert.Gcn

/-- The zero pattern denotes 0. -/
theorem zero32_eq : zero32 = 0 := Ideal.ofBits_zero_f32

/-- The pattern of one denotes 1. -/
theorem one32_eq : one32 = 1 := by
  simp [one32, Ideal.ofBits, Ideal.ieee]
  exact_mod_cast (by norm_num : (8388608 : ℝ) * ((2 : ℝ) ^ 23)⁻¹ = 1)

/-- A count is a nonnegative real. -/
theorem count_real {ι : Type} (s : Finset ι) (p : ι → Prop) [DecidablePred p] :
    ∃ r : ℝ, 0 ≤ r ∧ (∑ e ∈ s, if p e then (1 : EReal) else 0) = (r : EReal) := by
  classical
  induction s using Finset.induction_on with
  | empty => exact ⟨0, le_rfl, by simp⟩
  | insert a s ha ih =>
    obtain ⟨r, hr, h⟩ := ih
    rw [Finset.sum_insert ha, h]
    by_cases hp : p a
    · refine ⟨1 + r, by linarith, ?_⟩
      rw [if_pos hp, EReal.coe_add, EReal.coe_one]
    · exact ⟨r, hr, by rw [if_neg hp, zero_add]⟩

/-- `d` at a node is a nonnegative real: the degree is one plus a count. -/
theorem dinv_nonneg {N E : Nat} (dst : Fin E → BitVec 32) (i : Fin N) : 0 ≤ dinv dst i ∧ dinv dst i ≠ ⊤ := by
  obtain ⟨r, hr, h⟩ := count_real Finset.univ (fun e : Fin E => (dst e).toInt = (i.val : Int))
  unfold dinv deg
  rw [one32_eq, zero32_eq, zero_add, h, ← EReal.coe_one, ← EReal.coe_add, Ideal.rsqrt_coe,
    if_neg (by linarith), if_neg (by linarith)]
  exact ⟨EReal.coe_nonneg.mpr (inv_nonneg.mpr (Real.sqrt_nonneg _)), EReal.coe_ne_top _⟩

/-- Wrapping leaves a word alone whose signed reading is not negative. -/
theorem wrapWord_of_nonneg (N : Nat) (w : BitVec 32) (h : 0 ≤ w.toInt) : wrapWord N w = w := by
  have hs : w.slt 0#32 = false := by
    rw [BitVec.slt]
    simp only [BitVec.toInt_zero, decide_eq_false_iff_not, not_lt]
    exact h
  unfold wrapWord Scalar.select IntOp.cmpi
  simp [hs]

/-- A word whose signed reading is the node `i` names `i`. -/
theorem nodeOf_of_toInt {N : Nat} (hN : 0 < N) (w : BitVec 32) (i : Fin N) (h : w.toInt = (i.val : Int)) :
    nodeOf hN w = i := by
  apply Fin.ext
  show min (wrapWord N w).toInt.toNat (N - 1) = i.val
  rw [wrapWord_of_nonneg N w (by omega), h]
  have := i.isLt
  simp only [Int.toNat_natCast]
  omega

/-- A nonnegative real distributes over a sum of extended reals. -/
theorem mul_sum_of_nonneg {ι : Type} (s : Finset ι) (d : EReal) (hd : 0 ≤ d) (hd' : d ≠ ⊤) (f : ι → EReal) :
    d * ∑ e ∈ s, f e = ∑ e ∈ s, d * f e := by
  classical
  induction s using Finset.induction_on with
  | empty => simp
  | insert a s ha ih =>
    rw [Finset.sum_insert ha, Finset.sum_insert ha, EReal.left_distrib_of_nonneg_of_ne_top hd hd', ih]

/-- THE LAYER LAW: one convolution in the reference's form is the combination of the aggregated and the own scaled rows. -/
theorem convRow_eq {N E F : Nat} (hN : 0 < N) (src dst : Fin E → BitVec 32) (h : Fin N → Fin F → EReal)
    (b : Fin F → EReal) (i : Fin N) :
    convRow hN src dst h b i
      = combineRow (dinv dst i) (agg hN src dst (fun n f => h n f * dinv dst n) i) (fun f => h i f * dinv dst i) b := by
  funext f
  obtain ⟨hd, hd'⟩ := dinv_nonneg (N := N) dst i
  unfold convRow combineRow agg
  rw [zero32_eq, zero_add, zero_add]
  refine congrArg (· + b f) ?_
  rw [EReal.left_distrib_of_nonneg_of_ne_top hd hd', mul_sum_of_nonneg _ _ hd hd']
  refine congrArg₂ (· + ·) (Finset.sum_congr rfl fun e _ => ?_) ?_
  · by_cases he : (dst e).toInt = (i.val : Int)
    · rw [if_pos he, if_pos he, nodeOf_of_toInt hN (dst e) i he,
        mul_comm (dinv dst i) (h (nodeOf hN (src e)) f * dinv dst (nodeOf hN (src e))), mul_assoc]
    · rw [if_neg he, if_neg he, mul_zero]
  · rw [mul_comm (dinv dst i) (h i f * dinv dst i), mul_assoc]

namespace Args
variable (A : Args)

theorem hs0_eq : A.hs0 = fun n f => rowMat (A.x n) A.W0 f * dinv A.dst n := rfl

theorem a0_eq (i : Fin 50000) :
    A.a0 i = bnRelu (combineRow (A.d i) (agg nodes_pos A.src A.dst A.hs0 i) (A.hs0 i) A.b0) A.m0 A.v0 A.g0 A.be0 := by
  unfold a0
  rw [convRow_eq]
  rfl

theorem hs1_eq : A.hs1 = fun n f => rowMat (A.a0 n) A.W1 f * dinv A.dst n := by
  funext n
  unfold hs1 layerRow
  rw [← a0_eq]
  rfl

theorem a1_eq (i : Fin 50000) :
    A.a1 i = bnRelu (combineRow (A.d i) (agg nodes_pos A.src A.dst A.hs1 i) (A.hs1 i) A.b1) A.m1 A.v1 A.g1 A.be1 := by
  unfold a1
  rw [convRow_eq, hs1_eq]
  rfl

theorem hs2_eq : A.hs2 = fun n f => rowMat (A.a1 n) A.W2 f * dinv A.dst n := by
  funext n
  unfold hs2 layerRow
  rw [← a1_eq]
  rfl

theorem a2_eq (i : Fin 50000) :
    A.a2 i = bnRelu (combineRow (A.d i) (agg nodes_pos A.src A.dst A.hs2 i) (A.hs2 i) A.b2) A.m2 A.v2 A.g2 A.be2 := by
  unfold a2
  rw [convRow_eq, hs2_eq]
  rfl

/-- The network in the scaled form is the network in the reference's form. -/
theorem outScaled_eq_outRef (i : Fin 50000) : A.outScaled i = A.outRef i := by
  unfold outScaled finalRow outRef
  rw [← a2_eq]

end Args

end Cert.Gcn

end
-- ==== Proof.LibHostScatterAdd.lean ====
/-
  An accumulating scatter (`.at[idx].add(v)`) as it is printed, read at an entry.

  The printed scatter is a left fold over the update entries in row-major order: an entry whose result index is inside
  the operand replaces the operand's element there by the body applied to it and the update, an entry landing outside
  is dropped. When the body is addition in a commutative monoid the order is immaterial and the fold reads, at every
  entry `i` and for ANY dimension numbers, as the operand's entry plus the sum of the updates whose result index is `i`.
  The rank-one case with a column `[B, 1]` of scatter indices — `zeros(N).at[idx].add(v)` — then has update `j` landing
  at `idx j`, read as a signed integer and not clamped, when that is inside `[0, N)`.
-/
import Idealize.ShloMosaic.PureOps
import Idealize.ShloMosaic.Lib.ValueIdx
import Mathlib.Data.BitVec

noncomputable section

open Idealize.ShloMosaic Idealize.ShloMosaic.ValueIdx

namespace Cert.HostInt

/-- One step of the fold, read at an entry: the entry gains the update exactly when the update lands on it. -/
theorem scatter_step_apply {α : Type} [AddCommMonoid α] {s : Shape} (r : s.Idx → α) (o : Option s.Idx) (v : α) (i : s.Idx) :
    (match o with
      | some i0 => fun i' => if i' = i0 then r i0 + v else r i'
      | none => r) i = r i + if o = some i then v else 0 := by
  cases o with
  | none => simp
  | some i0 =>
    show (if i = i0 then r i0 + v else r i) = r i + if some i0 = some i then v else 0
    by_cases h : i = i0
    · subst h; simp
    · rw [if_neg h, if_neg (fun hh => h (Option.some.inj hh).symm), add_zero]

/-- THE ACCUMULATING SCATTER AT AN ENTRY, for any dimension numbers: the operand's entry plus the updates landing on it. -/
theorem scatter_add_apply {α : Type} [AddCommMonoid α] {s si u : Shape} {w : Nat} (d : ScatterDims s si u)
    (x : s.Idx → α) (idx : IVec si w) (upd : u.Idx → α) (i : s.Idx) :
    Host.scatter d (· + ·) x idx upd i = x i + ∑ j : u.Idx, if d.resultIdx? j idx = some i then upd j else 0 := by
  unfold Host.scatter
  have h : ∀ (l : List (Fin u.numel)) (r : s.Idx → α),
      (l.foldl (fun r n =>
        match d.resultIdx? (u.rowMajor.symm n) idx with
        | some i0 => fun i' => if i' = i0 then r i0 + upd (u.rowMajor.symm n) else r i'
        | none => r) r) i
      = r i + (l.map fun n => if d.resultIdx? (u.rowMajor.symm n) idx = some i then upd (u.rowMajor.symm n) else 0).sum := by
    intro l
    induction l with
    | nil => intro r; simp
    | cons n l ih =>
      intro r
      rw [List.foldl_cons, ih, scatter_step_apply, List.map_cons, List.sum_cons, add_assoc]
  refine (h (List.finRange u.numel) x).trans ?_
  rw [← Fin.sum_univ_def]
  refine congrArg (x i + ·) ?_
  exact Equiv.sum_comp u.rowMajor.symm fun j => if d.resultIdx? j idx = some i then upd j else 0

/-- The dimension numbers of `operand.at[idx].add(v)`: operand `[N]`, scatter indices `[B, 1]`, updates `[B]`. -/
abbrev colScatterDims (N B : Nat) (wf : ScatterDims.WF ⟨1, ![N]⟩ ⟨2, ![B, 1]⟩ ⟨1, ![B]⟩ [] [0] [0] 1) :
    ScatterDims ⟨1, ![N]⟩ ⟨2, ![B, 1]⟩ ⟨1, ![B]⟩ where
  updateWindowDims := []
  insertedWindowDims := [0]
  scatterDimsToOperandDims := [0]
  indexVectorDim := 1
  wf := wf

/-- The scatter-indices entry that update `j` reads. -/
abbrev colEntry {B : Nat} (j : Fin B) : (⟨2, ![B, 1]⟩ : Shape).Idx := ix2 j ⟨0, Nat.one_pos⟩

section
variable {N B w : Nat} (wf : ScatterDims.WF ⟨1, ![N]⟩ ⟨2, ![B, 1]⟩ ⟨1, ![B]⟩ [] [0] [0] 1)
  (idx : IVec ⟨2, ![B, 1]⟩ w) (j : Fin B)

theorem col_start : (colScatterDims N B wf).start (ix1 j) idx 0 = (idx (colEntry j)).toInt := by
  unfold ScatterDims.start
  rw [dif_pos (show (0 : Fin 1) ∈ (colScatterDims N B wf).scatterDimsToOperandDims from List.mem_singleton.mpr rfl)]
  have hsi : (colScatterDims N B wf).siIdx (ix1 j)
      ⟨List.idxOf (0 : Fin 1) (colScatterDims N B wf).scatterDimsToOperandDims,
        List.idxOf_lt_length_iff.2 (List.mem_singleton.mpr rfl)⟩ = colEntry j := by
    funext b; refine Fin.ext ?_
    match b with
    | ⟨0, _⟩ => rfl
    | ⟨1, _⟩ => rfl
  rw [hsi]

theorem col_window : (colScatterDims N B wf).window (ix1 j) 0 = 0 := by
  unfold ScatterDims.window
  rw [dif_neg]
  simp [ScatterDims.sKept, Shape.kept, List.mem_filter, List.mem_finRange]

/-- WHERE UPDATE `j` LANDS: at `idx j`, read signed, when that is an index of the operand; nowhere otherwise. -/
theorem resultIdx?_col :
    (colScatterDims N B wf).resultIdx? (ix1 j) idx
      = if h : 0 ≤ (idx (colEntry j)).toInt ∧ (idx (colEntry j)).toInt < N then
          some (ix1 ⟨(idx (colEntry j)).toInt.toNat, by omega⟩)
        else none := by
  unfold ScatterDims.resultIdx?
  by_cases h : 0 ≤ (idx (colEntry j)).toInt ∧ (idx (colEntry j)).toInt < N
  · have hall : ∀ a : Fin 1, 0 ≤ (colScatterDims N B wf).start (ix1 j) idx a + (colScatterDims N B wf).window (ix1 j) a
        ∧ (colScatterDims N B wf).start (ix1 j) idx a + (colScatterDims N B wf).window (ix1 j) a
          < ((⟨1, ![N]⟩ : Shape).size a : Int) := by
      intro a
      obtain rfl : a = 0 := Subsingleton.elim _ _
      show 0 ≤ (colScatterDims N B wf).start (ix1 j) idx 0 + (colScatterDims N B wf).window (ix1 j) 0
        ∧ (colScatterDims N B wf).start (ix1 j) idx 0 + (colScatterDims N B wf).window (ix1 j) 0 < (N : Int)
      rw [col_start, col_window]
      simpa using h
    rw [dif_pos hall, dif_pos h]
    refine congrArg some (funext fun a => Fin.ext ?_)
    obtain rfl : a = 0 := Subsingleton.elim _ _
    show ((colScatterDims N B wf).start (ix1 j) idx 0 + (colScatterDims N B wf).window (ix1 j) 0).toNat
      = (idx (colEntry j)).toInt.toNat
    rw [col_start, col_window]
    simp
  · rw [dif_neg h, dif_neg]
    intro hall
    have h0 : 0 ≤ (colScatterDims N B wf).start (ix1 j) idx 0 + (colScatterDims N B wf).window (ix1 j) 0
        ∧ (colScatterDims N B wf).start (ix1 j) idx 0 + (colScatterDims N B wf).window (ix1 j) 0 < (N : Int) := hall 0
    rw [col_start, col_window] at h0
    exact h (by simpa using h0)

end

/-- THE RANK-ONE ACCUMULATING SCATTER AT AN ENTRY: the operand's entry plus the updates whose start index, read
    signed, is `i`. -/
theorem scatter_add_col_apply {α : Type} [AddCommMonoid α] {N B w : Nat}
    (wf : ScatterDims.WF ⟨1, ![N]⟩ ⟨2, ![B, 1]⟩ ⟨1, ![B]⟩ [] [0] [0] 1)
    (x : (⟨1, ![N]⟩ : Shape).Idx → α) (idx : IVec ⟨2, ![B, 1]⟩ w) (upd : (⟨1, ![B]⟩ : Shape).Idx → α) (i : Fin N) :
    Host.scatter (colScatterDims N B wf) (· + ·) x idx upd (ix1 i)
      = x (ix1 i) + ∑ j : Fin B, if (idx (colEntry j)).toInt = (i.val : Int) then upd (ix1 j) else 0 := by
  rw [scatter_add_apply]
  refine congrArg (x (ix1 i) + ·) ?_
  have hi := i.isLt
  rw [← Equiv.sum_comp (⟨fun j : Fin B => (ix1 j : (⟨1, ![B]⟩ : Shape).Idx), fun y => y 0, fun _ => rfl,
    fun y => (eq_ix1 y).symm⟩ : Fin B ≃ (⟨1, ![B]⟩ : Shape).Idx)]
  refine Finset.sum_congr rfl fun j _ => ?_
  show (if (colScatterDims N B wf).resultIdx? (ix1 j) idx = some (ix1 i) then upd (ix1 j) else 0) = _
  rw [resultIdx?_col]
  by_cases h : 0 ≤ (idx (colEntry j)).toInt ∧ (idx (colEntry j)).toInt < N
  · rw [dif_pos h]
    by_cases ht : (idx (colEntry j)).toInt = (i.val : Int)
    · rw [if_pos ht, if_pos]
      refine congrArg some (funext fun a => Fin.ext ?_)
      obtain rfl : a = 0 := Subsingleton.elim _ _
      show (idx (colEntry j)).toInt.toNat = i.val
      omega
    · rw [if_neg ht, if_neg]
      intro hh
      have : (idx (colEntry j)).toInt.toNat = i.val := congrArg (fun y : (⟨1, ![N]⟩ : Shape).Idx => (y 0).val) (Option.some.inj hh)
      omega
  · rw [dif_neg h, if_neg (by simp), if_neg (by omega)]

end Cert.HostInt

end
-- ==== Proof.LibIdealEntries.lean ====
/-
  The rank-one accumulating float scatter at the ideal instance, read at an entry.

  `zeros(N).at[idx].add(v)` for a float vector `v : [B]` and a column `[B, 1]` of scatter indices is printed as the
  float scatter-add. At the ideal instance its value at entry `i` is the operand's entry plus the exact sum of the
  updates landing on `i`; update `j` lands at `idx j`, read as a signed integer and not clamped, when that is an index
  of the operand, and is dropped otherwise. So entry `i` is the operand's entry plus the sum of `v j` over the `j` whose
  index word, read signed, is `i` — with `v` all ones, the segment count.
-/
import proofs.«172491_j1821066133824_2_alg».proof.Proof.LibHostScatterAdd
import Idealize.ShloMosaic.PureOps.Ideal

noncomputable section

open Idealize.ShloMosaic Idealize.ShloMosaic.ValueIdx

namespace Cert.HostInt

/-- THE RANK-ONE FLOAT SCATTER-ADD AT AN ENTRY, at the ideal instance: the operand's entry plus the updates whose start
    index, read signed, is `i`. -/
theorem scatterAdd_col_apply {N B w : Nat} {φ : FTy}
    (wf : ScatterDims.WF ⟨1, ![N]⟩ ⟨2, ![B, 1]⟩ ⟨1, ![B]⟩ [] [0] [0] 1)
    (x : FVec Ideal ⟨1, ![N]⟩ φ) (idx : IVec ⟨2, ![B, 1]⟩ w) (upd : FVec Ideal ⟨1, ![B]⟩ φ) (i : Fin N) :
    Host.scatterAdd (F := Ideal) (colScatterDims N B wf) x idx upd (ix1 i)
      = x (ix1 i) + ∑ j : Fin B, if (idx (colEntry j)).toInt = (i.val : Int) then upd (ix1 j) else 0 := by
  show Ideal.hostScatterAdd (colScatterDims N B wf) x idx upd (ix1 i) = _
  unfold Ideal.hostScatterAdd
  refine congrArg (x (ix1 i) + ·) ?_
  rw [Finset.sum_filter]
  have hi := i.isLt
  rw [← Equiv.sum_comp (⟨fun j : Fin B => (ix1 j : (⟨1, ![B]⟩ : Shape).Idx), fun y => y 0, fun _ => rfl,
    fun y => (eq_ix1 y).symm⟩ : Fin B ≃ (⟨1, ![B]⟩ : Shape).Idx)]
  refine Finset.sum_congr rfl fun j _ => ?_
  show (if (colScatterDims N B wf).resultIdx? (ix1 j) idx = some (ix1 i) then upd (ix1 j) else 0) = _
  rw [resultIdx?_col]
  by_cases h : 0 ≤ (idx (colEntry j)).toInt ∧ (idx (colEntry j)).toInt < N
  · rw [dif_pos h]
    by_cases ht : (idx (colEntry j)).toInt = (i.val : Int)
    · rw [if_pos ht, if_pos]
      refine congrArg some (funext fun a => Fin.ext ?_)
      obtain rfl : a = 0 := Subsingleton.elim _ _
      show (idx (colEntry j)).toInt.toNat = i.val
      omega
    · rw [if_neg ht, if_neg]
      intro hh
      have : (idx (colEntry j)).toInt.toNat = i.val :=
        congrArg (fun y : (⟨1, ![N]⟩ : Shape).Idx => (y 0).val) (Option.some.inj hh)
      omega
  · rw [dif_neg h, if_neg (by simp), if_neg (by omega)]

end Cert.HostInt

end
-- ==== Proof.LibHostGather.lean ====
/-
  Two gathers through a column of start indices, read at an index.

  `table[idx]` for `table : [B, F]` and an integer vector `idx : [N]` is printed as a gather whose start indices are
  the column `[N, 1]`: the operand's first axis is collapsed (slice size one) and driven by the start index, the second
  is an offset axis taken whole. Result entry `(r, f)` is therefore `table` at row `idx r` — read as a signed integer
  and clamped into `[0, B − 1]`, as every start index of a gather is — and column `f`. The rank-one form, `v[idx]`
  for `v : [B]`, is the same without the offset axis.
-/
import Idealize.ShloMosaic.PureOps
import Idealize.ShloMosaic.Lib.ValueIdx

noncomputable section

open Idealize.ShloMosaic Idealize.ShloMosaic.ValueIdx

namespace Cert.HostInt

variable {α : Type}

/-- The dimension numbers of `table[idx]`: operand `[B, F]`, start indices `[N, 1]`, result `[N, F]`. -/
abbrev rowGatherDims (B F N : Nat)
    (wf : GatherDims.WF ⟨2, ![B, F]⟩ ⟨2, ![N, 1]⟩ ⟨2, ![N, F]⟩ [1] [0] [] [0] [] 1 ![1, F]) :
    GatherDims ⟨2, ![B, F]⟩ ⟨2, ![N, 1]⟩ ⟨2, ![N, F]⟩ where
  offsetDims := [1]
  collapsedSliceDims := [0]
  operandBatchingDims := []
  startIndicesBatchingDims := []
  startIndexMap := [0]
  indexVectorDim := 1
  sliceSizes := ![1, F]
  wf := wf

/-- The start-indices entry that result row `r` reads. -/
abbrev colIdx {N : Nat} (r : Fin N) : (⟨2, ![N, 1]⟩ : Shape).Idx := ix2 r ⟨0, Nat.one_pos⟩

/-- ROWS GATHERED: entry `(r, f)` is the operand at row `idx r`, read signed and clamped into `[0, B − 1]`, column `f`. -/
theorem gather_rows_apply {B F N w : Nat} (hB : 0 < B)
    (wf : GatherDims.WF ⟨2, ![B, F]⟩ ⟨2, ![N, 1]⟩ ⟨2, ![N, F]⟩ [1] [0] [] [0] [] 1 ![1, F])
    (x : (⟨2, ![B, F]⟩ : Shape).Idx → α) (idx : IVec ⟨2, ![N, 1]⟩ w) (r : Fin N) (f : Fin F) :
    Host.gather (rowGatherDims B F N wf) x idx (ix2 r f)
      = x (ix2 ⟨min (idx (colIdx r)).toInt.toNat (B - 1), by omega⟩ f) := by
  unfold Host.gather
  congr 1
  funext a
  refine Fin.ext ?_
  match a with
  | ⟨0, _⟩ =>
    show (rowGatherDims B F N wf).start (ix2 r f) idx 0 + (rowGatherDims B F N wf).batchCoord (ix2 r f) 0
      + (rowGatherDims B F N wf).offCoord (ix2 r f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims B F N wf).startIndexMap from List.mem_singleton.mpr rfl)]
    have hsi : (rowGatherDims B F N wf).siIdx (ix2 r f) ⟨List.idxOf (0 : Fin 2) (rowGatherDims B F N wf).startIndexMap,
        List.idxOf_lt_length_iff.2 (List.mem_singleton.mpr rfl)⟩ = colIdx r := by
      funext b; refine Fin.ext ?_
      match b with
      | ⟨0, _⟩ => rfl
      | ⟨1, _⟩ => rfl
    rw [hsi]
    rfl
  | ⟨1, _⟩ =>
    show (rowGatherDims B F N wf).start (ix2 r f) idx 1 + (rowGatherDims B F N wf).batchCoord (ix2 r f) 1
      + (rowGatherDims B F N wf).offCoord (ix2 r f) 1 = f.val
    rw [GatherDims.batchCoord_eq_zero _ _ _ List.not_mem_nil]
    unfold GatherDims.start
    rw [dif_neg (show (1 : Fin 2) ∉ (rowGatherDims B F N wf).startIndexMap from
      fun h => absurd (show (1 : Nat) = 0 from congrArg Fin.val (List.mem_singleton.mp h)) Nat.one_ne_zero)]
    simp only [Nat.add_zero, Nat.zero_add]
    rfl

/-- The dimension numbers of `v[idx]`: operand `[B]`, start indices `[N, 1]`, result `[N]`. -/
abbrev takeColDims (B N : Nat)
    (wf : GatherDims.WF ⟨1, ![B]⟩ ⟨2, ![N, 1]⟩ ⟨1, ![N]⟩ [] [0] [] [0] [] 1 ![1]) :
    GatherDims ⟨1, ![B]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- ENTRIES TAKEN: entry `r` is the operand at `idx r`, read signed and clamped into `[0, B − 1]`. -/
theorem gather_take_col_apply {B N w : Nat} (hB : 0 < B)
    (wf : GatherDims.WF ⟨1, ![B]⟩ ⟨2, ![N, 1]⟩ ⟨1, ![N]⟩ [] [0] [] [0] [] 1 ![1])
    (x : (⟨1, ![B]⟩ : Shape).Idx → α) (idx : IVec ⟨2, ![N, 1]⟩ w) (r : Fin N) :
    Host.gather (takeColDims B N wf) x idx (ix1 r)
      = x (ix1 ⟨min (idx (colIdx r)).toInt.toNat (B - 1), by omega⟩) := by
  unfold Host.gather
  congr 1
  funext a
  obtain rfl : a = 0 := Subsingleton.elim _ _
  refine Fin.ext ?_
  show (takeColDims B N wf).start (ix1 r) idx 0 + (takeColDims B N wf).batchCoord (ix1 r) 0
    + (takeColDims B N wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeColDims B N wf).startIndexMap from List.mem_singleton.mpr rfl)]
  have hsi : (takeColDims B N wf).siIdx (ix1 r) ⟨List.idxOf (0 : Fin 1) (takeColDims B N wf).startIndexMap,
      List.idxOf_lt_length_iff.2 (List.mem_singleton.mpr rfl)⟩ = colIdx r := by
    funext b; refine Fin.ext ?_
    match b with
    | ⟨0, _⟩ => rfl
    | ⟨1, _⟩ => rfl
  rw [hsi]
  rfl

end Cert.HostInt

end
-- ==== Proof.LibHostSegmentSum.lean ====
/-
  `segment_sum` as it is printed, read at an entry of its result at the ideal instance.

  `operand.at[idx].add(updates)` for `operand : [B, F]`, `updates : [N, F]` and an integer vector `idx : [N]` is
  printed as a float scatter-add whose scatter indices are the column `[N, 1]`: update row `r` is one window
  `[1, F]` placed at operand row `idx r`, the start index read as a signed integer and NOT clamped, and dropped
  altogether when that row is outside `[0, B)`. So update entry `(r, f)` lands on operand entry `(idx r, f)` or
  nowhere, and at the ideal instance, where the accumulation is the exact sum, result entry `(b, f)` is the operand's
  entry plus the sum over the rows `r` with `idx r = b` of `updates (r, f)`.
-/
import Idealize.ShloMosaic.PureOps
import Idealize.ShloMosaic.PureOps.Ideal
import Idealize.ShloMosaic.Lib.ValueIdx

noncomputable section

open Idealize.ShloMosaic Idealize.ShloMosaic.ValueIdx

namespace Cert.HostInt

/-- The dimension numbers of `operand.at[idx].add(updates)`: operand `[B, F]`, scatter indices `[N, 1]`, updates `[N, F]`. -/
abbrev segSumDims (B F N : Nat)
    (wf : ScatterDims.WF ⟨2, ![B, F]⟩ ⟨2, ![N, 1]⟩ ⟨2, ![N, F]⟩ [1] [0] [0] 1) :
    ScatterDims ⟨2, ![B, F]⟩ ⟨2, ![N, 1]⟩ ⟨2, ![N, F]⟩ where
  updateWindowDims := [1]
  insertedWindowDims := [0]
  scatterDimsToOperandDims := [0]
  indexVectorDim := 1
  wf := wf

/-- The scatter-indices entry that update row `r` reads. -/
abbrev rowIdx {N : Nat} (r : Fin N) : (⟨2, ![N, 1]⟩ : Shape).Idx := ix2 r ⟨0, Nat.one_pos⟩

section
variable {B F N w : Nat} (wf : ScatterDims.WF ⟨2, ![B, F]⟩ ⟨2, ![N, 1]⟩ ⟨2, ![N, F]⟩ [1] [0] [0] 1)
  (idx : IVec ⟨2, ![N, 1]⟩ w) (r : Fin N) (f : Fin F)

theorem mem_sKept_iff (a : Fin 2) : a ∈ (segSumDims B F N wf).sKept ↔ a ∉ (segSumDims B F N wf).insertedWindowDims := by
  simp [ScatterDims.sKept, Shape.kept, List.mem_filter, List.mem_finRange]

/-- On the row axis the window starts at the row's start index, read signed. -/
theorem start_row : (segSumDims B F N wf).start (ix2 r f) idx 0 = (idx (rowIdx r)).toInt := by
  unfold ScatterDims.start
  rw [dif_pos (show (0 : Fin 2) ∈ (segSumDims B F N wf).scatterDimsToOperandDims from List.mem_singleton.mpr rfl)]
  have hsi : (segSumDims B F N wf).siIdx (ix2 r f)
      ⟨List.idxOf (0 : Fin 2) (segSumDims B F N wf).scatterDimsToOperandDims,
        List.idxOf_lt_length_iff.2 (List.mem_singleton.mpr rfl)⟩ = rowIdx r := by
    funext b; refine Fin.ext ?_
    match b with
    | ⟨0, _⟩ => rfl
    | ⟨1, _⟩ => rfl
  rw [hsi]

/-- On the column axis it starts at zero. -/
theorem start_col : (segSumDims B F N wf).start (ix2 r f) idx 1 = 0 := by
  unfold ScatterDims.start
  rw [dif_neg (show (1 : Fin 2) ∉ (segSumDims B F N wf).scatterDimsToOperandDims from
    fun h => absurd (show (1 : Nat) = 0 from congrArg Fin.val (List.mem_singleton.mp h)) Nat.one_ne_zero)]

/-- The row axis is inserted: no window coordinate on it. -/
theorem window_row : (segSumDims B F N wf).window (ix2 r f) 0 = 0 := by
  unfold ScatterDims.window
  rw [dif_neg (fun h => ((mem_sKept_iff wf 0).mp h) (List.mem_singleton.mpr rfl))]

/-- The column axis carries the update's column. -/
theorem window_col : (segSumDims B F N wf).window (ix2 r f) 1 = f.val := by
  unfold ScatterDims.window
  rw [dif_pos ((mem_sKept_iff wf 1).mpr fun h =>
    absurd (show (1 : Nat) = 0 from congrArg Fin.val (List.mem_singleton.mp h)) Nat.one_ne_zero)]
  rfl

/-- WHERE AN UPDATE LANDS: entry `(r, f)` lands on `(idx r, f)` when `idx r`, read signed, is a row of the operand,
    and is dropped otherwise. -/
theorem resultIdx?_rows :
    (segSumDims B F N wf).resultIdx? (ix2 r f) idx
      = if h : 0 ≤ (idx (rowIdx r)).toInt ∧ (idx (rowIdx r)).toInt < B then
          some (ix2 ⟨(idx (rowIdx r)).toInt.toNat, by omega⟩ f)
        else none := by
  unfold ScatterDims.resultIdx?
  by_cases h : 0 ≤ (idx (rowIdx r)).toInt ∧ (idx (rowIdx r)).toInt < B
  · have hall : ∀ a : Fin 2, 0 ≤ (segSumDims B F N wf).start (ix2 r f) idx a + (segSumDims B F N wf).window (ix2 r f) a
        ∧ (segSumDims B F N wf).start (ix2 r f) idx a + (segSumDims B F N wf).window (ix2 r f) a
          < ((⟨2, ![B, F]⟩ : Shape).size a : Int) := by
      intro a
      match a with
      | ⟨0, _⟩ =>
        show 0 ≤ (segSumDims B F N wf).start (ix2 r f) idx 0 + (segSumDims B F N wf).window (ix2 r f) 0
          ∧ (segSumDims B F N wf).start (ix2 r f) idx 0 + (segSumDims B F N wf).window (ix2 r f) 0 < (B : Int)
        rw [start_row, window_row]
        simpa using h
      | ⟨1, _⟩ =>
        show 0 ≤ (segSumDims B F N wf).start (ix2 r f) idx 1 + (segSumDims B F N wf).window (ix2 r f) 1
          ∧ (segSumDims B F N wf).start (ix2 r f) idx 1 + (segSumDims B F N wf).window (ix2 r f) 1 < (F : Int)
        rw [start_col, window_col]
        have := f.isLt
        omega
    rw [dif_pos hall, dif_pos h]
    refine congrArg some (funext fun a => Fin.ext ?_)
    match a with
    | ⟨0, _⟩ =>
      show ((segSumDims B F N wf).start (ix2 r f) idx 0 + (segSumDims B F N wf).window (ix2 r f) 0).toNat
        = (idx (rowIdx r)).toInt.toNat
      rw [start_row, window_row]
      simp
    | ⟨1, _⟩ =>
      show ((segSumDims B F N wf).start (ix2 r f) idx 1 + (segSumDims B F N wf).window (ix2 r f) 1).toNat = f.val
      rw [start_col, window_col]
      simp
  · rw [dif_neg h, dif_neg]
    intro hall
    have h0 := hall 0
    have h0' : 0 ≤ (segSumDims B F N wf).start (ix2 r f) idx 0 + (segSumDims B F N wf).window (ix2 r f) 0
        ∧ (segSumDims B F N wf).start (ix2 r f) idx 0 + (segSumDims B F N wf).window (ix2 r f) 0 < (B : Int) := h0
    rw [start_row, window_row] at h0'
    exact h (by simpa using h0')

end

/-- Two rank-two indices agree exactly when their coordinates do. -/
theorem ix2_eq_iff {n0 n1 : Nat} (a a' : Fin n0) (b b' : Fin n1) : ix2 a b = ix2 a' b' ↔ a = a' ∧ b = b' :=
  ⟨fun h => ⟨congrFun h 0, congrFun h 1⟩, fun ⟨h1, h2⟩ => by rw [h1, h2]⟩

/-- THE SEGMENT SUM AT AN ENTRY, at the ideal instance: the operand's entry plus the updates of the rows whose start
    index, read signed, is `b`. -/
theorem scatterAdd_rows_apply {B F N w : Nat} {φ : FTy}
    (wf : ScatterDims.WF ⟨2, ![B, F]⟩ ⟨2, ![N, 1]⟩ ⟨2, ![N, F]⟩ [1] [0] [0] 1)
    (x : FVec Ideal ⟨2, ![B, F]⟩ φ) (idx : IVec ⟨2, ![N, 1]⟩ w) (upd : FVec Ideal ⟨2, ![N, F]⟩ φ)
    (b : Fin B) (f : Fin F) :
    Host.scatterAdd (F := Ideal) (segSumDims B F N wf) x idx upd (ix2 b f)
      = x (ix2 b f) + ∑ r : Fin N, if (idx (rowIdx r)).toInt = (b.val : Int) then upd (ix2 r f) else 0 := by
  show Ideal.hostScatterAdd (segSumDims B F N wf) x idx upd (ix2 b f) = _
  unfold Ideal.hostScatterAdd
  refine congrArg (x (ix2 b f) + ·) ?_
  rw [Finset.sum_filter, sum_idx2]
  refine Finset.sum_congr rfl fun r _ => ?_
  simp only [resultIdx?_rows]
  have hb := b.isLt
  by_cases h : 0 ≤ (idx (rowIdx r)).toInt ∧ (idx (rowIdx r)).toInt < B
  · simp only [dif_pos h, Option.some.injEq, ix2_eq_iff]
    by_cases ht : (idx (rowIdx r)).toInt = (b.val : Int)
    · rw [if_pos ht, Finset.sum_eq_single f]
      · rw [if_pos ⟨Fin.ext (by show (idx (rowIdx r)).toInt.toNat = b.val; omega), rfl⟩]
      · intro f' _ hf'
        rw [if_neg fun hh => hf' hh.2]
      · intro hf
        exact absurd (Finset.mem_univ _) hf
    · rw [if_neg ht]
      refine Finset.sum_eq_zero fun f' _ => ?_
      rw [if_neg]
      intro hh
      have : (idx (rowIdx r)).toInt.toNat = b.val := congrArg Fin.val hh.1
      omega
  · simp only [dif_neg h]
    rw [if_neg (by omega)]
    refine Finset.sum_eq_zero fun f' _ => ?_
    rw [if_neg (by simp)]

end Cert.HostInt

end
-- ==== Proof.RefLayer.lean ====
/-
  One layer of the reference, read at an entry.

  The three layers of the reference are the same sixty operations on renamed buffers: the rows `h` (the previous
  activations against the layer's weights) go through one convolution and one inference batch norm with a positive
  part. Both stages are stated here once, as array functions of `h`, over the first layer's auxiliary arrays — the
  wrapped source and destination words, the per-edge coefficient `d(source) * d(destination)`, the per-node
  coefficient `d * d`, the zero rows — and read at an entry `(i, f)`:

      convolution:  (0 + sum over the edges e whose destination word is i of  h (s e) f * (d (s e) * d (t e)))
                      + h i f * (d i * d i)
      batch norm:   max ((z + b f - m f) * rsqrt (v f + eps) * g f + be f) 0

  where `s e`, `t e` are the nodes the wrapped words name and `d` is the inverse square root of one plus the number
  of edges landing on a node.
-/
import proofs.«172491_j1821066133824_2_alg».proof.Proof.Gen.ReferenceIdeal.Read
import proofs.«172491_j1821066133824_2_alg».proof.Proof.Spec
import proofs.«172491_j1821066133824_2_alg».proof.Proof.LibIdealEntries
import proofs.«172491_j1821066133824_2_alg».proof.Proof.LibHostGather
import proofs.«172491_j1821066133824_2_alg».proof.Proof.LibHostSegmentSum

noncomputable section

open Idealize.ShloMosaic Idealize.ShloMosaic.TcCoe Idealize.ShloMosaic.ValueIdx

namespace Cert.ReferenceIdeal.RefValue

open Cert.ReferenceIdeal Cert.ReferenceIdeal.Read Cert.HostInt Cert.Gcn

/-! ## The program's four gather and scatter records, read at an entry -/

/-- The degree count: the operand's entry plus the updates whose word, read signed, is the node. -/
theorem countScatter_apply (z : FVec Ideal S50000 .f32) (si : IVec S800000x1 32) (u : FVec Ideal S800000 .f32)
    (n : Fin 50000) :
    Host.scatterAdd (F := Ideal) scatter_S50000_S800000x1_S800000_n_0_0_1 z si u (ix1 n)
      = z (ix1 n) + ∑ e : Fin 800000, if (si (ix2 e ⟨0, Nat.one_pos⟩)).toInt = (n.val : Int) then u (ix1 e) else 0 :=
  scatterAdd_col_apply (N := 50000) (B := 800000) Facts₀.scatter_S50000_S800000x1_S800000_n_0_0_1_wf z si u n

/-- A scalar taken per edge: the operand at the node the word names, read signed and clamped. -/
theorem takeGather_apply (x : FVec Ideal S50000 .f32) (gi : IVec S800000x1 32) (e : Fin 800000) :
    Host.gather gather_S50000_S800000x1_S800000_n_0_n_n_0_1_1 x gi (ix1 e)
      = x (ix1 ⟨min (gi (ix2 e ⟨0, Nat.one_pos⟩)).toInt.toNat (50000 - 1), by omega⟩) :=
  gather_take_col_apply (B := 50000) (N := 800000) (by decide) Facts₀.gather_S50000_S800000x1_S800000_n_0_n_n_0_1_1_wf x gi e

/-- A row taken per edge. -/
theorem rowGather_apply (x : FVec Ideal S50000x128 .f32) (gi : IVec S800000x1 32) (e : Fin 800000) (f : Fin 128) :
    Host.gather gather_S50000x128_S800000x1_S800000x128_1_0_n_n_0_1_1128 x gi (ix2 e f)
      = x (ix2 ⟨min (gi (ix2 e ⟨0, Nat.one_pos⟩)).toInt.toNat (50000 - 1), by omega⟩ f) :=
  gather_rows_apply (B := 50000) (F := 128) (N := 800000) (by decide)
    Facts₀.gather_S50000x128_S800000x1_S800000x128_1_0_n_n_0_1_1128_wf x gi e f

/-- The rows scatter-added: the operand's entry plus the update rows whose word, read signed, is the node. -/
theorem rowScatter_apply (z : FVec Ideal S50000x128 .f32) (si : IVec S800000x1 32) (u : FVec Ideal S800000x128 .f32)
    (n : Fin 50000) (f : Fin 128) :
    Host.scatterAdd (F := Ideal) scatter_S50000x128_S800000x1_S800000x128_1_0_0_1 z si u (ix2 n f)
      = z (ix2 n f) + ∑ e : Fin 800000, if (si (ix2 e ⟨0, Nat.one_pos⟩)).toInt = (n.val : Int) then u (ix2 e f) else 0 :=
  scatterAdd_rows_apply (B := 50000) (F := 128) (N := 800000)
    Facts₀.scatter_S50000x128_S800000x1_S800000x128_1_0_0_1_wf z si u n f

/-! ## The edge words -/

/-- The raw destination words as a column (the scatters' indices). -/
theorem rawDst_read (x2 : IVec S800000 32) (e : Fin 800000) :
    val_main_v34 (F := Ideal) x2 (ix2 e ⟨0, Nat.one_pos⟩) = x2 (ix1 e) := by
  rw [val_main_v34_apply]
  exact congrArg x2 (funext fun a => Fin.ext (by match a with | ⟨0, _⟩ => rfl))

/-- The same column, as the degree count reads it. -/
theorem rawDst_read' (x2 : IVec S800000 32) (e : Fin 800000) :
    val_main_v3 (F := Ideal) x2 (ix2 e ⟨0, Nat.one_pos⟩) = x2 (ix1 e) := by
  rw [val_main_v3_apply]
  exact congrArg x2 (funext fun a => Fin.ext (by match a with | ⟨0, _⟩ => rfl))

/-- The wrapped source words as a column, as the scalar gather reads them. -/
theorem wrapSrc_read (x1 : IVec S800000 32) (e : Fin 800000) :
    val_main_v13 (F := Ideal) x1 (ix2 e ⟨0, Nat.one_pos⟩) = wrapWord 50000 (x1 (ix1 e)) := by
  rw [val_main_v13_apply,
    show idx_main_v13 (ix2 e ⟨0, Nat.one_pos⟩) = ix1 e from funext fun a => Fin.ext (by match a with | ⟨0, _⟩ => rfl),
    val_main_v12_apply, val_main_v9_apply, val_main_v11_apply, val_main_v8_apply, val_main_c_apply, val_main_v10_apply,
    val_main_c_2_apply]
  rfl

/-- The wrapped destination words as a column. -/
theorem wrapDst_read (x2 : IVec S800000 32) (e : Fin 800000) :
    val_main_v20 (F := Ideal) x2 (ix2 e ⟨0, Nat.one_pos⟩) = wrapWord 50000 (x2 (ix1 e)) := by
  rw [val_main_v20_apply,
    show idx_main_v20 (ix2 e ⟨0, Nat.one_pos⟩) = ix1 e from funext fun a => Fin.ext (by match a with | ⟨0, _⟩ => rfl),
    val_main_v19_apply, val_main_v16_apply, val_main_v18_apply, val_main_v15_apply, val_main_c_3_apply, val_main_v17_apply,
    val_main_c_4_apply]
  rfl

/-- The wrapped source words as a column, as the row gather reads them. -/
theorem wrapSrc_read' (x1 : IVec S800000 32) (e : Fin 800000) :
    val_main_v29 (F := Ideal) x1 (ix2 e ⟨0, Nat.one_pos⟩) = wrapWord 50000 (x1 (ix1 e)) := by
  rw [val_main_v29_apply,
    show idx_main_v29 (ix2 e ⟨0, Nat.one_pos⟩) = ix1 e from funext fun a => Fin.ext (by match a with | ⟨0, _⟩ => rfl),
    val_main_v28_apply, val_main_v25_apply, val_main_v27_apply, val_main_v24_apply, val_main_c_5_apply, val_main_v26_apply,
    val_main_c_6_apply]
  rfl

/-! ## The degree -/

/-- `d` at a node: the inverse square root of one plus the number of edges whose destination word is the node. -/
theorem d_read (x2 : IVec S800000 32) (n : Fin 50000) :
    val_main_v7 (F := Ideal) x2 (ix1 n) = dinv (fun e : Fin 800000 => x2 (ix1 e)) n := by
  rw [val_main_v7_apply, val_main_v6_apply, val_main_v5_apply, val_main_cst_1_apply]
  unfold val_main_v4
  rw [countScatter_apply, val_main_v2_apply, val_main_cst_0_apply]
  simp only [rawDst_read', val_main_v1_apply, val_main_cst_apply, Ideal.hostUnary_rsqrt_def, Ideal.addf_def, Ideal.ofBits_def]
  rfl

/-- `d` at an edge's source. -/
theorem dSrc_read (x1 x2 : IVec S800000 32) (e : Fin 800000) :
    val_main_v14 (F := Ideal) x1 x2 (ix1 e)
      = dinv (fun e : Fin 800000 => x2 (ix1 e)) (nodeOf nodes_pos (x1 (ix1 e))) := by
  unfold val_main_v14
  rw [takeGather_apply, d_read]
  exact congrArg (dinv _) (Fin.ext (by show min _ _ = min _ _; rw [wrapSrc_read]))

/-- `d` at an edge's destination. -/
theorem dDst_read (x2 : IVec S800000 32) (e : Fin 800000) :
    val_main_v21 (F := Ideal) x2 (ix1 e)
      = dinv (fun e : Fin 800000 => x2 (ix1 e)) (nodeOf nodes_pos (x2 (ix1 e))) := by
  unfold val_main_v21
  rw [takeGather_apply, d_read]
  exact congrArg (dinv _) (Fin.ext (by show min _ _ = min _ _; rw [wrapDst_read]))

/-- An edge's coefficient, broadcast along its row. -/
theorem edgeCoef_read (x1 x2 : IVec S800000 32) (e : Fin 800000) (f : Fin 128) :
    val_main_v31 (F := Ideal) x1 x2 (ix2 e f)
      = dinv (fun e : Fin 800000 => x2 (ix1 e)) (nodeOf nodes_pos (x1 (ix1 e)))
        * dinv (fun e : Fin 800000 => x2 (ix1 e)) (nodeOf nodes_pos (x2 (ix1 e))) := by
  rw [val_main_v31_apply, val_main_v23_apply,
    show idx_main_v23 (idx_main_v31 (ix2 e f)) = ix1 e from funext fun a => Fin.ext (by match a with | ⟨0, _⟩ => rfl),
    val_main_v22_apply, dSrc_read, dDst_read]
  rfl

/-- A node's own coefficient, broadcast along its row. -/
theorem selfCoef_read (x2 : IVec S800000 32) (n : Fin 50000) (f : Fin 128) :
    val_main_v38 (F := Ideal) x2 (ix2 n f)
      = dinv (fun e : Fin 800000 => x2 (ix1 e)) n * dinv (fun e : Fin 800000 => x2 (ix1 e)) n := by
  rw [val_main_v38_apply, val_main_v37_apply,
    show idx_main_v37 (idx_main_v38 (ix2 n f)) = ix1 n from funext fun a => Fin.ext (by match a with | ⟨0, _⟩ => rfl),
    val_main_v36_apply, d_read]
  rfl

/-- The zero rows the aggregation starts from. -/
theorem zeroRows_read (n : Fin 50000) (f : Fin 128) : val_main_v33 (F := Ideal) (ix2 n f) = zero32 := by
  rw [val_main_v33_apply, val_main_cst_7_apply]
  rfl

/-! ## The convolution -/

/-- The convolution of the rows `h`, as the reference computes it: the rows of the edges' sources, each times its
    edge's coefficient, scatter-added from zero through the raw destination words, plus the own rows times the
    nodes' coefficients. -/
def convArr (h : FVec Ideal S50000x128 .f32) (x1 x2 : IVec S800000 32) : FVec Ideal S50000x128 .f32 :=
  addf
    (Host.scatterAdd scatter_S50000x128_S800000x1_S800000x128_1_0_0_1 (val_main_v33 (F := Ideal))
      (val_main_v34 (F := Ideal) x2)
      (mulf (Host.gather gather_S50000x128_S800000x1_S800000x128_1_0_n_n_0_1_1128 h (val_main_v29 (F := Ideal) x1))
        (val_main_v31 (F := Ideal) x1 x2)))
    (mulf h (val_main_v38 (F := Ideal) x2))

theorem convArr_apply (h : FVec Ideal S50000x128 .f32) (x1 x2 : IVec S800000 32) (i : Fin 50000) (f : Fin 128) :
    convArr h x1 x2 (ix2 i f)
      = (zero32 + ∑ e : Fin 800000, if (x2 (ix1 e)).toInt = (i.val : Int) then
            h (ix2 (nodeOf nodes_pos (x1 (ix1 e))) f)
              * (dinv (fun e : Fin 800000 => x2 (ix1 e)) (nodeOf nodes_pos (x1 (ix1 e)))
                * dinv (fun e : Fin 800000 => x2 (ix1 e)) (nodeOf nodes_pos (x2 (ix1 e)))) else 0)
        + h (ix2 i f) * (dinv (fun e : Fin 800000 => x2 (ix1 e)) i * dinv (fun e : Fin 800000 => x2 (ix1 e)) i) := by
  unfold convArr
  rw [addf_apply, rowScatter_apply, zeroRows_read, mulf_apply, selfCoef_read]
  simp only [rawDst_read, mulf_apply, rowGather_apply, edgeCoef_read, wrapSrc_read']
  rfl

/-! ## The batch norm and the positive part -/

/-- Bias, inference batch norm and the positive part of the rows `z`, as the reference computes them. -/
def bnArr (z : FVec Ideal S50000x128 .f32) (b g be m v : FVec Ideal S128 .f32) : FVec Ideal S50000x128 .f32 :=
  maximumf
    (addf
      (mulf
        (mulf (subf (addf z (val_main_v42 (F := Ideal) b)) (val_main_v45 (F := Ideal) m)) (val_main_v51 (F := Ideal) v))
        (val_main_v54 (F := Ideal) g))
      (val_main_v57 (F := Ideal) be))
    (val_main_call0_v0 (F := Ideal))

theorem bias_read (b : FVec Ideal S128 .f32) (i : Fin 50000) (f : Fin 128) :
    val_main_v42 (F := Ideal) b (ix2 i f) = b (ix1 f) := by
  rw [val_main_v42_apply, val_main_v41_apply]
  exact congrArg b (funext fun a => Fin.ext (by match a with | ⟨0, _⟩ => rfl))

theorem mean_read (m : FVec Ideal S128 .f32) (i : Fin 50000) (f : Fin 128) :
    val_main_v45 (F := Ideal) m (ix2 i f) = m (ix1 f) := by
  rw [val_main_v45_apply, val_main_v44_apply]
  exact congrArg m (funext fun a => Fin.ext (by match a with | ⟨0, _⟩ => rfl))

theorem gain_read (g : FVec Ideal S128 .f32) (i : Fin 50000) (f : Fin 128) :
    val_main_v54 (F := Ideal) g (ix2 i f) = g (ix1 f) := by
  rw [val_main_v54_apply, val_main_v53_apply]
  exact congrArg g (funext fun a => Fin.ext (by match a with | ⟨0, _⟩ => rfl))

theorem shift_read (be : FVec Ideal S128 .f32) (i : Fin 50000) (f : Fin 128) :
    val_main_v57 (F := Ideal) be (ix2 i f) = be (ix1 f) := by
  rw [val_main_v57_apply, val_main_v56_apply]
  exact congrArg be (funext fun a => Fin.ext (by match a with | ⟨0, _⟩ => rfl))

theorem invStd_read (v : FVec Ideal S128 .f32) (i : Fin 50000) (f : Fin 128) :
    val_main_v51 (F := Ideal) v (ix2 i f) = Ideal.rsqrt (v (ix1 f) + eps32) := by
  rw [val_main_v51_apply, val_main_v50_apply,
    show idx_main_v50 (idx_main_v51 (ix2 i f)) = ix1 f from funext fun a => Fin.ext (by match a with | ⟨0, _⟩ => rfl),
    val_main_v49_apply, val_main_v48_apply, val_main_v47_apply, val_main_cst_8_apply]
  simp only [Ideal.hostUnary_rsqrt_def, Ideal.addf_def, Ideal.ofBits_def]

theorem floor_read (i : Fin 50000) (f : Fin 128) : val_main_call0_v0 (F := Ideal) (ix2 i f) = zero32 := by
  rw [val_main_call0_v0_apply, val_main_call0_cst_apply]
  rfl

theorem bnArr_apply (z : FVec Ideal S50000x128 .f32) (b g be m v : FVec Ideal S128 .f32) (i : Fin 50000) (f : Fin 128) :
    bnArr z b g be m v (ix2 i f)
      = max ((z (ix2 i f) + b (ix1 f) - m (ix1 f)) * Ideal.rsqrt (v (ix1 f) + eps32) * g (ix1 f) + be (ix1 f)) zero32 := by
  unfold bnArr
  rw [maximumf_apply, addf_apply, mulf_apply, mulf_apply, subf_apply, addf_apply, bias_read, mean_read, gain_read,
    shift_read, invStd_read, floor_read]

/-! ## One layer -/

/-- One layer of the reference on the rows `h`. -/
def layerArr (h : FVec Ideal S50000x128 .f32) (x1 x2 : IVec S800000 32) (b g be m v : FVec Ideal S128 .f32) :
    FVec Ideal S50000x128 .f32 :=
  bnArr (convArr h x1 x2) b g be m v

/-- One layer at an entry: the convolution of the rows in the reference's form, normalized. -/
theorem layerArr_apply (h : FVec Ideal S50000x128 .f32) (x1 x2 : IVec S800000 32) (b g be m v : FVec Ideal S128 .f32)
    (i : Fin 50000) (f : Fin 128) :
    layerArr h x1 x2 b g be m v (ix2 i f)
      = bnRelu (convRow nodes_pos (fun e : Fin 800000 => x1 (ix1 e)) (fun e : Fin 800000 => x2 (ix1 e))
          (fun n k => h (ix2 n k)) (fun k => b (ix1 k)) i)
          (fun k => m (ix1 k)) (fun k => v (ix1 k)) (fun k => g (ix1 k)) (fun k => be (ix1 k)) f := by
  unfold layerArr
  rw [bnArr_apply, convArr_apply]
  rfl

end Cert.ReferenceIdeal.RefValue

end
-- ==== Proof.RefLayerNet.lean ====
/-
  The reference's three layers and its head, read at an entry.

  Each layer of the reference is, operation for operation, the one layer read in the sibling module, applied to the
  previous activations against the layer's weights; so the activations after the three layers are the rows `a0`,
  `a1`, `a2` of the network in the reference's form, and the head (a hidden layer with a positive part, then the
  output layer) on `a2` is its result.
-/
import proofs.«172491_j1821066133824_2_alg».proof.Proof.RefLayer

noncomputable section

open Idealize.ShloMosaic Idealize.ShloMosaic.TcCoe Idealize.ShloMosaic.ValueIdx

namespace Cert.ReferenceIdeal.RefValue

open Cert.ReferenceIdeal Cert.ReferenceIdeal.Read Cert.HostInt Cert.Gcn

variable (x0 : (⟨S50000x64, .f32⟩ : BufTy).Contents (Elt Ideal)) (x1 x2 : (⟨S800000, .i32⟩ : BufTy).Contents (Elt Ideal))
  (x3 : (⟨S64x128, .f32⟩ : BufTy).Contents (Elt Ideal)) (x4 x5 x6 x7 x8 : (⟨S128, .f32⟩ : BufTy).Contents (Elt Ideal))
  (x9 : (⟨S128x128, .f32⟩ : BufTy).Contents (Elt Ideal)) (x10 x11 x12 x13 x14 : (⟨S128, .f32⟩ : BufTy).Contents (Elt Ideal))
  (x15 : (⟨S128x128, .f32⟩ : BufTy).Contents (Elt Ideal)) (x16 x17 x18 x19 x20 : (⟨S128, .f32⟩ : BufTy).Contents (Elt Ideal))
  (x21 : (⟨S128x128, .f32⟩ : BufTy).Contents (Elt Ideal)) (x22 : (⟨S128, .f32⟩ : BufTy).Contents (Elt Ideal))
  (x23 : (⟨S128x64, .f32⟩ : BufTy).Contents (Elt Ideal)) (x24 : (⟨S64, .f32⟩ : BufTy).Contents (Elt Ideal))

/-! ## The three layers are one layer, on renamed buffers -/

theorem layer0_eq :
    val_main_v59 (F := Ideal) x0 x1 x2 x3 x4 x5 x6 x7 x8 = layerArr (val_main_v0 (F := Ideal) x0 x3) x1 x2 x4 x5 x6 x7 x8 := rfl

theorem layer1_eq :
    val_main_v119 (F := Ideal) x0 x1 x2 x3 x4 x5 x6 x7 x8 x9 x10 x11 x12 x13 x14
      = layerArr (val_main_v60 (F := Ideal) x0 x1 x2 x3 x4 x5 x6 x7 x8 x9) x1 x2 x10 x11 x12 x13 x14 := rfl

theorem layer2_eq :
    val_main_v179 (F := Ideal) x0 x1 x2 x3 x4 x5 x6 x7 x8 x9 x10 x11 x12 x13 x14 x15 x16 x17 x18 x19 x20
      = layerArr (val_main_v120 (F := Ideal) x0 x1 x2 x3 x4 x5 x6 x7 x8 x9 x10 x11 x12 x13 x14 x15) x1 x2 x16 x17 x18 x19 x20 := rfl

/-! ## The rows against the weights -/

theorem proj0_read (n : Fin 50000) (f : Fin 128) :
    val_main_v0 (F := Ideal) x0 x3 (ix2 n f)
      = rowMat (fun k : Fin 64 => x0 (ix2 n k)) (fun (k : Fin 64) (f : Fin 128) => x3 (ix2 k f)) f := by
  rw [val_main_v0_apply]
  show _ = ∑ k : Fin 64, x0 (ix2 n k) * x3 (ix2 k f)
  refine Finset.sum_congr rfl fun k _ => ?_
  rw [show lidx_main_v0 (ix2 n f) k = ix2 n k from funext fun a => Fin.ext (by match a with | ⟨0, _⟩ => rfl | ⟨1, _⟩ => rfl),
    show ridx_main_v0 (ix2 n f) k = ix2 k f from funext fun a => Fin.ext (by match a with | ⟨0, _⟩ => rfl | ⟨1, _⟩ => rfl)]

theorem proj1_read (n : Fin 50000) (f : Fin 128) :
    val_main_v60 (F := Ideal) x0 x1 x2 x3 x4 x5 x6 x7 x8 x9 (ix2 n f)
      = rowMat (fun k : Fin 128 => val_main_v59 (F := Ideal) x0 x1 x2 x3 x4 x5 x6 x7 x8 (ix2 n k))
          (fun (k : Fin 128) (f : Fin 128) => x9 (ix2 k f)) f := by
  rw [val_main_v60_apply]
  show _ = ∑ k : Fin 128, val_main_v59 (F := Ideal) x0 x1 x2 x3 x4 x5 x6 x7 x8 (ix2 n k) * x9 (ix2 k f)
  refine Finset.sum_congr rfl fun k _ => ?_
  rw [show lidx_main_v60 (ix2 n f) k = ix2 n k from funext fun a => Fin.ext (by match a with | ⟨0, _⟩ => rfl | ⟨1, _⟩ => rfl),
    show ridx_main_v60 (ix2 n f) k = ix2 k f from funext fun a => Fin.ext (by match a with | ⟨0, _⟩ => rfl | ⟨1, _⟩ => rfl)]

theorem proj2_read (n : Fin 50000) (f : Fin 128) :
    val_main_v120 (F := Ideal) x0 x1 x2 x3 x4 x5 x6 x7 x8 x9 x10 x11 x12 x13 x14 x15 (ix2 n f)
      = rowMat (fun k : Fin 128 => val_main_v119 (F := Ideal) x0 x1 x2 x3 x4 x5 x6 x7 x8 x9 x10 x11 x12 x13 x14 (ix2 n k))
          (fun (k : Fin 128) (f : Fin 128) => x15 (ix2 k f)) f := by
  rw [val_main_v120_apply]
  show _ = ∑ k : Fin 128, val_main_v119 (F := Ideal) x0 x1 x2 x3 x4 x5 x6 x7 x8 x9 x10 x11 x12 x13 x14 (ix2 n k) * x15 (ix2 k f)
  refine Finset.sum_congr rfl fun k _ => ?_
  rw [show lidx_main_v120 (ix2 n f) k = ix2 n k from funext fun a => Fin.ext (by match a with | ⟨0, _⟩ => rfl | ⟨1, _⟩ => rfl),
    show ridx_main_v120 (ix2 n f) k = ix2 k f from funext fun a => Fin.ext (by match a with | ⟨0, _⟩ => rfl | ⟨1, _⟩ => rfl)]

/-! ## The activations -/

theorem a0_read (i : Fin 50000) (f : Fin 128) :
    val_main_v59 (F := Ideal) x0 x1 x2 x3 x4 x5 x6 x7 x8 (ix2 i f) = (argsOf x0 x1 x2 x3 x4 x5 x6 x7 x8 x9 x10 x11 x12 x13 x14 x15 x16 x17 x18 x19 x20 x21 x22 x23 x24).a0 i f := by
  rw [layer0_eq, layerArr_apply]
  simp only [proj0_read]
  rfl

theorem a1_read (i : Fin 50000) (f : Fin 128) :
    val_main_v119 (F := Ideal) x0 x1 x2 x3 x4 x5 x6 x7 x8 x9 x10 x11 x12 x13 x14 (ix2 i f) = (argsOf x0 x1 x2 x3 x4 x5 x6 x7 x8 x9 x10 x11 x12 x13 x14 x15 x16 x17 x18 x19 x20 x21 x22 x23 x24).a1 i f := by
  rw [layer1_eq, layerArr_apply]
  simp only [proj1_read, a0_read x0 x1 x2 x3 x4 x5 x6 x7 x8 x9 x10 x11 x12 x13 x14 x15 x16 x17 x18 x19 x20 x21 x22 x23 x24]
  rfl

theorem a2_read (i : Fin 50000) (f : Fin 128) :
    val_main_v179 (F := Ideal) x0 x1 x2 x3 x4 x5 x6 x7 x8 x9 x10 x11 x12 x13 x14 x15 x16 x17 x18 x19 x20 (ix2 i f) = (argsOf x0 x1 x2 x3 x4 x5 x6 x7 x8 x9 x10 x11 x12 x13 x14 x15 x16 x17 x18 x19 x20 x21 x22 x23 x24).a2 i f := by
  rw [layer2_eq, layerArr_apply]
  simp only [proj2_read, a1_read x0 x1 x2 x3 x4 x5 x6 x7 x8 x9 x10 x11 x12 x13 x14 x15 x16 x17 x18 x19 x20 x21 x22 x23 x24]
  rfl

/-! ## The head -/

/-- The head's hidden layer. -/
theorem hidden_read (i : Fin 50000) (k : Fin 128) :
    val_main_v184 (F := Ideal) x0 x1 x2 x3 x4 x5 x6 x7 x8 x9 x10 x11 x12 x13 x14 x15 x16 x17 x18 x19 x20 x21 x22 (ix2 i k)
      = max (rowMat ((argsOf x0 x1 x2 x3 x4 x5 x6 x7 x8 x9 x10 x11 x12 x13 x14 x15 x16 x17 x18 x19 x20 x21 x22 x23 x24).a2 i) (fun (k' : Fin 128) (k : Fin 128) => x21 (ix2 k' k)) k + x22 (ix1 k)) zero32 := by
  rw [val_main_v184_apply, val_main_v183_apply, val_main_v180_apply, val_main_v182_apply, val_main_v181_apply,
    show idx_main_v181 (idx_main_v182 (ix2 i k)) = ix1 k from funext fun a => Fin.ext (by match a with | ⟨0, _⟩ => rfl),
    val_main_call3_v0_apply, val_main_call3_cst_apply]
  simp only [Ideal.maximumf_def, Ideal.addf_def, Ideal.ofBits_def]
  refine congrArg (fun t => max (t + x22 (ix1 k)) zero32) ?_
  show _ = ∑ k' : Fin 128, (argsOf x0 x1 x2 x3 x4 x5 x6 x7 x8 x9 x10 x11 x12 x13 x14 x15 x16 x17 x18 x19 x20 x21 x22 x23 x24).a2 i k' * x21 (ix2 k' k)
  refine Finset.sum_congr rfl fun k' _ => ?_
  rw [show lidx_main_v180 (ix2 i k) k' = ix2 i k' from funext fun a => Fin.ext (by match a with | ⟨0, _⟩ => rfl | ⟨1, _⟩ => rfl),
    show ridx_main_v180 (ix2 i k) k' = ix2 k' k from funext fun a => Fin.ext (by match a with | ⟨0, _⟩ => rfl | ⟨1, _⟩ => rfl),
    a2_read x0 x1 x2 x3 x4 x5 x6 x7 x8 x9 x10 x11 x12 x13 x14 x15 x16 x17 x18 x19 x20 x21 x22 x23 x24]

/-- Entry `(i, j)` of the reference's result is row `i`, column `j` of the network in the reference's form. -/
theorem out_read (i : Fin 50000) (j : Fin 64) :
    val_main_v188 (F := Ideal) x0 x1 x2 x3 x4 x5 x6 x7 x8 x9 x10 x11 x12 x13 x14 x15 x16 x17 x18 x19 x20 x21 x22 x23 x24 (ix2 i j) = (argsOf x0 x1 x2 x3 x4 x5 x6 x7 x8 x9 x10 x11 x12 x13 x14 x15 x16 x17 x18 x19 x20 x21 x22 x23 x24).outRef i j := by
  rw [val_main_v188_apply, val_main_v185_apply, val_main_v187_apply, val_main_v186_apply,
    show idx_main_v186 (idx_main_v187 (ix2 i j)) = ix1 j from funext fun a => Fin.ext (by match a with | ⟨0, _⟩ => rfl)]
  simp only [Ideal.addf_def]
  refine congrArg (fun t => t + x24 (ix1 j)) ?_
  show _ = ∑ k : Fin 128, max (rowMat ((argsOf x0 x1 x2 x3 x4 x5 x6 x7 x8 x9 x10 x11 x12 x13 x14 x15 x16 x17 x18 x19 x20 x21 x22 x23 x24).a2 i) (fun (k' : Fin 128) (k : Fin 128) => x21 (ix2 k' k)) k
      + x22 (ix1 k)) zero32 * x23 (ix2 k j)
  refine Finset.sum_congr rfl fun k _ => ?_
  rw [show lidx_main_v185 (ix2 i j) k = ix2 i k from funext fun a => Fin.ext (by match a with | ⟨0, _⟩ => rfl | ⟨1, _⟩ => rfl),
    show ridx_main_v185 (ix2 i j) k = ix2 k j from funext fun a => Fin.ext (by match a with | ⟨0, _⟩ => rfl | ⟨1, _⟩ => rfl),
    hidden_read x0 x1 x2 x3 x4 x5 x6 x7 x8 x9 x10 x11 x12 x13 x14 x15 x16 x17 x18 x19 x20 x21 x22 x23 x24]

end Cert.ReferenceIdeal.RefValue

end
-- ==== Proof.RefValue.lean ====
/-
  The reference's result, row by row, is the network in the reference's form.
-/
import proofs.«172491_j1821066133824_2_alg».proof.Proof.Gen.ReferenceIdeal.Read
import proofs.«172491_j1821066133824_2_alg».proof.Proof.Spec
import proofs.«172491_j1821066133824_2_alg».proof.Proof.RefLayerNet

noncomputable section

open Idealize.ShloMosaic Idealize.ShloMosaic.TcCoe Idealize.ShloMosaic.ValueIdx

namespace Cert.ReferenceIdeal.RefValue

open Cert.ReferenceIdeal Cert.ReferenceIdeal.Read

/-- Entry `(i, j)` of the reference's result is row `i`, column `j` of the network in the reference's form. -/
theorem result_rows (x0 : (⟨S50000x64, .f32⟩ : BufTy).Contents (Elt Ideal)) (x1 x2 : (⟨S800000, .i32⟩ : BufTy).Contents (Elt Ideal)) (x3 : (⟨S64x128, .f32⟩ : BufTy).Contents (Elt Ideal)) (x4 x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) (x15 : (⟨S128x128, .f32⟩ : BufTy).Contents (Elt Ideal)) (x16 x17 x18 x19 x20 : (⟨S128, .f32⟩ : BufTy).Contents (Elt Ideal)) (x21 : (⟨S128x128, .f32⟩ : BufTy).Contents (Elt Ideal)) (x22 : (⟨S128, .f32⟩ : BufTy).Contents (Elt Ideal)) (x23 : (⟨S128x64, .f32⟩ : BufTy).Contents (Elt Ideal)) (x24 : (⟨S64, .f32⟩ : BufTy).Contents (Elt Ideal))
    (i : Fin 50000) (j : Fin 64) :
    val_main_v188 (F := Ideal) x0 x1 x2 x3 x4 x5 x6 x7 x8 x9 x10 x11 x12 x13 x14 x15 x16 x17 x18 x19 x20 x21 x22 x23 x24 (ix2 i j)
      = (Cert.Gcn.argsOf x0 x1 x2 x3 x4 x5 x6 x7 x8 x9 x10 x11 x12 x13 x14 x15 x16 x17 x18 x19 x20 x21 x22 x23 x24).outRef i j :=
  out_read x0 x1 x2 x3 x4 x5 x6 x7 x8 x9 x10 x11 x12 x13 x14 x15 x16 x17 x18 x19 x20 x21 x22 x23 x24 i j

end Cert.ReferenceIdeal.RefValue

end
-- ==== Proof.KRun.lean ====
/-
  The idealized kernel program's run with its result kept.

  The program is four kernel launches among stretches of host operations. Its frame says that every weakly fair
  execution terminates, nothing faulting, with the argument arrays as launched; the same launch argument also leaves
  every unscoped buffer at the contents the last boundary of the fold through the program gives it, and the result
  buffer is one of them. So the run ends with the result buffer at that boundary's contents, beside the arguments.
-/
import proofs.«172491_j1821066133824_2_alg».proof.Proof.Gen.KernelIdeal.Frame

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v44) = W12 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v44 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c),
       (h c _ (mem_uc main_arg21 (by decide))).trans (W12_main_arg21 m ρ c),
       (h c _ (mem_uc main_arg22 (by decide))).trans (W12_main_arg22 m ρ c),
       (h c _ (mem_uc main_arg23 (by decide))).trans (W12_main_arg23 m ρ c),
       (h c _ (mem_uc main_arg24 (by decide))).trans (W12_main_arg24 m ρ c)⟩)

end Cert.KernelIdeal.Gen

end
-- ==== Proof.KArgs.lean ====
/-
  The launch memory's 25 argument arrays on a core, read as the network's arguments.
-/
import proofs.«172491_j1821066133824_2_alg».proof.Proof.Gen.KernelIdeal.Frame
import proofs.«172491_j1821066133824_2_alg».proof.Proof.Spec

noncomputable section

open Idealize.ShloMosaic Idealize.ShloMosaic.TcCoe Idealize.ShloMosaic.ValueIdx Idealize.SL.Sem

namespace Cert.KernelIdeal.Chain

open Cert.KernelIdeal Cert.KernelIdeal.Gen

/-- The arguments, as rows, in the launch memory `m` of core `c`. -/
abbrev argsK (m : (ℓ : Loc nD τ sig) → Buf (Elt Ideal) ℓ) (c : Dev nD) : Cert.Gcn.Args :=
  Cert.Gcn.argsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))

end Cert.KernelIdeal.Chain

end
-- ==== Proof.LibGatherScatter.lean ====
/-
  Rows gathered through one column of words and scatter-added through another, read at an entry.

  Update row `e` is row `s e` of the table, where `s e` is the gather's word for `e` read signed and clamped into the
  table; it lands on the row named by the scatter's word for `e`, read signed, or nowhere. So entry `(r, k)` of the result
  is the operand's entry plus the sum, over the edges `e` whose scatter word is `r`, of the table's entry `(s e, k)`.
-/
import proofs.«172491_j1821066133824_2_alg».proof.Proof.LibHostGather
import proofs.«172491_j1821066133824_2_alg».proof.Proof.LibHostSegmentSum

noncomputable section

open Idealize.ShloMosaic Idealize.ShloMosaic.ValueIdx

namespace Cert.HostInt

/-- THE AGGREGATION AT AN ENTRY, over any number `B` of rows. -/
theorem scatterAdd_gather_rows_apply {B F N w : Nat} {φ : FTy} (hB : 0 < B)
    (wfg : GatherDims.WF ⟨2, ![B, F]⟩ ⟨2, ![N, 1]⟩ ⟨2, ![N, F]⟩ [1] [0] [] [0] [] 1 ![1, F])
    (wfs : ScatterDims.WF ⟨2, ![B, F]⟩ ⟨2, ![N, 1]⟩ ⟨2, ![N, F]⟩ [1] [0] [0] 1)
    (z x : FVec Ideal ⟨2, ![B, F]⟩ φ) (gi si : IVec ⟨2, ![N, 1]⟩ w) (s : Fin N → Fin B)
    (hs : ∀ e : Fin N, min (gi (colIdx e)).toInt.toNat (B - 1) = (s e).val) (r : Fin B) (k : Fin F) :
    Host.scatterAdd (F := Ideal) (segSumDims B F N wfs) z si (Host.gather (rowGatherDims B F N wfg) x gi) (ix2 r k)
      = z (ix2 r k) + ∑ e : Fin N, if (si (rowIdx e)).toInt = (r.val : Int) then x (ix2 (s e) k) else 0 := by
  rw [scatterAdd_rows_apply]
  refine congrArg (z (ix2 r k) + ·) (Finset.sum_congr rfl fun e _ => ?_)
  rw [gather_rows_apply hB]
  exact if_congr Iff.rfl (congrArg (fun t => x (ix2 t k)) (Fin.ext (hs e))) rfl

end Cert.HostInt

end
-- ==== Proof.KAgg.lean ====
/-
  The aggregation as the program spells it, read at an entry.

  The source words are wrapped (a negative word has 50000 added), broadcast into a column and used to gather rows of
  `h`; the gathered rows are scatter-added into zeros through the column of destination words. Entry `(i, f)` of the
  result is zero plus the sum, over the edges whose destination word read signed is `i`, of `h` at the row the edge's
  wrapped source word names, read signed and clamped, column `f`.
-/
import proofs.«172491_j1821066133824_2_alg».proof.Proof.Gen.KernelIdeal.Frame
import proofs.«172491_j1821066133824_2_alg».proof.Proof.Spec
import proofs.«172491_j1821066133824_2_alg».proof.Proof.LibGatherScatter
import Idealize.ShloMosaic.Lib.Pipeline.Value

noncomputable section

open Idealize.ShloMosaic Idealize.ShloMosaic.TcCoe Idealize.ShloMosaic.ValueIdx

namespace Cert.KernelIdeal.Chain

open Cert.KernelIdeal Cert.KernelIdeal.Gen

/-- The thirteen host operations between two launches, as one function of the rows `h` and the two word vectors. -/
def aggOps (h : (⟨S50000x128, .f32⟩ : BufTy).Contents (Elt Ideal)) (src dst : (⟨S800000, .i32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- A word vector broadcast into a column reads, at row `e`, the vector's entry `e`. -/
theorem wordCol_apply (x : (⟨S800000, .i32⟩ : BufTy).Contents (Elt Ideal)) (e : Fin 800000) :
    broadcastInDim S800000x1 ![0] bcast_S800000_S800000x1_0 x (ix2 e ⟨0, Nat.one_pos⟩) = x (ix1 e) :=
  broadcastInDim_apply _ bcast_S800000_S800000x1_0 x _ (ix1 e) (fun a => match a with
    | ⟨0, _⟩ => by show e.val = if (800000 : Nat) = 1 then 0 else e.val; rw [if_neg (by decide)])

/-- The column the gather reads holds, at row `e`, the wrapped source word of edge `e`. -/
theorem wrapCol_apply (src : (⟨S800000, .i32⟩ : BufTy).Contents (Elt Ideal)) (e : Fin 800000) :
    broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src) (ix2 e ⟨0, Nat.one_pos⟩)
      = Cert.Gcn.wrapWord 50000 (src (ix1 e)) :=
  (wordCol_apply _ e).trans rfl

/-- The aggregation at an entry. -/
theorem aggOps_apply (h : (⟨S50000x128, .f32⟩ : BufTy).Contents (Elt Ideal)) (src dst : (⟨S800000, .i32⟩ : BufTy).Contents (Elt Ideal))
    (i : Fin 50000) (f : Fin 128) :
    aggOps h src dst (ix2 i f)
      = Cert.Gcn.agg Cert.Gcn.nodes_pos (fun e : Fin 800000 => src (ix1 e)) (fun e : Fin 800000 => dst (ix1 e))
          (fun (n : Fin 50000) (g : Fin 128) => h (ix2 n g)) i f := by
  unfold aggOps
  -- the program's two records are the library's row gather and segment sum: the same fields
  refine (Cert.HostInt.scatterAdd_gather_rows_apply (B := 50000) (F := 128) (N := 800000) (w := 32) (φ := .f32) (by decide)
    gather_S50000x128_S800000x1_S800000x128_1_0_n_n_0_1_1128_wf scatter_S50000x128_S800000x1_S800000x128_1_0_0_1_wf
    _ h _ _ (fun e => Cert.Gcn.nodeOf Cert.Gcn.nodes_pos (src (ix1 e))) (fun e => ?_) i f).trans ?_
  · -- the gather's word for edge `e`, read signed and clamped, is the node the wrapped source word names
    exact congrArg (fun w : BitVec 32 => min w.toInt.toNat (50000 - 1)) (wrapCol_apply src e)
  · -- the operand is zero everywhere, and the scatter's word for edge `e` is its destination word
    unfold Cert.Gcn.agg
    refine congrArg₂ (· + ·) rfl (Finset.sum_congr rfl fun e _ => ?_)
    rw [wordCol_apply]

end Cert.KernelIdeal.Chain

end
-- ==== Proof.KRow0.lean ====
/-
  One block of the first launch, entry by entry.

  The body multiplies the block of `x` (5000 rows of 64) by the whole weight matrix (64 by 128) into a zero
  accumulator and scales row `p` of the product by the `p`-th entry of the block of the column `d`. Changes of float
  format are the identity on extended reals, so entry `(p, q)` of what the body stores is

      (sum over k of  x (p, k) * W (k, q)) * d (p, 0),

  the projected row `p`, scaled.
-/
import proofs.«172491_j1821066133824_2_alg».proof.Proof.Gen.KernelIdeal.Frame
import proofs.«172491_j1821066133824_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx Idealize.SL.Sem

namespace Cert.KernelIdeal.Arrays

open Cert.KernelIdeal Cert.KernelIdeal.Gen

/-- The zero offsets of a whole-block access, as a constant function. -/
theorem zero_off2 : (![0, 0] : Fin 2 → Nat) = fun _ => 0 := funext fun a => by fin_cases a <;> rfl

/-- A column `[a, 1]` broadcast along a second axis reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's index of the block product: its row is the output's row, -/
theorem lhs0_row (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide),
    dif_pos (show (0 : Fin S5000x64.rank) ∈ dot_S5000x64_S64x128_S5000x128_1_0_0_1_n_n.lhsNonContracting by decide)]
  rfl

/-- and the right operand's column is the output's column. -/
theorem rhs0_col (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide),
    dif_pos (show (1 : Fin S64x128.rank) ∈ dot_S5000x64_S64x128_S5000x128_1_0_0_1_n_n.rhsNonContracting by decide)]
  rfl

/-- The block product into a zero accumulator, at entry `(p, q)`: row `p` of the left block against column `q` of the
    right one. -/
theorem matmul0_apply (l : FVec Ideal S5000x64 .bf16) (r : FVec Ideal S64x128 .bf16) (p : Fin 5000) (q : Fin 128) :
    (matmul dot_S5000x64_S64x128_S5000x128_1_0_0_1_n_n none l r (constant S5000x128 .f32 0x00000000#32) : FVec Ideal S5000x128 .f32)
        (ix2 p q)
      = ∑ k : Fin 64, l (ix2 p k) * r (ix2 k q) := by
  simp only [matmul]
  rw [Ideal.matmul_constant_zero_apply,
    ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx (ix2 p q)
      ((ValueIdx.contrEquiv1 dot_S5000x64_S64x128_S5000x128_1_0_0_1_n_n 64 rfl rfl).symm k) = ix2 p k :=
    funext fun a => Fin.ext (by
      match a with
      | ⟨0, _⟩ => exact lhs0_row _ _
      | ⟨1, _⟩ => exact (dot_S5000x64_S64x128_S5000x128_1_0_0_1_n_n.lhsIdx_val_of_single rfl _ _).trans hk)
  have er : dot_S5000x64_S64x128_S5000x128_1_0_0_1_n_n.rhsIdx (ix2 p q)
      ((ValueIdx.contrEquiv1 dot_S5000x64_S64x128_S5000x128_1_0_0_1_n_n 64 rfl rfl).symm k) = ix2 k q :=
    funext fun a => Fin.ext (by
      match a with
      | ⟨0, _⟩ => exact (dot_S5000x64_S64x128_S5000x128_1_0_0_1_n_n.rhsIdx_val_of_single rfl _ _).trans hk
      | ⟨1, _⟩ => exact rhs0_col _ _)
  rw [el, er]

/-- What the body leaves in the output's block, at entry `(p, q)`: the projected row `p` of the `x` block, scaled by
    entry `p` of the `d` block. -/
theorem out0_3_apply (x0 : Vec Ideal S5000x64 .f32) (x1 : Vec Ideal S64x128 .f32) (x2 : Vec Ideal S5000x1 .f32)
    (p : Fin 5000) (q : Fin 128) :
    (out0_3 x0 x1 x2 : S5000x128.Idx → EReal) (ix2 p q)
      = Cert.Gcn.projRow (fun k : Fin 64 => (x0 : S5000x64.Idx → EReal) (ix2 p k))
          (fun (k : Fin 64) (g : Fin 128) => (x1 : S64x128.Idx → EReal) (ix2 k g)) ((x2 : S5000x1.Idx → EReal) (ix2 p 0)) q := by
  unfold out0_3
  rw [View.canon_unit_zero zero_off2]
  simp only [View.ld_unit_zero (S := S5000x64) zero_off2, View.ld_unit_zero (S := S64x128) zero_off2,
    View.ld_unit_zero (S := S5000x1) zero_off2]
  unfold k0_pay1
  rw [mulf_apply, matmul0_apply, shapeCast_self, broadcastTo_a1_ab_apply]
  rfl

end Cert.KernelIdeal.Arrays

end
-- ==== Proof.KArr0.lean ====
/-
  The first launch's output array, row by row.

  Block `t` of the output is rows `5000 t … 5000 t + 4999`; row `i` of the array is the projected row `i` of the
  input, scaled by `d i`, whichever block it sits in.

  The blocks of `x`, of the column `d` and of the output move together down the rows (block `t` of each is rows
  `5000 t …`), the weight matrix is one block; so entry `(p, q)` of output block `t` depends on row `5000 t + p` of `x`
  and of `d` only, and is entry `(5000 t + p, q)` of one function of the whole arrays. Row `r` lies in block
  `r / 5000`, so the ten blocks cover the array.
-/
import proofs.«172491_j1821066133824_2_alg».proof.Proof.Gen.KernelIdeal.Frame
import proofs.«172491_j1821066133824_2_alg».proof.Proof.Spec
import proofs.«172491_j1821066133824_2_alg».proof.Proof.KRow0

noncomputable section

open Idealize.ShloMosaic Idealize.ShloMosaic.TcCoe Idealize.ShloMosaic.ValueIdx Idealize.SL.Sem

namespace Cert.KernelIdeal.Arrays

open Cert.KernelIdeal Cert.KernelIdeal.Gen

variable (V : (c : Dev nD) → (b : Ref sig .tc) → Buf (Elt Ideal) ((c : Thread nD τ).loc b))

/-- Row `i` of the output as a function of the three whole arrays. -/
def row0 (A0 : S50000x64.Idx → EReal) (A3 : S64x128.Idx → EReal) (A7 : S50000x1.Idx → EReal) (i : Fin 50000) :
    Fin 128 → EReal :=
  Cert.Gcn.projRow (fun k : Fin 64 => A0 (ix2 i k)) (fun (k : Fin 64) (g : Fin 128) => A3 (ix2 k g)) (A7 (ix2 i 0))

/-- The output array as one function of the three whole arrays. -/
def arr0 (A0 : S50000x64.Idx → EReal) (A3 : S64x128.Idx → EReal) (A7 : S50000x1.Idx → EReal) : S50000x128.Idx → EReal :=
  fun j => row0 A0 A3 A7 ⟨(j 0).val, idx2_lt0 j⟩ ⟨(j 1).val, idx2_lt1 j⟩

/-- Where the blocks sit: at point `t` the blocks of `x`, of `d` and of the output are the `t`-th along the rows, the
    weight matrix is its one block. -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry `(p, k)` of block `t` of `x` is entry `(5000 t + p, k)` of `x`. -/
theorem iblk0_0_apply (c : Dev nD) (t : Fin cfg0.N) (y : S5000x64.Idx) (k : S50000x64.Idx)
    (hk0 : (k 0).val = t.val * 5000 + (y 0).val) (hk1 : (k 1).val = (y 1).val) :
    (iblk0 V c 0 t : S5000x64.Idx → EReal) y = (V c main_arg0 : S50000x64.Idx → EReal) k := by
  obtain ⟨e0, e1, -⟩ := block_index0 t
  show (V c main_arg0 : S50000x64.Idx → EReal) (((cfg0.win 0).blk t).view.emb y) = _
  refine congrArg _ (funext fun a => Fin.ext ?_)
  match a with
  | ⟨0, _⟩ => show win0_0.index t (0 : Fin 2) * 5000 + 1 * (y 0).val = (k 0).val; rw [e0, hk0]; omega
  | ⟨1, _⟩ => show win0_0.index t (1 : Fin 2) * 64 + 1 * (y 1).val = (k 1).val; rw [e1, hk1]; omega

/-- The one block of the weight matrix is the weight matrix. -/
theorem iblk0_1_apply (c : Dev nD) (t : Fin cfg0.N) (y : S64x128.Idx) :
    (iblk0 V c 1 t : S64x128.Idx → EReal) y = (V c main_arg3 : S64x128.Idx → EReal) y := by
  obtain ⟨-, -, e0, e1, -⟩ := block_index0 t
  show (V c main_arg3 : S64x128.Idx → EReal) (((cfg0.win 1).blk t).view.emb y) = _
  refine congrArg _ (funext fun a => Fin.ext ?_)
  match a with
  | ⟨0, _⟩ => show win0_1.index t (0 : Fin 2) * 64 + 1 * (y 0).val = (y 0).val; rw [e0]; omega
  | ⟨1, _⟩ => show win0_1.index t (1 : Fin 2) * 128 + 1 * (y 1).val = (y 1).val; rw [e1]; omega

/-- Entry `(p, 0)` of block `t` of the column `d` is entry `(5000 t + p, 0)` of `d`. -/
theorem iblk0_2_apply (c : Dev nD) (t : Fin cfg0.N) (y : S5000x1.Idx) (k : S50000x1.Idx)
    (hk0 : (k 0).val = t.val * 5000 + (y 0).val) (hk1 : (k 1).val = (y 1).val) :
    (iblk0 V c 2 t : S5000x1.Idx → EReal) y = (V c main_v7 : S50000x1.Idx → EReal) k := by
  obtain ⟨-, -, -, -, e0, e1, -⟩ := block_index0 t
  show (V c main_v7 : S50000x1.Idx → EReal) (((cfg0.win 2).blk t).view.emb y) = _
  refine congrArg _ (funext fun a => Fin.ext ?_)
  match a with
  | ⟨0, _⟩ => show win0_2.index t (0 : Fin 2) * 5000 + 1 * (y 0).val = (k 0).val; rw [e0, hk0]; omega
  | ⟨1, _⟩ => show win0_2.index t (1 : Fin 2) * 1 + 1 * (y 1).val = (k 1).val; rw [e1, hk1]; omega

/-- A block of the output from blocks that are rows `5000 n …` of `x` and of `d` and the whole weight matrix: its entry
    `j` is the whole-array function at the entry `5000 n` rows further down. -/
theorem block_row (x0 : Vec Ideal S5000x64 .f32) (x1 : Vec Ideal S64x128 .f32) (x2 : Vec Ideal S5000x1 .f32)
    (A0 : S50000x64.Idx → EReal) (A3 : S64x128.Idx → EReal) (A7 : S50000x1.Idx → EReal) (n : Nat)
    (h0 : ∀ (y : S5000x64.Idx) (k : S50000x64.Idx), (k 0).val = n * 5000 + (y 0).val → (k 1).val = (y 1).val →
      (x0 : S5000x64.Idx → EReal) y = A0 k)
    (h1 : ∀ y : S64x128.Idx, (x1 : S64x128.Idx → EReal) y = A3 y)
    (h2 : ∀ (y : S5000x1.Idx) (k : S50000x1.Idx), (k 0).val = n * 5000 + (y 0).val → (k 1).val = (y 1).val →
      (x2 : S5000x1.Idx → EReal) y = A7 k)
    (j : S5000x128.Idx) (i : S50000x128.Idx) (hi0 : (i 0).val = n * 5000 + (j 0).val) (hi1 : (i 1).val = (j 1).val) :
    (out0_3 x0 x1 x2 : S5000x128.Idx → EReal) j = arr0 A0 A3 A7 i := by
  obtain ⟨p, q, rfl⟩ : ∃ (p : Fin 5000) (q : Fin 128), j = ix2 p q := ⟨j 0, j 1, eq_ix2 j⟩
  rw [out0_3_apply]
  unfold arr0 row0
  have hq : (⟨(i 1).val, idx2_lt1 i⟩ : Fin 128) = q := Fin.ext hi1
  have e0 : (fun k : Fin 64 => (x0 : S5000x64.Idx → EReal) (ix2 p k))
      = fun k : Fin 64 => A0 (ix2 (⟨(i 0).val, idx2_lt0 i⟩ : Fin 50000) k) :=
    funext fun k => h0 (ix2 p k) (ix2 (⟨(i 0).val, idx2_lt0 i⟩ : Fin 50000) k) hi0 rfl
  have e1 : (fun (k : Fin 64) (g : Fin 128) => (x1 : S64x128.Idx → EReal) (ix2 k g)) = fun k g => A3 (ix2 k g) :=
    funext fun k => funext fun g => h1 (ix2 k g)
  have e2 : (x2 : S5000x1.Idx → EReal) (ix2 p 0) = A7 (ix2 (⟨(i 0).val, idx2_lt0 i⟩ : Fin 50000) 0) :=
    h2 (ix2 p 0) (ix2 (⟨(i 0).val, idx2_lt0 i⟩ : Fin 50000) 0) hi0 rfl
  rw [hq, e0, e1, e2]

/-- What point `t` writes back is block `t` of the whole-array function. -/
theorem flushed0_3_eq (c : Dev nD) (t : Fin cfg0.N) :
    (dat0 (F := Ideal) V c).flushed 3 t
      = ((cfg0.win 3).blk t).view.read (Elt Ideal) (arr0 (V c main_arg0) (V c main_arg3) (V c main_v7)) := by
  show (cfg0.win 3).cut (grid0.coords t) ((dat0 (F := Ideal) V c).after 3 t) = _
  rw [after0_3]
  obtain ⟨-, -, -, -, -, -, e0, e1⟩ := block_index0 t
  funext j
  show (out0_3 (iblk0 V c 0 t) (iblk0 V c 1 t) (iblk0 V c 2 t) : S5000x128.Idx → EReal) j
    = arr0 (V c main_arg0) (V c main_arg3) (V c main_v7) (((cfg0.win 3).blk t).view.emb j)
  refine block_row (iblk0 V c 0 t) (iblk0 V c 1 t) (iblk0 V c 2 t) (V c main_arg0) (V c main_arg3) (V c main_v7) t.val
    (fun y k hk0 hk1 => iblk0_0_apply V c t y k hk0 hk1) (fun y => iblk0_1_apply V c t y)
    (fun y k hk0 hk1 => iblk0_2_apply V c t y k hk0 hk1) j (((cfg0.win 3).blk t).view.emb j) ?_ ?_
  · show win0_3.index t (0 : Fin 2) * 5000 + 1 * (j 0).val = t.val * 5000 + (j 0).val; rw [e0]; omega
  · show win0_3.index t (1 : Fin 2) * 128 + 1 * (j 1).val = (j 1).val; rw [e1]; omega

/-- An entry of the array is in point `t`'s block iff each coordinate is in the block's range on its axis. -/
theorem mem_blk0_3 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v8).slice (win0_3.rect t)).set ↔ _
  rw [View.set_slice_whole, Rect.mem_set_unit]
  exact Iff.rfl

/-- Row `r` lies in block `r / 5000`: the ten blocks cover the array. -/
theorem blocks_cover0_3 (i : S50000x128.Idx) :
    ∃ t : Fin cfg0.N, (cfg0.win 3).flush t = true ∧ i ∈ ((cfg0.win 3).blk t).view.set := by
  have hi0 : (i 0).val < 50000 := idx2_lt0 i
  have hi1 : (i 1).val < 128 := idx2_lt1 i
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e0, e1⟩ := block_index0 t
  refine ⟨t, flush0_3 t, ?_⟩
  rw [mem_blk0_3]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-- The output array after the launch is the whole-array function of the arrays the launch finds. -/
theorem arr0_3_eq (c : Dev nD) :
    (dat0 (F := Ideal) V c).arrAt 3 cfg0.N = arr0 (V c main_arg0) (V c main_arg3) (V c main_v7) :=
  (dat0 (F := Ideal) V c).arrAt_eq_of_cover 3 (arr0 (V c main_arg0) (V c main_arg3) (V c main_v7))
    (fun t _ => flushed0_3_eq V c t) blocks_cover0_3

/-- Row `i` of the first launch's output array, from the arrays the launch finds. -/
theorem arr0_3 (c : Dev nD) (i : Fin 50000) (f : Fin 128) :
    ((dat0 (F := Ideal) V c).arrAt 3 cfg0.N : S50000x128.Idx → EReal) (ix2 i f)
      = Cert.Gcn.projRow (fun k : Fin 64 => (V c main_arg0 : S50000x64.Idx → EReal) (ix2 i k)) (fun (k : Fin 64) (g : Fin 128) => (V c main_arg3 : S64x128.Idx → EReal) (ix2 k g))
          ((V c main_v7 : S50000x1.Idx → EReal) (ix2 i 0)) f := by
  exact congrFun (arr0_3_eq V c) (ix2 i f)

end Cert.KernelIdeal.Arrays

end
-- ==== Proof.K1Ops.lean ====
/-
  The layout and contraction operations of the two layer kernels, read at an entry.

  A column `[a, 1]` broadcast along its rows to `[a, b]` reads, at `(p, c)`, the column's entry `p`. A feature
  vector `[b]` seen as the one row `[1, b]` and broadcast to `[a, b]` reads, at `(p, c)`, the vector's entry `c`.
  The product of a `[5000, 128]` block by a `[128, 128]` matrix into a zero accumulator reads, at `(p, q)`, the sum
  over `k` of `lhs (p, k) * rhs (k, q)`: the contraction index has one axis of extent 128, and the sum over it is
  re-indexed by that axis's coordinate.
-/
import proofs.«172491_j1821066133824_2_alg».proof.Proof.Gen.KernelIdeal.Skeleton
import Idealize.ShloMosaic.Lib.ValueLayout
import Idealize.ShloMosaic.PureOps.Ideal.Laws

noncomputable section

open Idealize.ShloMosaic Idealize.ShloMosaic.ValueIdx

namespace Cert.KernelIdeal.LayerOps

open Cert.KernelIdeal

/-- The two zero offsets of a whole rank-2 block, as a constant function. -/
theorem zeros2 : (![0, 0] : Fin 2 → Nat) = fun _ => 0 := funext fun a => by fin_cases a <;> rfl

/-- The zero offset of a whole rank-1 block, as a constant function. -/
theorem zeros1 : (![0] : Fin 1 → Nat) = fun _ => 0 := funext fun a => by fin_cases a <;> rfl

section Layout
variable {α : Type}

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column cast to its own shape and broadcast along its rows: entry `(p, c)` is the column's entry `p`. -/
theorem column_apply {a b : ℕ} (v : (⟨2, ![a, 1]⟩ : Shape).Idx → α)
    (h1 : (⟨2, ![a, 1]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ v h1) h2 (ix2 p c) = v (ix2 p (0 : Fin 1)) := by
  rw [shapeCast_self]
  exact broadcastTo_a1_ab_apply v h2 p c

/-- A feature vector seen as one row and broadcast over the rows: entry `(p, c)` is the vector's entry `c`. -/
theorem features_apply {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

end Layout

/-- The left operand's row coordinate is the output's. -/
theorem lhs_row (i : S5000x128.Idx) (y : dot_S5000x128_S128x128_S5000x128_1_0_0_1_n_n.contr.Idx) :
    (dot_S5000x128_S128x128_S5000x128_1_0_0_1_n_n.lhsIdx i y 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column coordinate is the contraction's. -/
theorem lhs_col (i : S5000x128.Idx) (y : dot_S5000x128_S128x128_S5000x128_1_0_0_1_n_n.contr.Idx) :
    (dot_S5000x128_S128x128_S5000x128_1_0_0_1_n_n.lhsIdx i y 1).val = (y ⟨0, by decide⟩).val :=
  dot_S5000x128_S128x128_S5000x128_1_0_0_1_n_n.lhsIdx_val_of_single rfl i y

/-- The right operand's row coordinate is the contraction's. -/
theorem rhs_row (i : S5000x128.Idx) (y : dot_S5000x128_S128x128_S5000x128_1_0_0_1_n_n.contr.Idx) :
    (dot_S5000x128_S128x128_S5000x128_1_0_0_1_n_n.rhsIdx i y 0).val = (y ⟨0, by decide⟩).val :=
  dot_S5000x128_S128x128_S5000x128_1_0_0_1_n_n.rhsIdx_val_of_single rfl i y

/-- The right operand's column coordinate is the output's. -/
theorem rhs_col (i : S5000x128.Idx) (y : dot_S5000x128_S128x128_S5000x128_1_0_0_1_n_n.contr.Idx) :
    (dot_S5000x128_S128x128_S5000x128_1_0_0_1_n_n.rhsIdx i y 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The left operand's index at output `(p, q)` and contraction coordinate `k` is `(p, k)`. -/
theorem lhsIdx_eq (p : Fin 5000) (q : Fin 128) (k : Fin 128) :
    dot_S5000x128_S128x128_S5000x128_1_0_0_1_n_n.lhsIdx (ix2 p q)
        ((contrEquiv1 dot_S5000x128_S128x128_S5000x128_1_0_0_1_n_n 128 rfl rfl).symm k) = ix2 p k := by
  have hk := contrEquiv1_symm_val dot_S5000x128_S128x128_S5000x128_1_0_0_1_n_n 128 rfl rfl k
  refine funext fun a => Fin.ext ?_
  match a with
  | ⟨0, _⟩ => exact lhs_row _ _
  | ⟨1, _⟩ => exact (lhs_col _ _).trans hk

/-- The right operand's index at output `(p, q)` and contraction coordinate `k` is `(k, q)`. -/
theorem rhsIdx_eq (p : Fin 5000) (q : Fin 128) (k : Fin 128) :
    dot_S5000x128_S128x128_S5000x128_1_0_0_1_n_n.rhsIdx (ix2 p q)
        ((contrEquiv1 dot_S5000x128_S128x128_S5000x128_1_0_0_1_n_n 128 rfl rfl).symm k) = ix2 k q := by
  have hk := contrEquiv1_symm_val dot_S5000x128_S128x128_S5000x128_1_0_0_1_n_n 128 rfl rfl k
  refine funext fun a => Fin.ext ?_
  match a with
  | ⟨0, _⟩ => exact (rhs_row _ _).trans hk
  | ⟨1, _⟩ => exact rhs_col _ _

/-- The block-by-matrix product into a zero accumulator, at entry `(p, q)`: the row `p` against the column `q`. -/
theorem matmul_entry {φ₁ φ₂ : FTy} (L : FVec Ideal S5000x128 φ₁) (R : FVec Ideal S128x128 φ₂) (p : Fin 5000) (q : Fin 128) :
    matmul dot_S5000x128_S128x128_S5000x128_1_0_0_1_n_n none L R (constant S5000x128 .f32 0x00000000#32) (ix2 p q)
      = ∑ k : Fin 128, L (ix2 p k) * R (ix2 k q) := by
  show FloatOps.matmul dot_S5000x128_S128x128_S5000x128_1_0_0_1_n_n none L R (constant S5000x128 .f32 0x00000000#32) (ix2 p q) = _
  rw [Ideal.matmul_constant_zero_apply,
    ← Equiv.sum_comp (contrEquiv1 dot_S5000x128_S128x128_S5000x128_1_0_0_1_n_n 128 rfl rfl).symm]
  refine Finset.sum_congr rfl fun k _ => ?_
  rw [lhsIdx_eq, rhsIdx_eq]

end Cert.KernelIdeal.LayerOps

end
-- ==== Proof.KRow1.lean ====
/-
  Launch 1's body at an entry of its output block.

  The body stores ONE value: the product of a [5000, 128] block by the weight matrix, each row scaled by the node's
  `d`. The block is, entry by entry, the positive part of the batch norm of `d * (aggregated + own) + b`; the bias, the
  norm's four vectors and `d` reach an entry through broadcasts, so entry `(p, q)` of the stored value depends on
  row `p` of the two row-blocked inputs, on entry `p` of the `d` column, and on the whole feature vectors and matrix:
  it is the layer's row function of those, at feature `q`.
-/
import proofs.«172491_j1821066133824_2_alg».proof.Proof.Gen.KernelIdeal.Frame
import proofs.«172491_j1821066133824_2_alg».proof.Proof.K1Ops
import proofs.«172491_j1821066133824_2_alg».proof.Proof.Spec

noncomputable section

open Idealize.ShloMosaic Idealize.ShloMosaic.ValueIdx

namespace Cert.KernelIdeal.Layer1

open Cert.KernelIdeal Cert.KernelIdeal.Gen Cert.KernelIdeal.LayerOps

/-- The projected activation at entry `(p, q)`: row `p` combined, normalized, cut at zero, against column `q` of the
    weights. -/
theorem projected_entry (d : Vec Ideal S5000x1 .f32) (sc hs : Vec Ideal S5000x128 .f32) (b v m g be : Vec Ideal S128 .f32)
    (W : Vec Ideal S128x128 .f32) (p : Fin 5000) (q : Fin 128) :
    k1_pay2 d sc hs b v m g be W (ix2 p q)
      = Cert.Gcn.rowMat
          (Cert.Gcn.bnRelu
            (Cert.Gcn.combineRow (d (ix2 p 0)) (fun k : Fin 128 => sc (ix2 p k)) (fun k : Fin 128 => hs (ix2 p k))
              (fun k : Fin 128 => b (ix1 k)))
            (fun k : Fin 128 => m (ix1 k)) (fun k : Fin 128 => v (ix1 k)) (fun k : Fin 128 => g (ix1 k))
            (fun k : Fin 128 => be (ix1 k)))
          (fun (k : Fin 128) (f : Fin 128) => W (ix2 k f)) q := by
  unfold k1_pay2
  refine (matmul_entry _ _ p q).trans ?_
  unfold Cert.Gcn.rowMat
  refine Finset.sum_congr rfl fun k _ => ?_
  refine congrArg₂ (· * ·) ?_ rfl
  unfold Cert.Gcn.bnRelu Cert.Gcn.combineRow
  simp only [truncf_apply, maximumf_apply, addf_apply, mulf_apply, subf_apply, broadcast_apply, features_apply,
    column_apply, broadcastTo_a1_ab_apply, shapeCast_self]
  rfl

/-- Entry `(p, q)` of what the body leaves in the output block: the layer's row function of row `p` of the
    row-blocked inputs and of the whole feature vectors and weight matrix, at feature `q`. -/
theorem out_entry (x0 x1 : Vec Ideal S5000x128 .f32) (x2 : Vec Ideal S5000x1 .f32) (x3 x4 x5 x6 x7 : Vec Ideal S128 .f32)
    (x8 : Vec Ideal S128x128 .f32) (p : Fin 5000) (q : Fin 128) :
    out1_9 x0 x1 x2 x3 x4 x5 x6 x7 x8 (ix2 p q)
      = Cert.Gcn.layerRow (fun k : Fin 128 => x0 (ix2 p k)) (fun k : Fin 128 => x1 (ix2 p k)) (x2 (ix2 p 0))
          (fun k : Fin 128 => x3 (ix1 k)) (fun k : Fin 128 => x4 (ix1 k)) (fun k : Fin 128 => x5 (ix1 k))
          (fun k : Fin 128 => x6 (ix1 k)) (fun k : Fin 128 => x7 (ix1 k))
          (fun (k : Fin 128) (f : Fin 128) => x8 (ix2 k f)) q := by
  unfold out1_9
  rw [View.canon_unit_zero zeros2]
  simp only [View.ld_unit_zero (S := S5000x128) zeros2, View.ld_unit_zero (S := S5000x1) zeros2,
    View.ld_unit_zero (S := S128) zeros1, View.ld_unit_zero (S := S128x128) zeros2]
  unfold k1_pay1 k1_pay3
  refine (mulf_apply _ _ (ix2 p q)).trans ?_
  rw [column_apply, projected_entry]
  rfl

end Cert.KernelIdeal.Layer1

end
-- ==== Proof.K1Blocks.lean ====
/-
  Launch 1's output array from its blocks.

  The grid has 10 points. At point `t` each row-blocked window (the aggregated rows, the node's own scaled rows, the
  `d` column, the output) holds rows `5000 t … 5000 t + 4999` of its array, and each whole window (the bias, the batch
  norm's four vectors, the weight matrix) holds its whole array. So entry `(p, q)` of the block point `t` writes back
  is the layer's row function of row `5000 t + p` of the arrays, at feature `q`: every point writes its block of ONE
  function of the array index. Row `r` lies in the block of point `r / 5000`, so the blocks cover the array, and the
  array ends holding that function.
-/
import proofs.«172491_j1821066133824_2_alg».proof.Proof.KRow1
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Layer1

open Cert.KernelIdeal Cert.KernelIdeal.Gen Cert.KernelIdeal.LayerOps

variable (V : (c : Dev nD) → (b : Ref sig .tc) → Buf (Elt Ideal) ((c : Thread nD τ).loc b))

/-- The windows' index maps over the grid: a row-blocked window's block index at point `t` is `(t, 0)`, a whole
    window's is zero on every axis. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0 ∧ win1_4.index t (0 : Fin 1) = 0 ∧ win1_5.index t (0 : Fin 1) = 0
    ∧ win1_6.index t (0 : Fin 1) = 0 ∧ win1_7.index t (0 : Fin 1) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-! ## The input blocks, read in their arrays -/

/-- Row `p` of window 0's block at point `t` is row `5000 t + p` of the aggregated rows. -/
theorem block0 (c : Dev nD) (t : Fin cfg1.N) (p : Fin 5000) (r : Fin 50000) (hr : r.val = t.val * 5000 + p.val) (k : Fin 128) :
    (iblk1 V c 0 t : Vec Ideal S5000x128 .f32) (ix2 p k) = (V c main_v18 : S50000x128.Idx → EReal) (ix2 r k) := by
  have e0 := (index_facts t).1
  have e1 := (index_facts t).2.1
  unfold iblk1
  rw [View.read_apply]
  show (V c main_v18 : S50000x128.Idx → EReal) _ = _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Row `p` of window 1's block at point `t` is row `5000 t + p` of the nodes' own scaled rows. -/
theorem block1 (c : Dev nD) (t : Fin cfg1.N) (p : Fin 5000) (r : Fin 50000) (hr : r.val = t.val * 5000 + p.val) (k : Fin 128) :
    (iblk1 V c 1 t : Vec Ideal S5000x128 .f32) (ix2 p k) = (V c main_v8 : S50000x128.Idx → EReal) (ix2 r k) := by
  have e0 := (index_facts t).2.2.1
  have e1 := (index_facts t).2.2.2.1
  unfold iblk1
  rw [View.read_apply]
  show (V c main_v8 : S50000x128.Idx → EReal) _ = _
  refine congrArg _ (funext fun a => Fin.ext ?_)
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- Entry `p` of window 2's block at point `t` is entry `5000 t + p` of the `d` column. -/
theorem block2 (c : Dev nD) (t : Fin cfg1.N) (p : Fin 5000) (r : Fin 50000) (hr : r.val = t.val * 5000 + p.val) :
    (iblk1 V c 2 t : Vec Ideal S5000x1 .f32) (ix2 p 0) = (V c main_v7 : S50000x1.Idx → EReal) (ix2 r 0) := by
  have e0 := (index_facts t).2.2.2.2.1
  have e1 := (index_facts t).2.2.2.2.2.1
  unfold iblk1
  rw [View.read_apply]
  show (V c main_v7 : S50000x1.Idx → EReal) _ = _
  refine congrArg _ (funext fun a => Fin.ext ?_)
  match a with
  | ⟨0, _⟩ => show win1_2.index t (0 : Fin 2) * 5000 + 1 * p.val = r.val; rw [e0, hr]; omega
  | ⟨1, _⟩ => show win1_2.index t (1 : Fin 2) * 1 + 1 * 0 = 0; rw [e1]

/-- Window 3 is the whole feature vector at every point. -/
theorem block3 (c : Dev nD) (t : Fin cfg1.N) (k : Fin 128) :
    (iblk1 V c 3 t : Vec Ideal S128 .f32) (ix1 k) = (V c main_arg4 : S128.Idx → EReal) (ix1 k) := by
  have e := (index_facts t).2.2.2.2.2.2.1
  unfold iblk1
  rw [View.read_apply]
  show (V c main_arg4 : S128.Idx → EReal) _ = _
  refine congrArg _ (funext fun a => Fin.ext ?_)
  match a with
  | ⟨0, _⟩ => show win1_3.index t (0 : Fin 1) * 128 + 1 * k.val = k.val; rw [e]; omega

/-- Window 4 is the whole feature vector at every point. -/
theorem block4 (c : Dev nD) (t : Fin cfg1.N) (k : Fin 128) :
    (iblk1 V c 4 t : Vec Ideal S128 .f32) (ix1 k) = (V c main_arg5 : S128.Idx → EReal) (ix1 k) := by
  have e := (index_facts t).2.2.2.2.2.2.2.1
  unfold iblk1
  rw [View.read_apply]
  show (V c main_arg5 : S128.Idx → EReal) _ = _
  refine congrArg _ (funext fun a => Fin.ext ?_)
  match a with
  | ⟨0, _⟩ => show win1_4.index t (0 : Fin 1) * 128 + 1 * k.val = k.val; rw [e]; omega

/-- Window 5 is the whole feature vector at every point. -/
theorem block5 (c : Dev nD) (t : Fin cfg1.N) (k : Fin 128) :
    (iblk1 V c 5 t : Vec Ideal S128 .f32) (ix1 k) = (V c main_arg6 : S128.Idx → EReal) (ix1 k) := by
  have e := (index_facts t).2.2.2.2.2.2.2.2.1
  unfold iblk1
  rw [View.read_apply]
  show (V c main_arg6 : S128.Idx → EReal) _ = _
  refine congrArg _ (funext fun a => Fin.ext ?_)
  match a with
  | ⟨0, _⟩ => show win1_5.index t (0 : Fin 1) * 128 + 1 * k.val = k.val; rw [e]; omega

/-- Window 6 is the whole feature vector at every point. -/
theorem block6 (c : Dev nD) (t : Fin cfg1.N) (k : Fin 128) :
    (iblk1 V c 6 t : Vec Ideal S128 .f32) (ix1 k) = (V c main_arg7 : S128.Idx → EReal) (ix1 k) := by
  have e := (index_facts t).2.2.2.2.2.2.2.2.2.1
  unfold iblk1
  rw [View.read_apply]
  show (V c main_arg7 : S128.Idx → EReal) _ = _
  refine congrArg _ (funext fun a => Fin.ext ?_)
  match a with
  | ⟨0, _⟩ => show win1_6.index t (0 : Fin 1) * 128 + 1 * k.val = k.val; rw [e]; omega

/-- Window 7 is the whole feature vector at every point. -/
theorem block7 (c : Dev nD) (t : Fin cfg1.N) (k : Fin 128) :
    (iblk1 V c 7 t : Vec Ideal S128 .f32) (ix1 k) = (V c main_arg8 : S128.Idx → EReal) (ix1 k) := by
  have e := (index_facts t).2.2.2.2.2.2.2.2.2.2.1
  unfold iblk1
  rw [View.read_apply]
  show (V c main_arg8 : S128.Idx → EReal) _ = _
  refine congrArg _ (funext fun a => Fin.ext ?_)
  match a with
  | ⟨0, _⟩ => show win1_7.index t (0 : Fin 1) * 128 + 1 * k.val = k.val; rw [e]; omega

/-- Window 8 is the whole weight matrix at every point. -/
theorem block8 (c : Dev nD) (t : Fin cfg1.N) (k g : Fin 128) :
    (iblk1 V c 8 t : Vec Ideal S128x128 .f32) (ix2 k g) = (V c main_arg9 : S128x128.Idx → EReal) (ix2 k g) := by
  have e0 := (index_facts t).2.2.2.2.2.2.2.2.2.2.2.1
  have e1 := (index_facts t).2.2.2.2.2.2.2.2.2.2.2.2.1
  unfold iblk1
  rw [View.read_apply]
  show (V c main_arg9 : S128x128.Idx → EReal) _ = _
  refine congrArg _ (funext fun a => Fin.ext ?_)
  match a with
  | ⟨0, _⟩ => show win1_8.index t (0 : Fin 2) * 128 + 1 * k.val = k.val; rw [e0]; omega
  | ⟨1, _⟩ => show win1_8.index t (1 : Fin 2) * 128 + 1 * g.val = g.val; rw [e1]; omega

/-! ## The output array -/

/-- The output array as ONE function of the arrays the launch finds: at `(r, f)` the layer's row function of row `r`. -/
def rowsOut (c : Dev nD) : S50000x128.Idx → EReal := fun j =>
  Cert.Gcn.layerRow
    (fun k : Fin 128 => (V c main_v18 : S50000x128.Idx → EReal) (ix2 (⟨(j 0).val, idx2_lt0 j⟩ : Fin 50000) k))
    (fun k : Fin 128 => (V c main_v8 : S50000x128.Idx → EReal) (ix2 (⟨(j 0).val, idx2_lt0 j⟩ : Fin 50000) k))
    ((V c main_v7 : S50000x1.Idx → EReal) (ix2 (⟨(j 0).val, idx2_lt0 j⟩ : Fin 50000) 0))
    (fun k : Fin 128 => (V c main_arg4 : S128.Idx → EReal) (ix1 k)) (fun k : Fin 128 => (V c main_arg5 : S128.Idx → EReal) (ix1 k))
    (fun k : Fin 128 => (V c main_arg6 : S128.Idx → EReal) (ix1 k)) (fun k : Fin 128 => (V c main_arg7 : S128.Idx → EReal) (ix1 k))
    (fun k : Fin 128 => (V c main_arg8 : S128.Idx → EReal) (ix1 k))
    (fun (k : Fin 128) (g : Fin 128) => (V c main_arg9 : S128x128.Idx → EReal) (ix2 k g)) (⟨(j 1).val, idx2_lt1 j⟩ : Fin 128)

/-- What point `t` writes back is block `t` of `rowsOut`. -/
theorem flushed_eq (c : Dev nD) (t : Fin cfg1.N) :
    (dat1 V c).flushed 9 t = ((cfg1.win 9).blk t).view.read (Elt Ideal) (rowsOut V c) := by
  show (cfg1.win 9).cut (grid1.coords t) ((dat1 V c).after 9 t) = _
  rw [after1_9]
  refine funext fun (j : S5000x128.Idx) => ?_
  obtain ⟨p, q, rfl⟩ : ∃ (p : Fin 5000) (q : Fin 128), j = ix2 p q := ⟨j 0, j 1, eq_ix2 j⟩
  have hN : cfg1.N = 10 := N_1
  have ht : t.val < 10 := hN ▸ t.isLt
  have hrow : t.val * 5000 + p.val < 50000 := by have := p.isLt; omega
  have e9 := (index_facts t).2.2.2.2.2.2.2.2.2.2.2.2.2
  -- where the block's entry (p, q) sits in the array
  have hemb : ((cfg1.win 9).blk t).view.emb (ix2 p q)
      = (ix2 (⟨t.val * 5000 + p.val, hrow⟩ : Fin 50000) q : S50000x128.Idx) := by
    refine funext fun a => Fin.ext ?_
    match a with
    | ⟨0, _⟩ => show win1_9.index t (0 : Fin 2) * 5000 + 1 * p.val = t.val * 5000 + p.val; rw [e9.1]; omega
    | ⟨1, _⟩ => show win1_9.index t (1 : Fin 2) * 128 + 1 * q.val = q.val; rw [e9.2]; omega
  refine (out_entry (iblk1 V c 0 t) (iblk1 V c 1 t) (iblk1 V c 2 t) (iblk1 V c 3 t) (iblk1 V c 4 t) (iblk1 V c 5 t)
    (iblk1 V c 6 t) (iblk1 V c 7 t) (iblk1 V c 8 t) p q).trans ?_
  show _ = rowsOut V c (((cfg1.win 9).blk t).view.emb (ix2 p q))
  rw [hemb]
  have h0 : (fun k : Fin 128 => (iblk1 V c 0 t : Vec Ideal S5000x128 .f32) (ix2 p k))
      = fun k : Fin 128 => (V c main_v18 : S50000x128.Idx → EReal) (ix2 (⟨t.val * 5000 + p.val, hrow⟩ : Fin 50000) k) :=
    funext fun k => block0 V c t p _ rfl k
  have h1 : (fun k : Fin 128 => (iblk1 V c 1 t : Vec Ideal S5000x128 .f32) (ix2 p k))
      = fun k : Fin 128 => (V c main_v8 : S50000x128.Idx → EReal) (ix2 (⟨t.val * 5000 + p.val, hrow⟩ : Fin 50000) k) :=
    funext fun k => block1 V c t p _ rfl k
  have h2 : (iblk1 V c 2 t : Vec Ideal S5000x1 .f32) (ix2 p 0)
      = (V c main_v7 : S50000x1.Idx → EReal) (ix2 (⟨t.val * 5000 + p.val, hrow⟩ : Fin 50000) 0) := block2 V c t p _ rfl
  have h3 : (fun k : Fin 128 => (iblk1 V c 3 t : Vec Ideal S128 .f32) (ix1 k)) = fun k : Fin 128 => (V c main_arg4 : S128.Idx → EReal) (ix1 k) :=
    funext fun k => block3 V c t k
  have h4 : (fun k : Fin 128 => (iblk1 V c 4 t : Vec Ideal S128 .f32) (ix1 k)) = fun k : Fin 128 => (V c main_arg5 : S128.Idx → EReal) (ix1 k) :=
    funext fun k => block4 V c t k
  have h5 : (fun k : Fin 128 => (iblk1 V c 5 t : Vec Ideal S128 .f32) (ix1 k)) = fun k : Fin 128 => (V c main_arg6 : S128.Idx → EReal) (ix1 k) :=
    funext fun k => block5 V c t k
  have h6 : (fun k : Fin 128 => (iblk1 V c 6 t : Vec Ideal S128 .f32) (ix1 k)) = fun k : Fin 128 => (V c main_arg7 : S128.Idx → EReal) (ix1 k) :=
    funext fun k => block6 V c t k
  have h7 : (fun k : Fin 128 => (iblk1 V c 7 t : Vec Ideal S128 .f32) (ix1 k)) = fun k : Fin 128 => (V c main_arg8 : S128.Idx → EReal) (ix1 k) :=
    funext fun k => block7 V c t k
  have h8 : (fun (k : Fin 128) (g : Fin 128) => (iblk1 V c 8 t : Vec Ideal S128x128 .f32) (ix2 k g))
      = fun (k : Fin 128) (g : Fin 128) => (V c main_arg9 : S128x128.Idx → EReal) (ix2 k g) :=
    funext fun k => funext fun g => block8 V c t k g
  rw [h0, h1, h2, h3, h4, h5, h6, h7, h8]
  rfl

/-- An index of the array is in point `t`'s block iff each coordinate is in the block's range on its axis. -/
theorem mem_block (t : Fin cfg1.N) (i : S50000x128.Idx) :
    i ∈ ((cfg1.win 9).blk t).view.set ↔ ∀ a : Fin 2, win1_9.index t a * S5000x128.size a ≤ (i a).val
      ∧ (i a).val < win1_9.index t a * S5000x128.size a + S5000x128.size a := by
  show i ∈ ((View.whole main_v19).slice (win1_9.rect t)).set ↔ _
  rw [View.set_slice_whole, Rect.mem_set_unit]
  exact Iff.rfl

/-- Row `r` is in the block of point `r / 5000`: the output's blocks cover the array. -/
theorem covered (i : S50000x128.Idx) :
    ∃ t : Fin cfg1.N, (cfg1.win 9).flush t = true ∧ i ∈ ((cfg1.win 9).blk t).view.set := by
  have hi0 : (i 0).val < 50000 := idx2_lt0 i
  have hi1 : (i 1).val < 128 := idx2_lt1 i
  have hN : cfg1.N = 10 := N_1
  obtain ⟨t, ht⟩ : ∃ t : Fin cfg1.N, t.val = (i 0).val / 5000 := ⟨⟨(i 0).val / 5000, by rw [hN]; omega⟩, rfl⟩
  have e9 := (index_facts t).2.2.2.2.2.2.2.2.2.2.2.2.2
  refine ⟨t, flush1_9 t, ?_⟩
  rw [mem_block]
  intro a
  match a with
  | ⟨0, _⟩ =>
    show win1_9.index t (0 : Fin 2) * 5000 ≤ (i 0).val ∧ (i 0).val < win1_9.index t (0 : Fin 2) * 5000 + 5000
    rw [e9.1, ht]; omega
  | ⟨1, _⟩ =>
    show win1_9.index t (1 : Fin 2) * 128 ≤ (i 1).val ∧ (i 1).val < win1_9.index t (1 : Fin 2) * 128 + 128
    rw [e9.2]; omega

/-- The output array after the launch is `rowsOut` of the arrays the launch finds. -/
theorem array_eq (c : Dev nD) : (dat1 V c).arrAt 9 cfg1.N = rowsOut V c :=
  (dat1 V c).arrAt_eq_of_cover 9 (rowsOut V c) (fun t _ => flushed_eq V c t) covered

end Cert.KernelIdeal.Layer1

end
-- ==== Proof.KArr1.lean ====
/-
  Launch 1's output array, row by row.

  Row `i` of the output is the combined, normalized and projected row `i`, scaled by `d i`, whichever block of
  5000 rows it sits in.
-/
import proofs.«172491_j1821066133824_2_alg».proof.Proof.Gen.KernelIdeal.Frame
import proofs.«172491_j1821066133824_2_alg».proof.Proof.Spec
import proofs.«172491_j1821066133824_2_alg».proof.Proof.K1Blocks

noncomputable section

open Idealize.ShloMosaic Idealize.ShloMosaic.TcCoe Idealize.ShloMosaic.ValueIdx Idealize.SL.Sem

namespace Cert.KernelIdeal.Arrays

open Cert.KernelIdeal Cert.KernelIdeal.Gen

variable (V : (c : Dev nD) → (b : Ref sig .tc) → Buf (Elt Ideal) ((c : Thread nD τ).loc b))

/-- Row `i` of launch 1's output array, from the arrays the launch finds. -/
theorem arr1_9 (c : Dev nD) (i : Fin 50000) (f : Fin 128) :
    ((dat1 (F := Ideal) V c).arrAt 9 cfg1.N : S50000x128.Idx → EReal) (ix2 i f)
      = Cert.Gcn.layerRow (fun k : Fin 128 => (V c main_v18 : S50000x128.Idx → EReal) (ix2 i k)) (fun k : Fin 128 => (V c main_v8 : S50000x128.Idx → EReal) (ix2 i k))
          ((V c main_v7 : S50000x1.Idx → EReal) (ix2 i 0))
          (fun k : Fin 128 => (V c main_arg4 : S128.Idx → EReal) (ix1 k)) (fun k : Fin 128 => (V c main_arg5 : S128.Idx → EReal) (ix1 k)) (fun k : Fin 128 => (V c main_arg6 : S128.Idx → EReal) (ix1 k))
          (fun k : Fin 128 => (V c main_arg7 : S128.Idx → EReal) (ix1 k)) (fun k : Fin 128 => (V c main_arg8 : S128.Idx → EReal) (ix1 k))
          (fun (k : Fin 128) (g : Fin 128) => (V c main_arg9 : S128x128.Idx → EReal) (ix2 k g)) f := by
  exact congrFun (Cert.KernelIdeal.Layer1.array_eq V c) (ix2 i f)

end Cert.KernelIdeal.Arrays

end
-- ==== Proof.KPassA.lean ====
/- Buffers that nothing writes between two boundaries of the fold through the program.

  A stretch of host operations leaves alone every buffer that is not the result of one of its operations; a launch leaves
  alone every buffer that is not one of its arrays, and leaves each of its input arrays as it found it. So a buffer
  holds at a later boundary what it held at an earlier one when no stretch in between computes it and no launch in
  between has it as its output; an argument holds what the launch memory gave it.
-/
import proofs.«172491_j1821066133824_2_alg».proof.Proof.Gen.KernelIdeal.Frame

noncomputable section

namespace Cert.KernelIdeal.Gen

open Idealize.ShloMosaic Idealize.ShloMosaic.TcCoe Idealize.SL.Sem

variable {F : FTy → Type} [FloatOps F]
variable (m : (ℓ : Loc nD τ sig) → Buf (Elt F) ℓ) (ρ : Dev nD → PrngReg)

/-- `main_arg0` at boundary 1 is as at launch: nothing in between writes it. -/
theorem pass_W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg3` at boundary 1 is as at launch: nothing in between writes it. -/
theorem pass_W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- `main_v7` at boundary 2 is as at boundary 1: nothing in between writes it. -/
theorem pass_W2_main_v7 (c : Dev nD) : W2 m ρ c (Proc.devRef .tc main_v7) = W1 m ρ c (Proc.devRef .tc main_v7) :=
  calc W2 m ρ c (Proc.devRef .tc main_v7)
    _ = W1 m ρ c (Proc.devRef .tc main_v7) := (W2_arr m ρ c 2).trans (((dat0 (V1 m ρ) c).arrAt_in 2 rfl _).trans (A_eq0 (V1 m ρ) c 2))

/-- `main_arg1` at boundary 2 is as at launch: nothing in between writes it. -/
theorem pass_W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` at boundary 2 is as at launch: nothing in between writes it. -/
theorem pass_W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg4` at boundary 3 is as at launch: nothing in between writes it. -/
theorem pass_W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- `main_arg5` at boundary 3 is as at launch: nothing in between writes it. -/
theorem pass_W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- `main_arg6` at boundary 3 is as at launch: nothing in between writes it. -/
theorem pass_W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- `main_arg7` at boundary 3 is as at launch: nothing in between writes it. -/
theorem pass_W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- `main_arg8` at boundary 3 is as at launch: nothing in between writes it. -/
theorem pass_W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- `main_arg9` at boundary 3 is as at launch: nothing in between writes it. -/
theorem pass_W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- `main_v7` at boundary 3 is as at boundary 1: nothing in between writes it. -/
theorem pass_W3_main_v7 (c : Dev nD) : W3 m ρ c (Proc.devRef .tc main_v7) = W1 m ρ c (Proc.devRef .tc main_v7) :=
  calc W3 m ρ c (Proc.devRef .tc main_v7)
    _ = W2 m ρ c (Proc.devRef .tc main_v7) := StableHlo.after_of_forall_not_mem (b := Proc.devRef .tc main_v7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v7) := (W2_arr m ρ c 2).trans (((dat0 (V1 m ρ) c).arrAt_in 2 rfl _).trans (A_eq0 (V1 m ρ) c 2))

/-- `main_v8` at boundary 3 is as at boundary 2: nothing in between writes it. -/
theorem pass_W3_main_v8 (c : Dev nD) : W3 m ρ c (Proc.devRef .tc main_v8) = W2 m ρ c (Proc.devRef .tc main_v8) :=
  calc W3 m ρ c (Proc.devRef .tc main_v8)
    _ = W2 m ρ c (Proc.devRef .tc main_v8) := StableHlo.after_of_forall_not_mem (b := Proc.devRef .tc main_v8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg1` at boundary 4 is as at launch: nothing in between writes it. -/
theorem pass_W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` at boundary 4 is as at launch: nothing in between writes it. -/
theorem pass_W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg10` at boundary 4 is as at launch: nothing in between writes it. -/
theorem pass_W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- `main_arg11` at boundary 4 is as at launch: nothing in between writes it. -/
theorem pass_W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-- `main_arg12` at boundary 4 is as at launch: nothing in between writes it. -/
theorem pass_W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

/-- `main_arg13` at boundary 4 is as at launch: nothing in between writes it. -/
theorem pass_W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

/-- `main_arg14` at boundary 4 is as at launch: nothing in between writes it. -/
theorem pass_W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

/-- `main_arg15` at boundary 4 is as at launch: nothing in between writes it. -/
theorem pass_W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

/-- `main_arg16` at boundary 4 is as at launch: nothing in between writes it. -/
theorem pass_W4_main_arg16 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

/-- `main_arg17` at boundary 4 is as at launch: nothing in between writes it. -/
theorem pass_W4_main_arg17 (c : Dev nD) : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

/-- `main_arg18` at boundary 4 is as at launch: nothing in between writes it. -/
theorem pass_W4_main_arg18 (c : Dev nD) : W4 m ρ c (Proc.devRef .tc main_arg18) = m ((c : Thread nD τ).loc main_arg18) :=
  calc W4 m ρ c (Proc.devRef .tc main_arg18)
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl

/-- `main_arg19` at boundary 4 is as at launch: nothing in between writes it. -/
theorem pass_W4_main_arg19 (c : Dev nD) : W4 m ρ c (Proc.devRef .tc main_arg19) = m ((c : Thread nD τ).loc main_arg19) :=
  calc W4 m ρ c (Proc.devRef .tc main_arg19)
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg19) := rfl

/-- `main_arg20` at boundary 4 is as at launch: nothing in between writes it. -/
theorem pass_W4_main_arg20 (c : Dev nD) : W4 m ρ c (Proc.devRef .tc main_arg20) = m ((c : Thread nD τ).loc main_arg20) :=
  calc W4 m ρ c (Proc.devRef .tc main_arg20)
    _ = W3 m ρ c (Proc.devRef .tc main_arg20) := W4_of_ne m ρ c main_arg20 (by decide)
    _ = W2 m ρ c (Proc.devRef .tc main_arg20) := StableHlo.after_of_forall_not_mem (b := Proc.devRef .tc main_arg20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg20) := rfl

/-- `main_arg21` at boundary 4 is as at launch: nothing in between writes it. -/
theorem pass_W4_main_arg21 (c : Dev nD) : W4 m ρ c (Proc.devRef .tc main_arg21) = m ((c : Thread nD τ).loc main_arg21) :=
  calc W4 m ρ c (Proc.devRef .tc main_arg21)
    _ = W3 m ρ c (Proc.devRef .tc main_arg21) := W4_of_ne m ρ c main_arg21 (by decide)
    _ = W2 m ρ c (Proc.devRef .tc main_arg21) := StableHlo.after_of_forall_not_mem (b := Proc.devRef .tc main_arg21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg21) := W2_of_ne m ρ c main_arg21 (by decide)
    _ = W0 m ρ c (Proc.devRef .tc main_arg21) := StableHlo.after_of_forall_not_mem (b := Proc.devRef .tc main_arg21) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg21) := rfl

/-- `main_arg22` at boundary 4 is as at launch: nothing in between writes it. -/
theorem pass_W4_main_arg22 (c : Dev nD) : W4 m ρ c (Proc.devRef .tc main_arg22) = m ((c : Thread nD τ).loc main_arg22) :=
  calc W4 m ρ c (Proc.devRef .tc main_arg22)
    _ = W3 m ρ c (Proc.devRef .tc main_arg22) := W4_of_ne m ρ c main_arg22 (by decide)
    _ = W2 m ρ c (Proc.devRef .tc main_arg22) := StableHlo.after_of_forall_not_mem (b := Proc.devRef .tc main_arg22) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg22) := W2_of_ne m ρ c main_arg22 (by decide)
    _ = W0 m ρ c (Proc.devRef .tc main_arg22) := StableHlo.after_of_forall_not_mem (b := Proc.devRef .tc main_arg22) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg22) := rfl

/-- `main_arg23` at boundary 4 is as at launch: nothing in between writes it. -/
theorem pass_W4_main_arg23 (c : Dev nD) : W4 m ρ c (Proc.devRef .tc main_arg23) = m ((c : Thread nD τ).loc main_arg23) :=
  calc W4 m ρ c (Proc.devRef .tc main_arg23)
    _ = W3 m ρ c (Proc.devRef .tc main_arg23) := W4_of_ne m ρ c main_arg23 (by decide)
    _ = W2 m ρ c (Proc.devRef .tc main_arg23) := StableHlo.after_of_forall_not_mem (b := Proc.devRef .tc main_arg23) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg23) := W2_of_ne m ρ c main_arg23 (by decide)
    _ = W0 m ρ c (Proc.devRef .tc main_arg23) := StableHlo.after_of_forall_not_mem (b := Proc.devRef .tc main_arg23) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg23) := rfl

/-- `main_arg24` at boundary 4 is as at launch: nothing in between writes it. -/
theorem pass_W4_main_arg24 (c : Dev nD) : W4 m ρ c (Proc.devRef .tc main_arg24) = m ((c : Thread nD τ).loc main_arg24) :=
  calc W4 m ρ c (Proc.devRef .tc main_arg24)
    _ = W3 m ρ c (Proc.devRef .tc main_arg24) := W4_of_ne m ρ c main_arg24 (by decide)
    _ = W2 m ρ c (Proc.devRef .tc main_arg24) := StableHlo.after_of_forall_not_mem (b := Proc.devRef .tc main_arg24) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg24) := W2_of_ne m ρ c main_arg24 (by decide)
    _ = W0 m ρ c (Proc.devRef .tc main_arg24) := StableHlo.after_of_forall_not_mem (b := Proc.devRef .tc main_arg24) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg24) := rfl

/-- `main_v7` at boundary 4 is as at boundary 1: nothing in between writes it. -/
theorem pass_W4_main_v7 (c : Dev nD) : W4 m ρ c (Proc.devRef .tc main_v7) = W1 m ρ c (Proc.devRef .tc main_v7) :=
  calc W4 m ρ c (Proc.devRef .tc main_v7)
    _ = W3 m ρ c (Proc.devRef .tc main_v7) := (W4_arr m ρ c 2).trans (((dat1 (V3 m ρ) c).arrAt_in 2 rfl _).trans (A_eq1 (V3 m ρ) c 2))
    _ = W2 m ρ c (Proc.devRef .tc main_v7) := StableHlo.after_of_forall_not_mem (b := Proc.devRef .tc main_v7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v7) := (W2_arr m ρ c 2).trans (((dat0 (V1 m ρ) c).arrAt_in 2 rfl _).trans (A_eq0 (V1 m ρ) c 2))

end Cert.KernelIdeal.Gen

end
-- ==== Proof.KChainA.lean ====
/-
  The buffers at the boundary after the second launch.

  The first stretch of host operations computes the column of `d`; the first launch writes the scaled projected rows;
  the second stretch aggregates them; the second launch writes the next layer's scaled rows. No host operation and no
  launch up to here writes the `d` column again or an argument.
-/
import proofs.«172491_j1821066133824_2_alg».proof.Proof.Gen.KernelIdeal.Frame
import proofs.«172491_j1821066133824_2_alg».proof.Proof.Spec
import proofs.«172491_j1821066133824_2_alg».proof.Proof.KArgs
import proofs.«172491_j1821066133824_2_alg».proof.Proof.KAgg
import proofs.«172491_j1821066133824_2_alg».proof.Proof.KArr0
import proofs.«172491_j1821066133824_2_alg».proof.Proof.KArr1
import proofs.«172491_j1821066133824_2_alg».proof.Proof.KPassA
import proofs.«172491_j1821066133824_2_alg».proof.Proof.LibIdealEntries
import Idealize.ShloMosaic.Lib.Pipeline.Value

noncomputable section

open Idealize.ShloMosaic Idealize.ShloMosaic.TcCoe Idealize.ShloMosaic.ValueIdx Idealize.SL.Sem

namespace Cert.KernelIdeal.Chain

open Cert.KernelIdeal Cert.KernelIdeal.Gen

/-! Auxiliary facts, boundary by boundary, in a namespace of their own. -/
namespace UpToLaunch1

/-! ### The column of `d` as the program spells it, read at an entry -/

/-- The destination words broadcast into a column read, at row `e`, the word of edge `e`. -/
theorem dstCol_apply (x : (⟨S800000, .i32⟩ : BufTy).Contents (Elt Ideal)) (e : Fin 800000) :
    broadcastInDim S800000x1 ![0] bcast_S800000_S800000x1_0 x (ix2 e ⟨0, Nat.one_pos⟩) = x (ix1 e) :=
  broadcastInDim_apply _ bcast_S800000_S800000x1_0 x _ (ix1 e) (fun a => match a with
    | ⟨0, _⟩ => by show e.val = if (800000 : Nat) = 1 then 0 else e.val; rw [if_neg (by decide)])

/-- A vector over the nodes broadcast into a column reads, at row `i`, the vector's entry `i`. -/
theorem nodeCol_apply (x : (⟨S50000, .f32⟩ : BufTy).Contents (Elt Ideal)) (i : Fin 50000) :
    broadcastInDim S50000x1 ![0] bcast_S50000_S50000x1_0 x (ix2 i 0) = x (ix1 i) :=
  broadcastInDim_apply _ bcast_S50000_S50000x1_0 x _ (ix1 i) (fun a => match a with
    | ⟨0, _⟩ => by show i.val = if (50000 : Nat) = 1 then 0 else i.val; rw [if_neg (by decide)])

/-- The eleven host operations before the first launch, as one function of the destination words: one plus the
    number of edges landing on each node, to the power -1/2, as a column. -/
def dOps (dst : (⟨S800000, .i32⟩ : BufTy).Contents (Elt Ideal)) : (⟨S50000x1, .f32⟩ : BufTy).Contents (Elt Ideal) :=
  broadcastInDim S50000x1 ![0] bcast_S50000_S50000x1_0
    (Host.rsqrt (F := Ideal)
      (addf (broadcastInDim S50000 ![] bcast_S_S50000 (constant (F := Ideal) S_ .f32 0x3F800000#32))
        (Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 dst)
          (broadcastInDim S800000 ![] bcast_S_S800000 (constant (F := Ideal) S_ .f32 0x3F800000#32)))))

/-- Ones scatter-added into zeros through the destination words count, at node `i`, the edges landing on `i`. -/
theorem count_apply (dst : (⟨S800000, .i32⟩ : BufTy).Contents (Elt Ideal)) (i : Fin 50000) :
    Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 dst)
        (broadcastInDim S800000 ![] bcast_S_S800000 (constant (F := Ideal) S_ .f32 0x3F800000#32)) (ix1 i)
      = Cert.Gcn.zero32 + ∑ e : Fin 800000, if (dst (ix1 e)).toInt = (i.val : Int) then Cert.Gcn.one32 else 0 := by
  -- the program's record is the library's rank-one scatter: the same fields
  refine (Cert.HostInt.scatterAdd_col_apply (N := 50000) (B := 800000) (w := 32) (φ := .f32)
    scatter_S50000_S800000x1_S800000_n_0_0_1_wf _ _ _ i).trans ?_
  refine congrArg (Cert.Gcn.zero32 + ·) (Finset.sum_congr rfl fun e _ => ?_)
  rw [dstCol_apply]
  rfl

/-- The column of `d` at row `i`. -/
theorem dOps_apply (dst : (⟨S800000, .i32⟩ : BufTy).Contents (Elt Ideal)) (i : Fin 50000) :
    dOps dst (ix2 i 0) = Cert.Gcn.dinv (fun e : Fin 800000 => dst (ix1 e)) i := by
  unfold dOps
  have hr : ∀ x : FVec Ideal S50000 .f32, Host.rsqrt (F := Ideal) x (ix1 i) = Ideal.rsqrt (x (ix1 i)) := fun _ => rfl
  rw [nodeCol_apply, hr, addf_apply, count_apply]
  rfl

variable (m : (ℓ : Loc nD τ sig) → Buf (Elt Ideal) ℓ) (ρ : Dev nD → PrngReg)

/-! ### Before the first launch -/

/-- The first stretch leaves the column of `d` of the launch memory's destination words. -/
theorem W1_dOps (c : Dev nD) :
    (W1 (F := Ideal) m ρ c (Proc.devRef .tc main_v7) : S50000x1.Idx → EReal) = dOps (m ((c : Thread nD τ).loc main_arg2)) := by
  show StableHlo.after hostOps0 (W0 m ρ c) (Proc.devRef .tc main_v7) = _
  after_results
  rfl

/-- Its row `i` is `d i`. -/
theorem W1_d (c : Dev nD) (i : Fin 50000) :
    (W1 (F := Ideal) m ρ c (Proc.devRef .tc main_v7) : S50000x1.Idx → EReal) (ix2 i 0) = (argsK m c).d i := by
  rw [W1_dOps, dOps_apply]
  rfl

/-! ### After the first launch -/

/-- The first launch's output array holds the first layer's scaled rows. -/
theorem W2_hs0 (c : Dev nD) (i : Fin 50000) (f : Fin 128) :
    (W2 (F := Ideal) m ρ c (Proc.devRef .tc main_v8) : S50000x128.Idx → EReal) (ix2 i f) = (argsK m c).hs0 i f := by
  have e : (W2 (F := Ideal) m ρ c (Proc.devRef .tc main_v8) : S50000x128.Idx → EReal)
      = ((dat0 (F := Ideal) (V1 m ρ) c).arrAt 3 cfg0.N : S50000x128.Idx → EReal) := W2_arr m ρ c 3
  rw [e, Cert.KernelIdeal.Arrays.arr0_3 (V1 m ρ) c i f,
    show V1 (F := Ideal) m ρ c main_arg0 = m ((c : Thread nD τ).loc main_arg0) from pass_W1_main_arg0 m ρ c,
    show V1 (F := Ideal) m ρ c main_arg3 = m ((c : Thread nD τ).loc main_arg3) from pass_W1_main_arg3 m ρ c,
    show (V1 (F := Ideal) m ρ c main_v7 : S50000x1.Idx → EReal) (ix2 i 0) = (argsK m c).d i from W1_d m ρ c i]
  rfl

/-! ### Before the second launch -/

/-- The second stretch leaves the aggregation of the first launch's output through the two word vectors. -/
theorem W3_aggOps (c : Dev nD) :
    (W3 (F := Ideal) m ρ c (Proc.devRef .tc main_v18) : S50000x128.Idx → EReal)
      = aggOps (W2 m ρ c (Proc.devRef .tc main_v8)) (W2 m ρ c (Proc.devRef .tc main_arg1)) (W2 m ρ c (Proc.devRef .tc main_arg2)) := by
  show StableHlo.after hostOps1 (W2 m ρ c) (Proc.devRef .tc main_v18) = _
  after_results
  rfl

/-- Its row `i` is the aggregation of the first layer's scaled rows at `i`. -/
theorem W3_agg (c : Dev nD) (i : Fin 50000) (k : Fin 128) :
    (W3 (F := Ideal) m ρ c (Proc.devRef .tc main_v18) : S50000x128.Idx → EReal) (ix2 i k)
      = Cert.Gcn.agg Cert.Gcn.nodes_pos (argsK m c).src (argsK m c).dst (argsK m c).hs0 i k := by
  have h8 : (fun (n : Fin 50000) (g : Fin 128) => (W2 (F := Ideal) m ρ c (Proc.devRef .tc main_v8) : S50000x128.Idx → EReal) (ix2 n g))
      = (argsK m c).hs0 := funext fun n => funext fun g => W2_hs0 m ρ c n g
  rw [W3_aggOps, aggOps_apply, h8, pass_W2_main_arg1 m ρ c, pass_W2_main_arg2 m ρ c]
  rfl

end UpToLaunch1

open UpToLaunch1

variable (m : (ℓ : Loc nD τ sig) → Buf (Elt Ideal) ℓ) (ρ : Dev nD → PrngReg)

/-! ### After the second launch -/

/-- After the second launch its output array holds the second layer's scaled rows. -/
theorem W4_hs1 (c : Dev nD) (i : Fin 50000) (f : Fin 128) :
    (W4 (F := Ideal) m ρ c (Proc.devRef .tc main_v19) : S50000x128.Idx → EReal) (ix2 i f) = (argsK m c).hs1 i f := by
  have e : (W4 (F := Ideal) m ρ c (Proc.devRef .tc main_v19) : S50000x128.Idx → EReal)
      = ((dat1 (F := Ideal) (V3 m ρ) c).arrAt 9 cfg1.N : S50000x128.Idx → EReal) := W4_arr m ρ c 9
  have h18 : (fun k : Fin 128 => (V3 (F := Ideal) m ρ c main_v18 : S50000x128.Idx → EReal) (ix2 i k))
      = Cert.Gcn.agg Cert.Gcn.nodes_pos (argsK m c).src (argsK m c).dst (argsK m c).hs0 i := funext fun k => W3_agg m ρ c i k
  have h8 : (fun k : Fin 128 => (V3 (F := Ideal) m ρ c main_v8 : S50000x128.Idx → EReal) (ix2 i k)) = (argsK m c).hs0 i :=
    funext fun k => by
      rw [show V3 (F := Ideal) m ρ c main_v8 = W2 m ρ c (Proc.devRef .tc main_v8) from pass_W3_main_v8 m ρ c]
      exact W2_hs0 m ρ c i k
  have h7 : (V3 (F := Ideal) m ρ c main_v7 : S50000x1.Idx → EReal) (ix2 i 0) = (argsK m c).d i := by
    rw [show V3 (F := Ideal) m ρ c main_v7 = W1 m ρ c (Proc.devRef .tc main_v7) from pass_W3_main_v7 m ρ c]
    exact W1_d m ρ c i
  rw [e, Cert.KernelIdeal.Arrays.arr1_9 (V3 m ρ) c i f, h18, h8, h7,
    show V3 (F := Ideal) m ρ c main_arg4 = m ((c : Thread nD τ).loc main_arg4) from pass_W3_main_arg4 m ρ c,
    show V3 (F := Ideal) m ρ c main_arg5 = m ((c : Thread nD τ).loc main_arg5) from pass_W3_main_arg5 m ρ c,
    show V3 (F := Ideal) m ρ c main_arg6 = m ((c : Thread nD τ).loc main_arg6) from pass_W3_main_arg6 m ρ c,
    show V3 (F := Ideal) m ρ c main_arg7 = m ((c : Thread nD τ).loc main_arg7) from pass_W3_main_arg7 m ρ c,
    show V3 (F := Ideal) m ρ c main_arg8 = m ((c : Thread nD τ).loc main_arg8) from pass_W3_main_arg8 m ρ c,
    show V3 (F := Ideal) m ρ c main_arg9 = m ((c : Thread nD τ).loc main_arg9) from pass_W3_main_arg9 m ρ c]
  rfl

/-- The column of `d` is still there. -/
theorem W4_dcol (c : Dev nD) (i : Fin 50000) :
    (W4 (F := Ideal) m ρ c (Proc.devRef .tc main_v7) : S50000x1.Idx → EReal) (ix2 i 0) = (argsK m c).d i := by
  rw [pass_W4_main_v7 m ρ c]
  exact W1_d m ρ c i

/-- Argument 1 is as launched. -/
theorem W4_main_arg1 (c : Dev nD) : W4 (F := Ideal) m ρ c (Proc.devRef .tc main_arg1) = m ((c : Thread nD τ).loc main_arg1) :=
  pass_W4_main_arg1 m ρ c

/-- Argument 2 is as launched. -/
theorem W4_main_arg2 (c : Dev nD) : W4 (F := Ideal) m ρ c (Proc.devRef .tc main_arg2) = m ((c : Thread nD τ).loc main_arg2) :=
  pass_W4_main_arg2 m ρ c

/-- Argument 10 is as launched. -/
theorem W4_main_arg10 (c : Dev nD) : W4 (F := Ideal) m ρ c (Proc.devRef .tc main_arg10) = m ((c : Thread nD τ).loc main_arg10) :=
  pass_W4_main_arg10 m ρ c

/-- Argument 11 is as launched. -/
theorem W4_main_arg11 (c : Dev nD) : W4 (F := Ideal) m ρ c (Proc.devRef .tc main_arg11) = m ((c : Thread nD τ).loc main_arg11) :=
  pass_W4_main_arg11 m ρ c

/-- Argument 12 is as launched. -/
theorem W4_main_arg12 (c : Dev nD) : W4 (F := Ideal) m ρ c (Proc.devRef .tc main_arg12) = m ((c : Thread nD τ).loc main_arg12) :=
  pass_W4_main_arg12 m ρ c

/-- Argument 13 is as launched. -/
theorem W4_main_arg13 (c : Dev nD) : W4 (F := Ideal) m ρ c (Proc.devRef .tc main_arg13) = m ((c : Thread nD τ).loc main_arg13) :=
  pass_W4_main_arg13 m ρ c

/-- Argument 14 is as launched. -/
theorem W4_main_arg14 (c : Dev nD) : W4 (F := Ideal) m ρ c (Proc.devRef .tc main_arg14) = m ((c : Thread nD τ).loc main_arg14) :=
  pass_W4_main_arg14 m ρ c

/-- Argument 15 is as launched. -/
theorem W4_main_arg15 (c : Dev nD) : W4 (F := Ideal) m ρ c (Proc.devRef .tc main_arg15) = m ((c : Thread nD τ).loc main_arg15) :=
  pass_W4_main_arg15 m ρ c

/-- Argument 16 is as launched. -/
theorem W4_main_arg16 (c : Dev nD) : W4 (F := Ideal) m ρ c (Proc.devRef .tc main_arg16) = m ((c : Thread nD τ).loc main_arg16) :=
  pass_W4_main_arg16 m ρ c

/-- Argument 17 is as launched. -/
theorem W4_main_arg17 (c : Dev nD) : W4 (F := Ideal) m ρ c (Proc.devRef .tc main_arg17) = m ((c : Thread nD τ).loc main_arg17) :=
  pass_W4_main_arg17 m ρ c

/-- Argument 18 is as launched. -/
theorem W4_main_arg18 (c : Dev nD) : W4 (F := Ideal) m ρ c (Proc.devRef .tc main_arg18) = m ((c : Thread nD τ).loc main_arg18) :=
  pass_W4_main_arg18 m ρ c

/-- Argument 19 is as launched. -/
theorem W4_main_arg19 (c : Dev nD) : W4 (F := Ideal) m ρ c (Proc.devRef .tc main_arg19) = m ((c : Thread nD τ).loc main_arg19) :=
  pass_W4_main_arg19 m ρ c

/-- Argument 20 is as launched. -/
theorem W4_main_arg20 (c : Dev nD) : W4 (F := Ideal) m ρ c (Proc.devRef .tc main_arg20) = m ((c : Thread nD τ).loc main_arg20) :=
  pass_W4_main_arg20 m ρ c

/-- Argument 21 is as launched. -/
theorem W4_main_arg21 (c : Dev nD) : W4 (F := Ideal) m ρ c (Proc.devRef .tc main_arg21) = m ((c : Thread nD τ).loc main_arg21) :=
  pass_W4_main_arg21 m ρ c

/-- Argument 22 is as launched. -/
theorem W4_main_arg22 (c : Dev nD) : W4 (F := Ideal) m ρ c (Proc.devRef .tc main_arg22) = m ((c : Thread nD τ).loc main_arg22) :=
  pass_W4_main_arg22 m ρ c

/-- Argument 23 is as launched. -/
theorem W4_main_arg23 (c : Dev nD) : W4 (F := Ideal) m ρ c (Proc.devRef .tc main_arg23) = m ((c : Thread nD τ).loc main_arg23) :=
  pass_W4_main_arg23 m ρ c

/-- Argument 24 is as launched. -/
theorem W4_main_arg24 (c : Dev nD) : W4 (F := Ideal) m ρ c (Proc.devRef .tc main_arg24) = m ((c : Thread nD τ).loc main_arg24) :=
  pass_W4_main_arg24 m ρ c

end Cert.KernelIdeal.Chain

end
-- ==== Proof.KRow2.lean ====
/-
  Launch 2's body at an entry of its output block.

  The body stores ONE value: the product of a [5000, 128] block by the weight matrix, each row scaled by the node's
  `d`. The block is, entry by entry, the positive part of the batch norm of `d * (aggregated + own) + b`; the bias, the
  norm's four vectors and `d` reach an entry through broadcasts, so entry `(p, q)` of the stored value depends on
  row `p` of the two row-blocked inputs, on entry `p` of the `d` column, and on the whole feature vectors and matrix:
  it is the layer's row function of those, at feature `q`.
-/
import proofs.«172491_j1821066133824_2_alg».proof.Proof.Gen.KernelIdeal.Frame
import proofs.«172491_j1821066133824_2_alg».proof.Proof.K1Ops
import proofs.«172491_j1821066133824_2_alg».proof.Proof.Spec

noncomputable section

open Idealize.ShloMosaic Idealize.ShloMosaic.ValueIdx

namespace Cert.KernelIdeal.Layer2

open Cert.KernelIdeal Cert.KernelIdeal.Gen Cert.KernelIdeal.LayerOps

/-- The projected activation at entry `(p, q)`: row `p` combined, normalized, cut at zero, against column `q` of the
    weights. -/
theorem projected_entry (d : Vec Ideal S5000x1 .f32) (sc hs : Vec Ideal S5000x128 .f32) (b v m g be : Vec Ideal S128 .f32)
    (W : Vec Ideal S128x128 .f32) (p : Fin 5000) (q : Fin 128) :
    k2_pay2 d sc hs b v m g be W (ix2 p q)
      = Cert.Gcn.rowMat
          (Cert.Gcn.bnRelu
            (Cert.Gcn.combineRow (d (ix2 p 0)) (fun k : Fin 128 => sc (ix2 p k)) (fun k : Fin 128 => hs (ix2 p k))
              (fun k : Fin 128 => b (ix1 k)))
            (fun k : Fin 128 => m (ix1 k)) (fun k : Fin 128 => v (ix1 k)) (fun k : Fin 128 => g (ix1 k))
            (fun k : Fin 128 => be (ix1 k)))
          (fun (k : Fin 128) (f : Fin 128) => W (ix2 k f)) q := by
  unfold k2_pay2
  refine (matmul_entry _ _ p q).trans ?_
  unfold Cert.Gcn.rowMat
  refine Finset.sum_congr rfl fun k _ => ?_
  refine congrArg₂ (· * ·) ?_ rfl
  unfold Cert.Gcn.bnRelu Cert.Gcn.combineRow
  simp only [truncf_apply, maximumf_apply, addf_apply, mulf_apply, subf_apply, broadcast_apply, features_apply,
    column_apply, broadcastTo_a1_ab_apply, shapeCast_self]
  rfl

/-- Entry `(p, q)` of what the body leaves in the output block: the layer's row function of row `p` of the
    row-blocked inputs and of the whole feature vectors and weight matrix, at feature `q`. -/
theorem out_entry (x0 x1 : Vec Ideal S5000x128 .f32) (x2 : Vec Ideal S5000x1 .f32) (x3 x4 x5 x6 x7 : Vec Ideal S128 .f32)
    (x8 : Vec Ideal S128x128 .f32) (p : Fin 5000) (q : Fin 128) :
    out2_9 x0 x1 x2 x3 x4 x5 x6 x7 x8 (ix2 p q)
      = Cert.Gcn.layerRow (fun k : Fin 128 => x0 (ix2 p k)) (fun k : Fin 128 => x1 (ix2 p k)) (x2 (ix2 p 0))
          (fun k : Fin 128 => x3 (ix1 k)) (fun k : Fin 128 => x4 (ix1 k)) (fun k : Fin 128 => x5 (ix1 k))
          (fun k : Fin 128 => x6 (ix1 k)) (fun k : Fin 128 => x7 (ix1 k))
          (fun (k : Fin 128) (f : Fin 128) => x8 (ix2 k f)) q := by
  unfold out2_9
  rw [View.canon_unit_zero zeros2]
  simp only [View.ld_unit_zero (S := S5000x128) zeros2, View.ld_unit_zero (S := S5000x1) zeros2,
    View.ld_unit_zero (S := S128) zeros1, View.ld_unit_zero (S := S128x128) zeros2]
  unfold k2_pay1 k2_pay3
  refine (mulf_apply _ _ (ix2 p q)).trans ?_
  rw [column_apply, projected_entry]
  rfl

end Cert.KernelIdeal.Layer2

end
-- ==== Proof.K2Blocks.lean ====
/-
  Launch 2's output array from its blocks.

  The grid has 10 points. At point `t` each row-blocked window (the aggregated rows, the node's own scaled rows, the
  `d` column, the output) holds rows `5000 t … 5000 t + 4999` of its array, and each whole window (the bias, the batch
  norm's four vectors, the weight matrix) holds its whole array. So entry `(p, q)` of the block point `t` writes back
  is the layer's row function of row `5000 t + p` of the arrays, at feature `q`: every point writes its block of ONE
  function of the array index. Row `r` lies in the block of point `r / 5000`, so the blocks cover the array, and the
  array ends holding that function.
-/
import proofs.«172491_j1821066133824_2_alg».proof.Proof.KRow2
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Layer2

open Cert.KernelIdeal Cert.KernelIdeal.Gen Cert.KernelIdeal.LayerOps

variable (V : (c : Dev nD) → (b : Ref sig .tc) → Buf (Elt Ideal) ((c : Thread nD τ).loc b))

/-- The windows' index maps over the grid: a row-blocked window's block index at point `t` is `(t, 0)`, a whole
    window's is zero on every axis. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 1) = 0 ∧ win2_4.index t (0 : Fin 1) = 0 ∧ win2_5.index t (0 : Fin 1) = 0
    ∧ win2_6.index t (0 : Fin 1) = 0 ∧ win2_7.index t (0 : Fin 1) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-! ## The input blocks, read in their arrays -/

/-- Row `p` of window 0's block at point `t` is row `5000 t + p` of the aggregated rows. -/
theorem block0 (c : Dev nD) (t : Fin cfg2.N) (p : Fin 5000) (r : Fin 50000) (hr : r.val = t.val * 5000 + p.val) (k : Fin 128) :
    (iblk2 V c 0 t : Vec Ideal S5000x128 .f32) (ix2 p k) = (V c main_v29 : S50000x128.Idx → EReal) (ix2 r k) := by
  have e0 := (index_facts t).1
  have e1 := (index_facts t).2.1
  unfold iblk2
  rw [View.read_apply]
  show (V c main_v29 : S50000x128.Idx → EReal) _ = _
  refine congrArg _ (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- Row `p` of window 1's block at point `t` is row `5000 t + p` of the nodes' own scaled rows. -/
theorem block1 (c : Dev nD) (t : Fin cfg2.N) (p : Fin 5000) (r : Fin 50000) (hr : r.val = t.val * 5000 + p.val) (k : Fin 128) :
    (iblk2 V c 1 t : Vec Ideal S5000x128 .f32) (ix2 p k) = (V c main_v19 : S50000x128.Idx → EReal) (ix2 r k) := by
  have e0 := (index_facts t).2.2.1
  have e1 := (index_facts t).2.2.2.1
  unfold iblk2
  rw [View.read_apply]
  show (V c main_v19 : S50000x128.Idx → EReal) _ = _
  refine congrArg _ (funext fun a => Fin.ext ?_)
  match a with
  | ⟨0, _⟩ => show win2_1.index t (0 : Fin 2) * 5000 + 1 * p.val = r.val; rw [e0, hr]; omega
  | ⟨1, _⟩ => show win2_1.index t (1 : Fin 2) * 128 + 1 * k.val = k.val; rw [e1]; omega

/-- Entry `p` of window 2's block at point `t` is entry `5000 t + p` of the `d` column. -/
theorem block2 (c : Dev nD) (t : Fin cfg2.N) (p : Fin 5000) (r : Fin 50000) (hr : r.val = t.val * 5000 + p.val) :
    (iblk2 V c 2 t : Vec Ideal S5000x1 .f32) (ix2 p 0) = (V c main_v7 : S50000x1.Idx → EReal) (ix2 r 0) := by
  have e0 := (index_facts t).2.2.2.2.1
  have e1 := (index_facts t).2.2.2.2.2.1
  unfold iblk2
  rw [View.read_apply]
  show (V c main_v7 : S50000x1.Idx → EReal) _ = _
  refine congrArg _ (funext fun a => Fin.ext ?_)
  match a with
  | ⟨0, _⟩ => show win2_2.index t (0 : Fin 2) * 5000 + 1 * p.val = r.val; rw [e0, hr]; omega
  | ⟨1, _⟩ => show win2_2.index t (1 : Fin 2) * 1 + 1 * 0 = 0; rw [e1]

/-- Window 3 is the whole feature vector at every point. -/
theorem block3 (c : Dev nD) (t : Fin cfg2.N) (k : Fin 128) :
    (iblk2 V c 3 t : Vec Ideal S128 .f32) (ix1 k) = (V c main_arg10 : S128.Idx → EReal) (ix1 k) := by
  have e := (index_facts t).2.2.2.2.2.2.1
  unfold iblk2
  rw [View.read_apply]
  show (V c main_arg10 : S128.Idx → EReal) _ = _
  refine congrArg _ (funext fun a => Fin.ext ?_)
  match a with
  | ⟨0, _⟩ => show win2_3.index t (0 : Fin 1) * 128 + 1 * k.val = k.val; rw [e]; omega

/-- Window 4 is the whole feature vector at every point. -/
theorem block4 (c : Dev nD) (t : Fin cfg2.N) (k : Fin 128) :
    (iblk2 V c 4 t : Vec Ideal S128 .f32) (ix1 k) = (V c main_arg11 : S128.Idx → EReal) (ix1 k) := by
  have e := (index_facts t).2.2.2.2.2.2.2.1
  unfold iblk2
  rw [View.read_apply]
  show (V c main_arg11 : S128.Idx → EReal) _ = _
  refine congrArg _ (funext fun a => Fin.ext ?_)
  match a with
  | ⟨0, _⟩ => show win2_4.index t (0 : Fin 1) * 128 + 1 * k.val = k.val; rw [e]; omega

/-- Window 5 is the whole feature vector at every point. -/
theorem block5 (c : Dev nD) (t : Fin cfg2.N) (k : Fin 128) :
    (iblk2 V c 5 t : Vec Ideal S128 .f32) (ix1 k) = (V c main_arg12 : S128.Idx → EReal) (ix1 k) := by
  have e := (index_facts t).2.2.2.2.2.2.2.2.1
  unfold iblk2
  rw [View.read_apply]
  show (V c main_arg12 : S128.Idx → EReal) _ = _
  refine congrArg _ (funext fun a => Fin.ext ?_)
  match a with
  | ⟨0, _⟩ => show win2_5.index t (0 : Fin 1) * 128 + 1 * k.val = k.val; rw [e]; omega

/-- Window 6 is the whole feature vector at every point. -/
theorem block6 (c : Dev nD) (t : Fin cfg2.N) (k : Fin 128) :
    (iblk2 V c 6 t : Vec Ideal S128 .f32) (ix1 k) = (V c main_arg13 : S128.Idx → EReal) (ix1 k) := by
  have e := (index_facts t).2.2.2.2.2.2.2.2.2.1
  unfold iblk2
  rw [View.read_apply]
  show (V c main_arg13 : S128.Idx → EReal) _ = _
  refine congrArg _ (funext fun a => Fin.ext ?_)
  match a with
  | ⟨0, _⟩ => show win2_6.index t (0 : Fin 1) * 128 + 1 * k.val = k.val; rw [e]; omega

/-- Window 7 is the whole feature vector at every point. -/
theorem block7 (c : Dev nD) (t : Fin cfg2.N) (k : Fin 128) :
    (iblk2 V c 7 t : Vec Ideal S128 .f32) (ix1 k) = (V c main_arg14 : S128.Idx → EReal) (ix1 k) := by
  have e := (index_facts t).2.2.2.2.2.2.2.2.2.2.1
  unfold iblk2
  rw [View.read_apply]
  show (V c main_arg14 : S128.Idx → EReal) _ = _
  refine congrArg _ (funext fun a => Fin.ext ?_)
  match a with
  | ⟨0, _⟩ => show win2_7.index t (0 : Fin 1) * 128 + 1 * k.val = k.val; rw [e]; omega

/-- Window 8 is the whole weight matrix at every point. -/
theorem block8 (c : Dev nD) (t : Fin cfg2.N) (k g : Fin 128) :
    (iblk2 V c 8 t : Vec Ideal S128x128 .f32) (ix2 k g) = (V c main_arg15 : S128x128.Idx → EReal) (ix2 k g) := by
  have e0 := (index_facts t).2.2.2.2.2.2.2.2.2.2.2.1
  have e1 := (index_facts t).2.2.2.2.2.2.2.2.2.2.2.2.1
  unfold iblk2
  rw [View.read_apply]
  show (V c main_arg15 : S128x128.Idx → EReal) _ = _
  refine congrArg _ (funext fun a => Fin.ext ?_)
  match a with
  | ⟨0, _⟩ => show win2_8.index t (0 : Fin 2) * 128 + 1 * k.val = k.val; rw [e0]; omega
  | ⟨1, _⟩ => show win2_8.index t (1 : Fin 2) * 128 + 1 * g.val = g.val; rw [e1]; omega

/-! ## The output array -/

/-- The output array as ONE function of the arrays the launch finds: at `(r, f)` the layer's row function of row `r`. -/
def rowsOut (c : Dev nD) : S50000x128.Idx → EReal := fun j =>
  Cert.Gcn.layerRow
    (fun k : Fin 128 => (V c main_v29 : S50000x128.Idx → EReal) (ix2 (⟨(j 0).val, idx2_lt0 j⟩ : Fin 50000) k))
    (fun k : Fin 128 => (V c main_v19 : S50000x128.Idx → EReal) (ix2 (⟨(j 0).val, idx2_lt0 j⟩ : Fin 50000) k))
    ((V c main_v7 : S50000x1.Idx → EReal) (ix2 (⟨(j 0).val, idx2_lt0 j⟩ : Fin 50000) 0))
    (fun k : Fin 128 => (V c main_arg10 : S128.Idx → EReal) (ix1 k)) (fun k : Fin 128 => (V c main_arg11 : S128.Idx → EReal) (ix1 k))
    (fun k : Fin 128 => (V c main_arg12 : S128.Idx → EReal) (ix1 k)) (fun k : Fin 128 => (V c main_arg13 : S128.Idx → EReal) (ix1 k))
    (fun k : Fin 128 => (V c main_arg14 : S128.Idx → EReal) (ix1 k))
    (fun (k : Fin 128) (g : Fin 128) => (V c main_arg15 : S128x128.Idx → EReal) (ix2 k g)) (⟨(j 1).val, idx2_lt1 j⟩ : Fin 128)

/-- What point `t` writes back is block `t` of `rowsOut`. -/
theorem flushed_eq (c : Dev nD) (t : Fin cfg2.N) :
    (dat2 V c).flushed 9 t = ((cfg2.win 9).blk t).view.read (Elt Ideal) (rowsOut V c) := by
  show (cfg2.win 9).cut (grid2.coords t) ((dat2 V c).after 9 t) = _
  rw [after2_9]
  refine funext fun (j : S5000x128.Idx) => ?_
  obtain ⟨p, q, rfl⟩ : ∃ (p : Fin 5000) (q : Fin 128), j = ix2 p q := ⟨j 0, j 1, eq_ix2 j⟩
  have hN : cfg2.N = 10 := N_2
  have ht : t.val < 10 := hN ▸ t.isLt
  have hrow : t.val * 5000 + p.val < 50000 := by have := p.isLt; omega
  have e9 := (index_facts t).2.2.2.2.2.2.2.2.2.2.2.2.2
  -- where the block's entry (p, q) sits in the array
  have hemb : ((cfg2.win 9).blk t).view.emb (ix2 p q)
      = (ix2 (⟨t.val * 5000 + p.val, hrow⟩ : Fin 50000) q : S50000x128.Idx) := by
    refine funext fun a => Fin.ext ?_
    match a with
    | ⟨0, _⟩ => show win2_9.index t (0 : Fin 2) * 5000 + 1 * p.val = t.val * 5000 + p.val; rw [e9.1]; omega
    | ⟨1, _⟩ => show win2_9.index t (1 : Fin 2) * 128 + 1 * q.val = q.val; rw [e9.2]; omega
  refine (out_entry (iblk2 V c 0 t) (iblk2 V c 1 t) (iblk2 V c 2 t) (iblk2 V c 3 t) (iblk2 V c 4 t) (iblk2 V c 5 t)
    (iblk2 V c 6 t) (iblk2 V c 7 t) (iblk2 V c 8 t) p q).trans ?_
  show _ = rowsOut V c (((cfg2.win 9).blk t).view.emb (ix2 p q))
  rw [hemb]
  have h0 : (fun k : Fin 128 => (iblk2 V c 0 t : Vec Ideal S5000x128 .f32) (ix2 p k))
      = fun k : Fin 128 => (V c main_v29 : S50000x128.Idx → EReal) (ix2 (⟨t.val * 5000 + p.val, hrow⟩ : Fin 50000) k) :=
    funext fun k => block0 V c t p _ rfl k
  have h1 : (fun k : Fin 128 => (iblk2 V c 1 t : Vec Ideal S5000x128 .f32) (ix2 p k))
      = fun k : Fin 128 => (V c main_v19 : S50000x128.Idx → EReal) (ix2 (⟨t.val * 5000 + p.val, hrow⟩ : Fin 50000) k) :=
    funext fun k => block1 V c t p _ rfl k
  have h2 : (iblk2 V c 2 t : Vec Ideal S5000x1 .f32) (ix2 p 0)
      = (V c main_v7 : S50000x1.Idx → EReal) (ix2 (⟨t.val * 5000 + p.val, hrow⟩ : Fin 50000) 0) := block2 V c t p _ rfl
  have h3 : (fun k : Fin 128 => (iblk2 V c 3 t : Vec Ideal S128 .f32) (ix1 k)) = fun k : Fin 128 => (V c main_arg10 : S128.Idx → EReal) (ix1 k) :=
    funext fun k => block3 V c t k
  have h4 : (fun k : Fin 128 => (iblk2 V c 4 t : Vec Ideal S128 .f32) (ix1 k)) = fun k : Fin 128 => (V c main_arg11 : S128.Idx → EReal) (ix1 k) :=
    funext fun k => block4 V c t k
  have h5 : (fun k : Fin 128 => (iblk2 V c 5 t : Vec Ideal S128 .f32) (ix1 k)) = fun k : Fin 128 => (V c main_arg12 : S128.Idx → EReal) (ix1 k) :=
    funext fun k => block5 V c t k
  have h6 : (fun k : Fin 128 => (iblk2 V c 6 t : Vec Ideal S128 .f32) (ix1 k)) = fun k : Fin 128 => (V c main_arg13 : S128.Idx → EReal) (ix1 k) :=
    funext fun k => block6 V c t k
  have h7 : (fun k : Fin 128 => (iblk2 V c 7 t : Vec Ideal S128 .f32) (ix1 k)) = fun k : Fin 128 => (V c main_arg14 : S128.Idx → EReal) (ix1 k) :=
    funext fun k => block7 V c t k
  have h8 : (fun (k : Fin 128) (g : Fin 128) => (iblk2 V c 8 t : Vec Ideal S128x128 .f32) (ix2 k g))
      = fun (k : Fin 128) (g : Fin 128) => (V c main_arg15 : S128x128.Idx → EReal) (ix2 k g) :=
    funext fun k => funext fun g => block8 V c t k g
  rw [h0, h1, h2, h3, h4, h5, h6, h7, h8]
  rfl

/-- An index of the array is in point `t`'s block iff each coordinate is in the block's range on its axis. -/
theorem mem_block (t : Fin cfg2.N) (i : S50000x128.Idx) :
    i ∈ ((cfg2.win 9).blk t).view.set ↔ ∀ a : Fin 2, win2_9.index t a * S5000x128.size a ≤ (i a).val
      ∧ (i a).val < win2_9.index t a * S5000x128.size a + S5000x128.size a := by
  show i ∈ ((View.whole main_v30).slice (win2_9.rect t)).set ↔ _
  rw [View.set_slice_whole, Rect.mem_set_unit]
  exact Iff.rfl

/-- Row `r` is in the block of point `r / 5000`: the output's blocks cover the array. -/
theorem covered (i : S50000x128.Idx) :
    ∃ t : Fin cfg2.N, (cfg2.win 9).flush t = true ∧ i ∈ ((cfg2.win 9).blk t).view.set := by
  have hi0 : (i 0).val < 50000 := idx2_lt0 i
  have hi1 : (i 1).val < 128 := idx2_lt1 i
  have hN : cfg2.N = 10 := N_2
  obtain ⟨t, ht⟩ : ∃ t : Fin cfg2.N, t.val = (i 0).val / 5000 := ⟨⟨(i 0).val / 5000, by rw [hN]; omega⟩, rfl⟩
  have e9 := (index_facts t).2.2.2.2.2.2.2.2.2.2.2.2.2
  refine ⟨t, flush2_9 t, ?_⟩
  rw [mem_block]
  intro a
  match a with
  | ⟨0, _⟩ =>
    show win2_9.index t (0 : Fin 2) * 5000 ≤ (i 0).val ∧ (i 0).val < win2_9.index t (0 : Fin 2) * 5000 + 5000
    rw [e9.1, ht]; omega
  | ⟨1, _⟩ =>
    show win2_9.index t (1 : Fin 2) * 128 ≤ (i 1).val ∧ (i 1).val < win2_9.index t (1 : Fin 2) * 128 + 128
    rw [e9.2]; omega

/-- The output array after the launch is `rowsOut` of the arrays the launch finds. -/
theorem array_eq (c : Dev nD) : (dat2 V c).arrAt 9 cfg2.N = rowsOut V c :=
  (dat2 V c).arrAt_eq_of_cover 9 (rowsOut V c) (fun t _ => flushed_eq V c t) covered

end Cert.KernelIdeal.Layer2

end
-- ==== Proof.KArr2.lean ====
/-
  Launch 2's output array, row by row.

  Row `i` of the output is the combined, normalized and projected row `i`, scaled by `d i`, whichever block of
  5000 rows it sits in.
-/
import proofs.«172491_j1821066133824_2_alg».proof.Proof.Gen.KernelIdeal.Frame
import proofs.«172491_j1821066133824_2_alg».proof.Proof.Spec
import proofs.«172491_j1821066133824_2_alg».proof.Proof.K2Blocks

noncomputable section

open Idealize.ShloMosaic Idealize.ShloMosaic.TcCoe Idealize.ShloMosaic.ValueIdx Idealize.SL.Sem

namespace Cert.KernelIdeal.Arrays

open Cert.KernelIdeal Cert.KernelIdeal.Gen

variable (V : (c : Dev nD) → (b : Ref sig .tc) → Buf (Elt Ideal) ((c : Thread nD τ).loc b))

/-- Row `i` of launch 2's output array, from the arrays the launch finds. -/
theorem arr2_9 (c : Dev nD) (i : Fin 50000) (f : Fin 128) :
    ((dat2 (F := Ideal) V c).arrAt 9 cfg2.N : S50000x128.Idx → EReal) (ix2 i f)
      = Cert.Gcn.layerRow (fun k : Fin 128 => (V c main_v29 : S50000x128.Idx → EReal) (ix2 i k)) (fun k : Fin 128 => (V c main_v19 : S50000x128.Idx → EReal) (ix2 i k))
          ((V c main_v7 : S50000x1.Idx → EReal) (ix2 i 0))
          (fun k : Fin 128 => (V c main_arg10 : S128.Idx → EReal) (ix1 k)) (fun k : Fin 128 => (V c main_arg11 : S128.Idx → EReal) (ix1 k)) (fun k : Fin 128 => (V c main_arg12 : S128.Idx → EReal) (ix1 k))
          (fun k : Fin 128 => (V c main_arg13 : S128.Idx → EReal) (ix1 k)) (fun k : Fin 128 => (V c main_arg14 : S128.Idx → EReal) (ix1 k))
          (fun (k : Fin 128) (g : Fin 128) => (V c main_arg15 : S128x128.Idx → EReal) (ix2 k g)) f := by
  exact congrFun (Cert.KernelIdeal.Layer2.array_eq V c) (ix2 i f)

end Cert.KernelIdeal.Arrays

end
-- ==== Proof.KRow3.lean ====
/-
  One entry of the block the last launch stores at a point.

  Entry (p, q) of that block depends on row p of the two row blocks the point reads (the aggregated rows and the own scaled
  rows), on entry p of the column of d, and on the whole weight arrays: the two rows are added, scaled by d and biased,
  normalized feature by feature with the running mean and variance, scaled and shifted, and cut at zero; the result goes
  through the hidden layer, is cut at zero again, and goes through the output layer. A block of rows times a weight
  matrix, read at an entry, is the sum over the shared axis of the row's entries times the column's; a change of float
  format is the identity on extended reals, and a feature vector laid over the rows, or a column laid over the features,
  reads the one entry it was laid out from.
-/
import proofs.«172491_j1821066133824_2_alg».proof.Proof.Gen.KernelIdeal.Frame
import proofs.«172491_j1821066133824_2_alg».proof.Proof.Spec
import Idealize.ShloMosaic.Lib.ValueLayout
import Idealize.ShloMosaic.PureOps.Ideal.Laws

noncomputable section

open Idealize.ShloMosaic Idealize.ShloMosaic.TcCoe Idealize.ShloMosaic.ValueIdx Idealize.SL.Sem

namespace Cert.KernelIdeal.Arrays.K3

open Cert.KernelIdeal Cert.KernelIdeal.Gen
open Cert.Gcn (rowMat bnRelu combineRow headRow finalRow eps32 zero32)

/-! ## Layout -/

theorem zeros1 : (![0] : Fin 1 → Nat) = fun _ => 0 := funext fun a => by fin_cases a; rfl
theorem zeros2 : (![0, 0] : Fin 2 → Nat) = fun _ => 0 := funext fun a => by fin_cases a <;> rfl

/-- An `[a, 1]` column laid over `b` features reads, at `(p, c)`, the column's entry `p`. -/
theorem colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reciprocal square root of a vector, entry by entry. -/
theorem rsqrt_apply {s : Shape} {φ : FTy} (a : FVec Ideal s φ) (i : s.Idx) : rsqrt a i = Ideal.rsqrt (a i) := rfl

/-! ## A block of rows times a weight matrix, at an entry -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, at entry `(p, q)`: row `p` of the left block against column `q` of the matrix. -/
theorem matmul_entry {φ₁ φ₂ : FTy} (A : FVec Ideal S5000x128 φ₁) (W : FVec Ideal S128x128 φ₂) (p : Fin 5000) (q : Fin 128) :
    matmul dot_S5000x128_S128x128_S5000x128_1_0_0_1_n_n none A W (constant S5000x128 .f32 0x00000000#32) (ix2 p q)
      = ∑ k : Fin 128, A (ix2 p k) * W (ix2 k q) := by
  show FloatOps.matmul dot_S5000x128_S128x128_S5000x128_1_0_0_1_n_n none A W (constant S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact rhs_col _ _)
  rw [el, er]

/-! ## The two payloads at an entry -/

/-- The hidden layer's sum before its cut at zero, at entry `(p, q)`. -/
theorem hidden_entry (v0 : Vec Ideal S5000x1 .f32) (v2 v4 : Vec Ideal S5000x128 .f32) (v9 v13 v17 v24 v28 : Vec Ideal S128 .f32)
    (v35 : Vec Ideal S128x128 .f32) (v38 : Vec Ideal S128 .f32) (p : Fin 5000) (q : Fin 128) :
    k3_pay2 v0 v2 v4 v9 v13 v17 v24 v28 v35 v38 (ix2 p q)
      = rowMat (bnRelu (combineRow (v0 (ix2 p 0)) (fun k : Fin 128 => v2 (ix2 p k)) (fun k : Fin 128 => v4 (ix2 p k)) (fun k : Fin 128 => v9 (ix1 k)))
            (fun k : Fin 128 => v17 (ix1 k)) (fun k : Fin 128 => v13 (ix1 k)) (fun k : Fin 128 => v24 (ix1 k)) (fun k : Fin 128 => v28 (ix1 k)))
          (fun (k : Fin 128) (g : Fin 128) => v35 (ix2 k g)) q
        + v38 (ix1 q) := by
  unfold k3_pay2
  simp only [addf_apply, mulf_apply, subf_apply, maximumf_apply, truncf_apply, broadcast_apply, rsqrt_apply, matmul_entry,
    broadcastTo_1b_ab_apply, colBroadcast_apply, shapeCast_a_1a_apply, shapeCast_self]
  rfl

/-- The output layer applied to the cut hidden sums, at entry `(p, q)`. -/
theorem output_entry (v41 : FVec Ideal S5000x128 .f32) (v45 : Vec Ideal S128x128 .f32) (v49 : Vec Ideal S128 .f32)
    (p : Fin 5000) (q : Fin 128) :
    k3_pay1 v41 v45 v49 (ix2 p q)
      = rowMat (fun k : Fin 128 => max (v41 (ix2 p k)) zero32) (fun (k : Fin 128) (g : Fin 128) => v45 (ix2 k g)) q + v49 (ix1 q) := by
  unfold k3_pay1
  simp only [addf_apply, maximumf_apply, truncf_apply, broadcast_apply, matmul_entry,
    broadcastTo_1b_ab_apply, shapeCast_a_1a_apply, shapeCast_self]
  rfl

/-! ## The stored block at an entry -/

/-- Entry `(p, q)` of the block a point stores, from row `p` of its row blocks and the whole weight blocks. -/
theorem block_entry (x0 x1 : Vec Ideal S5000x128 .f32) (x2 : Vec Ideal S5000x1 .f32) (x3 x4 x5 x6 x7 : Vec Ideal S128 .f32)
    (x8 : Vec Ideal S128x128 .f32) (x9 : Vec Ideal S128 .f32) (x10 : Vec Ideal S128x128 .f32) (x11 : Vec Ideal S128 .f32)
    (p : Fin 5000) (q : Fin 128) :
    out3_12 x0 x1 x2 x3 x4 x5 x6 x7 x8 x9 x10 x11 (ix2 p q)
      = finalRow (fun k : Fin 128 => x0 (ix2 p k)) (fun k : Fin 128 => x1 (ix2 p k)) (x2 (ix2 p 0))
          (fun k : Fin 128 => x3 (ix1 k)) (fun k : Fin 128 => x4 (ix1 k)) (fun k : Fin 128 => x5 (ix1 k))
          (fun k : Fin 128 => x6 (ix1 k)) (fun k : Fin 128 => x7 (ix1 k))
          (fun (k : Fin 128) (g : Fin 128) => x8 (ix2 k g)) (fun k : Fin 128 => x9 (ix1 k))
          (fun (k : Fin 128) (g : Fin 128) => x10 (ix2 k g)) (fun k : Fin 128 => x11 (ix1 k)) q := by
  unfold out3_12
  rw [View.canon_unit_zero zeros2]
  simp only [View.ld_unit_zero (S := S5000x128) zeros2, View.ld_unit_zero (S := S5000x1) zeros2,
    View.ld_unit_zero (S := S128x128) zeros2, View.ld_unit_zero (S := S128) zeros1]
  rw [output_entry]
  simp only [hidden_entry]
  rfl

end Cert.KernelIdeal.Arrays.K3

end
-- ==== Proof.KRead3.lean ====
/-
  What each window of the last launch holds at a point, read off its array.

  The grid has ten points. A row-blocked window (the aggregated rows, the own scaled rows, the column of d, the output) sits at
  point t on rows 5000 t … 5000 t + 4999 of its array, all columns; a weight window sits on its whole array at every
  point. An entry of a block is therefore the array's entry at block index times block size plus the entry's place in
  the block, axis by axis.
-/
import proofs.«172491_j1821066133824_2_alg».proof.Proof.Gen.KernelIdeal.Frame
import Idealize.ShloMosaic.Lib.ValueIdx

noncomputable section

open Idealize.ShloMosaic Idealize.ShloMosaic.TcCoe Idealize.ShloMosaic.ValueIdx Idealize.SL.Sem

namespace Cert.KernelIdeal.Arrays.K3

open Cert.KernelIdeal Cert.KernelIdeal.Gen

/-! ## The index maps, decided over the ten points -/

theorem index3_0 : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)
theorem index3_1 : ∀ t : Fin cfg3.N, win3_1.index t (0 : Fin 2) = t.val ∧ win3_1.index t (1 : Fin 2) = 0 :=
  (by decide +kernel : ∀ t : Fin grid3.N, win3_1.index t (0 : Fin 2) = t.val ∧ win3_1.index t (1 : Fin 2) = 0)
theorem index3_2 : ∀ t : Fin cfg3.N, win3_2.index t (0 : Fin 2) = t.val ∧ win3_2.index t (1 : Fin 2) = 0 :=
  (by decide +kernel : ∀ t : Fin grid3.N, win3_2.index t (0 : Fin 2) = t.val ∧ win3_2.index t (1 : Fin 2) = 0)
theorem index3_3 : ∀ t : Fin cfg3.N, win3_3.index t (0 : Fin 1) = 0 :=
  (by decide +kernel : ∀ t : Fin grid3.N, win3_3.index t (0 : Fin 1) = 0)
theorem index3_4 : ∀ t : Fin cfg3.N, win3_4.index t (0 : Fin 1) = 0 :=
  (by decide +kernel : ∀ t : Fin grid3.N, win3_4.index t (0 : Fin 1) = 0)
theorem index3_5 : ∀ t : Fin cfg3.N, win3_5.index t (0 : Fin 1) = 0 :=
  (by decide +kernel : ∀ t : Fin grid3.N, win3_5.index t (0 : Fin 1) = 0)
theorem index3_6 : ∀ t : Fin cfg3.N, win3_6.index t (0 : Fin 1) = 0 :=
  (by decide +kernel : ∀ t : Fin grid3.N, win3_6.index t (0 : Fin 1) = 0)
theorem index3_7 : ∀ t : Fin cfg3.N, win3_7.index t (0 : Fin 1) = 0 :=
  (by decide +kernel : ∀ t : Fin grid3.N, win3_7.index t (0 : Fin 1) = 0)
theorem index3_8 : ∀ t : Fin cfg3.N, win3_8.index t (0 : Fin 2) = 0 ∧ win3_8.index t (1 : Fin 2) = 0 :=
  (by decide +kernel : ∀ t : Fin grid3.N, win3_8.index t (0 : Fin 2) = 0 ∧ win3_8.index t (1 : Fin 2) = 0)
theorem index3_9 : ∀ t : Fin cfg3.N, win3_9.index t (0 : Fin 1) = 0 :=
  (by decide +kernel : ∀ t : Fin grid3.N, win3_9.index t (0 : Fin 1) = 0)
theorem index3_10 : ∀ t : Fin cfg3.N, win3_10.index t (0 : Fin 2) = 0 ∧ win3_10.index t (1 : Fin 2) = 0 :=
  (by decide +kernel : ∀ t : Fin grid3.N, win3_10.index t (0 : Fin 2) = 0 ∧ win3_10.index t (1 : Fin 2) = 0)
theorem index3_11 : ∀ t : Fin cfg3.N, win3_11.index t (0 : Fin 1) = 0 :=
  (by decide +kernel : ∀ t : Fin grid3.N, win3_11.index t (0 : Fin 1) = 0)
theorem index3_12 : ∀ t : Fin cfg3.N, win3_12.index t (0 : Fin 2) = t.val ∧ win3_12.index t (1 : Fin 2) = 0 :=
  (by decide +kernel : ∀ t : Fin grid3.N, win3_12.index t (0 : Fin 2) = t.val ∧ win3_12.index t (1 : Fin 2) = 0)

variable (V : (c : Dev nD) → (b : Ref sig .tc) → Buf (Elt Ideal) ((c : Thread nD τ).loc b))

/-! ## The input blocks, entry by entry -/

/-- Row `p` of window 0's block at point `t` is row `5000 t + p` of its array. -/
theorem read3_0 (c : Dev nD) (t : Fin cfg3.N) (p : Fin 5000) (k : Fin 128) (r : Fin 50000) (hr : r.val = t.val * 5000 + p.val) :
    (iblk3 V c 0 t : S5000x128.Idx → EReal) (ix2 p k) = (V c main_v40 : S50000x128.Idx → EReal) (ix2 r k) := by
  unfold iblk3
  rw [View.read_apply]
  show (V c main_v40 : S50000x128.Idx → EReal) _ = _
  refine congrArg _ (funext fun a => Fin.ext ?_)
  match a with
  | ⟨0, _⟩ => show win3_0.index t (0 : Fin 2) * 5000 + 1 * p.val = r.val; rw [(index3_0 t).1, hr]; omega
  | ⟨1, _⟩ => show win3_0.index t (1 : Fin 2) * 128 + 1 * k.val = k.val; rw [(index3_0 t).2]; omega

/-- Row `p` of window 1's block at point `t` is row `5000 t + p` of its array. -/
theorem read3_1 (c : Dev nD) (t : Fin cfg3.N) (p : Fin 5000) (k : Fin 128) (r : Fin 50000) (hr : r.val = t.val * 5000 + p.val) :
    (iblk3 V c 1 t : S5000x128.Idx → EReal) (ix2 p k) = (V c main_v30 : S50000x128.Idx → EReal) (ix2 r k) := by
  unfold iblk3
  rw [View.read_apply]
  show (V c main_v30 : S50000x128.Idx → EReal) _ = _
  refine congrArg _ (funext fun a => Fin.ext ?_)
  match a with
  | ⟨0, _⟩ => show win3_1.index t (0 : Fin 2) * 5000 + 1 * p.val = r.val; rw [(index3_1 t).1, hr]; omega
  | ⟨1, _⟩ => show win3_1.index t (1 : Fin 2) * 128 + 1 * k.val = k.val; rw [(index3_1 t).2]; omega

/-- Entry `p` of window 2's block at point `t` is entry `5000 t + p` of its column. -/
theorem read3_2 (c : Dev nD) (t : Fin cfg3.N) (p : Fin 5000) (r : Fin 50000) (hr : r.val = t.val * 5000 + p.val) :
    (iblk3 V c 2 t : S5000x1.Idx → EReal) (ix2 p 0) = (V c main_v7 : S50000x1.Idx → EReal) (ix2 r 0) := by
  unfold iblk3
  rw [View.read_apply]
  show (V c main_v7 : S50000x1.Idx → EReal) _ = _
  refine congrArg _ (funext fun a => Fin.ext ?_)
  match a with
  | ⟨0, _⟩ => show win3_2.index t (0 : Fin 2) * 5000 + 1 * p.val = r.val; rw [(index3_2 t).1, hr]; omega
  | ⟨1, _⟩ => show win3_2.index t (1 : Fin 2) * 1 + 1 * 0 = 0; rw [(index3_2 t).2]

/-- Window 3's block at any point is its whole vector. -/
theorem read3_3 (c : Dev nD) (t : Fin cfg3.N) (k : Fin 128) :
    (iblk3 V c 3 t : S128.Idx → EReal) (ix1 k) = (V c main_arg16 : S128.Idx → EReal) (ix1 k) := by
  unfold iblk3
  rw [View.read_apply]
  show (V c main_arg16 : S128.Idx → EReal) _ = _
  refine congrArg _ (funext fun a => Fin.ext ?_)
  match a with
  | ⟨0, _⟩ => show win3_3.index t (0 : Fin 1) * 128 + 1 * k.val = k.val; rw [index3_3 t]; omega

/-- Window 4's block at any point is its whole vector. -/
theorem read3_4 (c : Dev nD) (t : Fin cfg3.N) (k : Fin 128) :
    (iblk3 V c 4 t : S128.Idx → EReal) (ix1 k) = (V c main_arg17 : S128.Idx → EReal) (ix1 k) := by
  unfold iblk3
  rw [View.read_apply]
  show (V c main_arg17 : S128.Idx → EReal) _ = _
  refine congrArg _ (funext fun a => Fin.ext ?_)
  match a with
  | ⟨0, _⟩ => show win3_4.index t (0 : Fin 1) * 128 + 1 * k.val = k.val; rw [index3_4 t]; omega

/-- Window 5's block at any point is its whole vector. -/
theorem read3_5 (c : Dev nD) (t : Fin cfg3.N) (k : Fin 128) :
    (iblk3 V c 5 t : S128.Idx → EReal) (ix1 k) = (V c main_arg18 : S128.Idx → EReal) (ix1 k) := by
  unfold iblk3
  rw [View.read_apply]
  show (V c main_arg18 : S128.Idx → EReal) _ = _
  refine congrArg _ (funext fun a => Fin.ext ?_)
  match a with
  | ⟨0, _⟩ => show win3_5.index t (0 : Fin 1) * 128 + 1 * k.val = k.val; rw [index3_5 t]; omega

/-- Window 6's block at any point is its whole vector. -/
theorem read3_6 (c : Dev nD) (t : Fin cfg3.N) (k : Fin 128) :
    (iblk3 V c 6 t : S128.Idx → EReal) (ix1 k) = (V c main_arg19 : S128.Idx → EReal) (ix1 k) := by
  unfold iblk3
  rw [View.read_apply]
  show (V c main_arg19 : S128.Idx → EReal) _ = _
  refine congrArg _ (funext fun a => Fin.ext ?_)
  match a with
  | ⟨0, _⟩ => show win3_6.index t (0 : Fin 1) * 128 + 1 * k.val = k.val; rw [index3_6 t]; omega

/-- Window 7's block at any point is its whole vector. -/
theorem read3_7 (c : Dev nD) (t : Fin cfg3.N) (k : Fin 128) :
    (iblk3 V c 7 t : S128.Idx → EReal) (ix1 k) = (V c main_arg20 : S128.Idx → EReal) (ix1 k) := by
  unfold iblk3
  rw [View.read_apply]
  show (V c main_arg20 : S128.Idx → EReal) _ = _
  refine congrArg _ (funext fun a => Fin.ext ?_)
  match a with
  | ⟨0, _⟩ => show win3_7.index t (0 : Fin 1) * 128 + 1 * k.val = k.val; rw [index3_7 t]; omega

/-- Window 8's block at any point is its whole matrix. -/
theorem read3_8 (c : Dev nD) (t : Fin cfg3.N) (k g : Fin 128) :
    (iblk3 V c 8 t : S128x128.Idx → EReal) (ix2 k g) = (V c main_arg21 : S128x128.Idx → EReal) (ix2 k g) := by
  unfold iblk3
  rw [View.read_apply]
  show (V c main_arg21 : S128x128.Idx → EReal) _ = _
  refine congrArg _ (funext fun a => Fin.ext ?_)
  match a with
  | ⟨0, _⟩ => show win3_8.index t (0 : Fin 2) * 128 + 1 * k.val = k.val; rw [(index3_8 t).1]; omega
  | ⟨1, _⟩ => show win3_8.index t (1 : Fin 2) * 128 + 1 * g.val = g.val; rw [(index3_8 t).2]; omega

/-- Window 9's block at any point is its whole vector. -/
theorem read3_9 (c : Dev nD) (t : Fin cfg3.N) (k : Fin 128) :
    (iblk3 V c 9 t : S128.Idx → EReal) (ix1 k) = (V c main_arg22 : S128.Idx → EReal) (ix1 k) := by
  unfold iblk3
  rw [View.read_apply]
  show (V c main_arg22 : S128.Idx → EReal) _ = _
  refine congrArg _ (funext fun a => Fin.ext ?_)
  match a with
  | ⟨0, _⟩ => show win3_9.index t (0 : Fin 1) * 128 + 1 * k.val = k.val; rw [index3_9 t]; omega

/-- Window 10's block at any point is its whole matrix. -/
theorem read3_10 (c : Dev nD) (t : Fin cfg3.N) (k g : Fin 128) :
    (iblk3 V c 10 t : S128x128.Idx → EReal) (ix2 k g) = (V c main_v41 : S128x128.Idx → EReal) (ix2 k g) := by
  unfold iblk3
  rw [View.read_apply]
  show (V c main_v41 : S128x128.Idx → EReal) _ = _
  refine congrArg _ (funext fun a => Fin.ext ?_)
  match a with
  | ⟨0, _⟩ => show win3_10.index t (0 : Fin 2) * 128 + 1 * k.val = k.val; rw [(index3_10 t).1]; omega
  | ⟨1, _⟩ => show win3_10.index t (1 : Fin 2) * 128 + 1 * g.val = g.val; rw [(index3_10 t).2]; omega

/-- Window 11's block at any point is its whole vector. -/
theorem read3_11 (c : Dev nD) (t : Fin cfg3.N) (k : Fin 128) :
    (iblk3 V c 11 t : S128.Idx → EReal) (ix1 k) = (V c main_v42 : S128.Idx → EReal) (ix1 k) := by
  unfold iblk3
  rw [View.read_apply]
  show (V c main_v42 : S128.Idx → EReal) _ = _
  refine congrArg _ (funext fun a => Fin.ext ?_)
  match a with
  | ⟨0, _⟩ => show win3_11.index t (0 : Fin 1) * 128 + 1 * k.val = k.val; rw [index3_11 t]; omega

end Cert.KernelIdeal.Arrays.K3

end
-- ==== Proof.KBlk3.lean ====
/-
  From the blocks of the last launch to its output array.

  Point t stores, at entry (p, q) of its block, the head's output q for row 5000 t + p of the arrays the launch finds:
  the block entry depends on row p of the point's row blocks, which is that row of the arrays, and on the whole weight
  arrays. So every point writes back its block of ONE function of the arrays, and since row r lies in the block of
  point r / 5000, the ten blocks cover the array, which therefore ends holding that function.
-/
import proofs.«172491_j1821066133824_2_alg».proof.Proof.KRow3
import proofs.«172491_j1821066133824_2_alg».proof.Proof.KRead3
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Arrays.K3

open Cert.KernelIdeal Cert.KernelIdeal.Gen

variable (V : (c : Dev nD) → (b : Ref sig .tc) → Buf (Elt Ideal) ((c : Thread nD τ).loc b))

/-- Entry `f` of the head's output for row `i`, from the arrays the launch finds. -/
def rowOut (c : Dev nD) (i : Fin 50000) (f : Fin 128) : EReal :=
  Cert.Gcn.finalRow (fun k : Fin 128 => (V c main_v40 : S50000x128.Idx → EReal) (ix2 i k)) (fun k : Fin 128 => (V c main_v30 : S50000x128.Idx → EReal) (ix2 i k))
          ((V c main_v7 : S50000x1.Idx → EReal) (ix2 i 0))
          (fun k : Fin 128 => (V c main_arg16 : S128.Idx → EReal) (ix1 k)) (fun k : Fin 128 => (V c main_arg17 : S128.Idx → EReal) (ix1 k)) (fun k : Fin 128 => (V c main_arg18 : S128.Idx → EReal) (ix1 k))
          (fun k : Fin 128 => (V c main_arg19 : S128.Idx → EReal) (ix1 k)) (fun k : Fin 128 => (V c main_arg20 : S128.Idx → EReal) (ix1 k))
          (fun (k : Fin 128) (g : Fin 128) => (V c main_arg21 : S128x128.Idx → EReal) (ix2 k g)) (fun k : Fin 128 => (V c main_arg22 : S128.Idx → EReal) (ix1 k))
          (fun (k : Fin 128) (g : Fin 128) => (V c main_v41 : S128x128.Idx → EReal) (ix2 k g)) (fun k : Fin 128 => (V c main_v42 : S128.Idx → EReal) (ix1 k)) f

/-- The whole output as one function of the arrays the launch finds. -/
def outArr (c : Dev nD) : S50000x128.Idx → EReal :=
  fun j => rowOut V c ⟨(j 0).val, idx2_lt0 j⟩ ⟨(j 1).val, idx2_lt1 j⟩

/-- What point `t` leaves at entry `(p, q)` of the output's block is the head's output `q` for row `5000 t + p`. -/
theorem after_entry (c : Dev nD) (t : Fin cfg3.N) (p : Fin 5000) (q : Fin 128) (r : Fin 50000) (hr : r.val = t.val * 5000 + p.val) :
    out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (ix2 p q) = rowOut V c r q := by
  refine (block_entry (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) p q).trans ?_
  unfold rowOut
  simp only [read3_0 V c t p _ r hr, read3_1 V c t p _ r hr, read3_2 V c t p r hr, read3_3 V c t, read3_4 V c t, read3_5 V c t,
    read3_6 V c t, read3_7 V c t, read3_8 V c t, read3_9 V c t, read3_10 V c t, read3_11 V c t]

/-- The same at a block index `j` and the array index `i` it sits at. -/
theorem after_index (c : Dev nD) (t : Fin cfg3.N) (j : S5000x128.Idx) (i : S50000x128.Idx)
    (h0 : (i 0).val = t.val * 5000 + (j 0).val) (h1 : (i 1).val = (j 1).val) :
    out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) j = outArr V c i := by
  obtain ⟨p, q, rfl⟩ : ∃ (p : Fin 5000) (q : Fin 128), j = ix2 p q := ⟨j 0, j 1, eq_ix2 j⟩
  exact (after_entry V c t p q ⟨(i 0).val, idx2_lt0 i⟩ h0).trans
    (congrArg (rowOut V c ⟨(i 0).val, idx2_lt0 i⟩) (Fin.ext h1.symm))

/-- What point `t` writes back is its block of `outArr`. -/
theorem flushed_eq (c : Dev nD) (t : Fin cfg3.N) :
    (dat3 V c).flushed 12 t = ((cfg3.win 12).blk t).view.read (Elt Ideal) (outArr V c) := by
  show (cfg3.win 12).cut (grid3.coords t) ((dat3 V c).after 12 t) = _
  rw [after3_12]
  funext j
  rw [View.read_apply]
  show out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) j = outArr V c (((cfg3.win 12).blk t).view.emb j)
  refine after_index V c t j _ ?_ ?_
  · show win3_12.index t (0 : Fin 2) * 5000 + 1 * (j 0).val = t.val * 5000 + (j 0).val
    rw [(index3_12 t).1]; omega
  · show win3_12.index t (1 : Fin 2) * 128 + 1 * (j 1).val = (j 1).val
    rw [(index3_12 t).2]; omega

/-- An index of the array is in point `t`'s block iff each coordinate is in the block's range on its axis. -/
theorem mem_block (t : Fin cfg3.N) (i : S50000x128.Idx) :
    i ∈ ((cfg3.win 12).blk t).view.set ↔ ∀ a : Fin 2, win3_12.index t a * S5000x128.size a ≤ (i a).val ∧ (i a).val < win3_12.index t a * S5000x128.size a + S5000x128.size a := by
  show i ∈ ((View.whole main_v43).slice (win3_12.rect t)).set ↔ _
  rw [View.set_slice_whole, Rect.mem_set_unit]
  exact Iff.rfl

/-- Row `r` lies in the block of point `r / 5000`. -/
theorem covered (i : S50000x128.Idx) :
    ∃ t : Fin cfg3.N, (cfg3.win 12).flush t = true ∧ i ∈ ((cfg3.win 12).blk t).view.set := by
  have hi0 : (i 0).val < 50000 := (i 0).isLt
  have hi1 : (i 1).val < 128 := (i 1).isLt
  have hN : cfg3.N = 10 := N_3
  have ht : (i 0).val / 5000 < cfg3.N := by rw [hN]; omega
  refine ⟨⟨(i 0).val / 5000, ht⟩, flush3_12 _, ?_⟩
  rw [mem_block]
  intro a
  match a with
  | ⟨0, _⟩ =>
    show win3_12.index ⟨(i 0).val / 5000, ht⟩ (0 : Fin 2) * 5000 ≤ (i 0).val ∧ (i 0).val < win3_12.index ⟨(i 0).val / 5000, ht⟩ (0 : Fin 2) * 5000 + 5000
    rw [(index3_12 ⟨(i 0).val / 5000, ht⟩).1]
    show (i 0).val / 5000 * 5000 ≤ (i 0).val ∧ (i 0).val < (i 0).val / 5000 * 5000 + 5000
    omega
  | ⟨1, _⟩ =>
    show win3_12.index ⟨(i 0).val / 5000, ht⟩ (1 : Fin 2) * 128 ≤ (i 1).val ∧ (i 1).val < win3_12.index ⟨(i 0).val / 5000, ht⟩ (1 : Fin 2) * 128 + 128
    rw [(index3_12 ⟨(i 0).val / 5000, ht⟩).2]
    omega

/-- The output array after the launch is `outArr`. -/
theorem array_eq (c : Dev nD) : (dat3 V c).arrAt 12 cfg3.N = outArr V c :=
  (dat3 V c).arrAt_eq_of_cover 12 (outArr V c) (fun t _ => flushed_eq V c t) (covered)

/-- Row `i` of the output array, entry `f`. -/
theorem array_entry (c : Dev nD) (i : Fin 50000) (f : Fin 128) :
    ((dat3 (F := Ideal) V c).arrAt 12 cfg3.N : S50000x128.Idx → EReal) (ix2 i f)
      = Cert.Gcn.finalRow (fun k : Fin 128 => (V c main_v40 : S50000x128.Idx → EReal) (ix2 i k)) (fun k : Fin 128 => (V c main_v30 : S50000x128.Idx → EReal) (ix2 i k))
          ((V c main_v7 : S50000x1.Idx → EReal) (ix2 i 0))
          (fun k : Fin 128 => (V c main_arg16 : S128.Idx → EReal) (ix1 k)) (fun k : Fin 128 => (V c main_arg17 : S128.Idx → EReal) (ix1 k)) (fun k : Fin 128 => (V c main_arg18 : S128.Idx → EReal) (ix1 k))
          (fun k : Fin 128 => (V c main_arg19 : S128.Idx → EReal) (ix1 k)) (fun k : Fin 128 => (V c main_arg20 : S128.Idx → EReal) (ix1 k))
          (fun (k : Fin 128) (g : Fin 128) => (V c main_arg21 : S128x128.Idx → EReal) (ix2 k g)) (fun k : Fin 128 => (V c main_arg22 : S128.Idx → EReal) (ix1 k))
          (fun (k : Fin 128) (g : Fin 128) => (V c main_v41 : S128x128.Idx → EReal) (ix2 k g)) (fun k : Fin 128 => (V c main_v42 : S128.Idx → EReal) (ix1 k)) f :=
  congrFun (array_eq V c) (ix2 i f)

end Cert.KernelIdeal.Arrays.K3

end
-- ==== Proof.KArr3.lean ====
/-
  The last launch's output array, row by row.

  Row `i` of the output is the head applied to the combined and normalized row `i`, whichever block of 5000 rows
  it sits in; the output layer is the padded one the launch is given, 128 columns wide.
-/
import proofs.«172491_j1821066133824_2_alg».proof.Proof.Gen.KernelIdeal.Frame
import proofs.«172491_j1821066133824_2_alg».proof.Proof.Spec
import proofs.«172491_j1821066133824_2_alg».proof.Proof.KBlk3

noncomputable section

open Idealize.ShloMosaic Idealize.ShloMosaic.TcCoe Idealize.ShloMosaic.ValueIdx Idealize.SL.Sem

namespace Cert.KernelIdeal.Arrays

open Cert.KernelIdeal Cert.KernelIdeal.Gen

variable (V : (c : Dev nD) → (b : Ref sig .tc) → Buf (Elt Ideal) ((c : Thread nD τ).loc b))

/-- Row `i` of the last launch's output array, from the arrays the launch finds. -/
theorem arr3_12 (c : Dev nD) (i : Fin 50000) (f : Fin 128) :
    ((dat3 (F := Ideal) V c).arrAt 12 cfg3.N : S50000x128.Idx → EReal) (ix2 i f)
      = Cert.Gcn.finalRow (fun k : Fin 128 => (V c main_v40 : S50000x128.Idx → EReal) (ix2 i k)) (fun k : Fin 128 => (V c main_v30 : S50000x128.Idx → EReal) (ix2 i k))
          ((V c main_v7 : S50000x1.Idx → EReal) (ix2 i 0))
          (fun k : Fin 128 => (V c main_arg16 : S128.Idx → EReal) (ix1 k)) (fun k : Fin 128 => (V c main_arg17 : S128.Idx → EReal) (ix1 k)) (fun k : Fin 128 => (V c main_arg18 : S128.Idx → EReal) (ix1 k))
          (fun k : Fin 128 => (V c main_arg19 : S128.Idx → EReal) (ix1 k)) (fun k : Fin 128 => (V c main_arg20 : S128.Idx → EReal) (ix1 k))
          (fun (k : Fin 128) (g : Fin 128) => (V c main_arg21 : S128x128.Idx → EReal) (ix2 k g)) (fun k : Fin 128 => (V c main_arg22 : S128.Idx → EReal) (ix1 k))
          (fun (k : Fin 128) (g : Fin 128) => (V c main_v41 : S128x128.Idx → EReal) (ix2 k g)) (fun k : Fin 128 => (V c main_v42 : S128.Idx → EReal) (ix1 k)) f :=
  K3.array_entry V c i f

end Cert.KernelIdeal.Arrays

end
-- ==== Proof.KChainBPass.lean ====
/-
  What the host operations after the second launch leave alone.

  Each stretch of host operations between two launches writes a short list of buffers of its own: the constants and
  intermediate values of one aggregation, or of one padding. Every other buffer holds after the stretch what it held
  before it.
-/
import proofs.«172491_j1821066133824_2_alg».proof.Proof.Gen.KernelIdeal.Frame
import Idealize.ShloMosaic.Lib.ValueIdx

noncomputable section

open Idealize.ShloMosaic Idealize.ShloMosaic.TcCoe Idealize.ShloMosaic.ValueIdx Idealize.SL.Sem

namespace Cert.KernelIdeal.Chain

open Cert.KernelIdeal Cert.KernelIdeal.Gen

variable (m : (ℓ : Loc nD τ sig) → Buf (Elt Ideal) ℓ) (ρ : Dev nD → PrngReg)

/-- The buffers the aggregation of the second layer's rows writes. -/
abbrev written2 : List (Ref sig .tc) :=
  [main_c_4, main_v20, main_v21, main_c_5, main_v22, main_v23, main_v24, main_v25, main_v26, main_cst_6, main_v27, main_v28, main_v29]

theorem hostOps2_writes :
    (hostOps2 : List (HloOp τ sig (Elt Ideal))).Forall fun op => op.writes ⊆ (written2.map (Proc.devRef (τ := τ) .tc)).toFinset := by
  simp only [hostOps2, List.Forall, StableHlo.nullary_writes, StableHlo.unary_writes, StableHlo.binary_writes, StableHlo.ternary_writes, Finset.singleton_subset_iff, List.mem_toFinset]
  repeat' apply And.intro
  all_goals exact List.mem_map_of_mem (by decide)

/-- A buffer the aggregation of the second layer's rows does not write holds after it what it held before. -/
theorem W5_of (c : Dev nD) (r : Ref sig .tc) (h : r ∉ written2) :
    W5 (F := Ideal) m ρ c (Proc.devRef .tc r) = W4 m ρ c (Proc.devRef .tc r) :=
  StableHlo.after_of_writes_sub hostOps2 _ hostOps2_writes h

/-- The buffers the aggregation of the third layer's rows writes. -/
abbrev written3 : List (Ref sig .tc) :=
  [main_c_7, main_v31, main_v32, main_c_8, main_v33, main_v34, main_v35, main_v36, main_v37, main_cst_9, main_v38, main_v39, main_v40, main_c_10]

theorem hostOps3_writes :
    (hostOps3 : List (HloOp τ sig (Elt Ideal))).Forall fun op => op.writes ⊆ (written3.map (Proc.devRef (τ := τ) .tc)).toFinset := by
  simp only [hostOps3, List.Forall, StableHlo.nullary_writes, StableHlo.unary_writes, StableHlo.binary_writes, StableHlo.ternary_writes, Finset.singleton_subset_iff, List.mem_toFinset]
  repeat' apply And.intro
  all_goals exact List.mem_map_of_mem (by decide)

/-- A buffer the aggregation of the third layer's rows does not write holds after it what it held before. -/
theorem W7_of (c : Dev nD) (r : Ref sig .tc) (h : r ∉ written3) :
    W7 (F := Ideal) m ρ c (Proc.devRef .tc r) = W6 m ρ c (Proc.devRef .tc r) :=
  StableHlo.after_of_writes_sub hostOps3 _ hostOps3_writes h

/-- The buffers the padding of the output layer's matrix writes. -/
abbrev written3_1 : List (Ref sig .tc) :=
  [main_call0_v0, main_v41]

theorem hostOps3_1_writes :
    (hostOps3_1 : List (HloOp τ sig (Elt Ideal))).Forall fun op => op.writes ⊆ (written3_1.map (Proc.devRef (τ := τ) .tc)).toFinset := by
  simp only [hostOps3_1, List.Forall, StableHlo.nullary_writes, StableHlo.unary_writes, StableHlo.binary_writes, StableHlo.ternary_writes, Finset.singleton_subset_iff, List.mem_toFinset]
  repeat' apply And.intro
  all_goals exact List.mem_map_of_mem (by decide)

/-- A buffer the padding of the output layer's matrix does not write holds after it what it held before. -/
theorem W8_of (c : Dev nD) (r : Ref sig .tc) (h : r ∉ written3_1) :
    W8 (F := Ideal) m ρ c (Proc.devRef .tc r) = W7 m ρ c (Proc.devRef .tc r) :=
  StableHlo.after_of_writes_sub hostOps3_1 _ hostOps3_1_writes h

/-- The buffers the constant between the two paddings writes. -/
abbrev written3_2 : List (Ref sig .tc) :=
  [main_c_11]

theorem hostOps3_2_writes :
    (hostOps3_2 : List (HloOp τ sig (Elt Ideal))).Forall fun op => op.writes ⊆ (written3_2.map (Proc.devRef (τ := τ) .tc)).toFinset := by
  simp only [hostOps3_2, List.Forall, StableHlo.nullary_writes, StableHlo.unary_writes, StableHlo.binary_writes, StableHlo.ternary_writes, Finset.singleton_subset_iff, List.mem_toFinset]
  repeat' apply And.intro
  all_goals exact List.mem_map_of_mem (by decide)

/-- A buffer the constant between the two paddings does not write holds after it what it held before. -/
theorem W9_of (c : Dev nD) (r : Ref sig .tc) (h : r ∉ written3_2) :
    W9 (F := Ideal) m ρ c (Proc.devRef .tc r) = W8 m ρ c (Proc.devRef .tc r) :=
  StableHlo.after_of_writes_sub hostOps3_2 _ hostOps3_2_writes h

/-- The buffers the padding of the output layer's bias writes. -/
abbrev written3_3 : List (Ref sig .tc) :=
  [main_call1_v0, main_v42]

theorem hostOps3_3_writes :
    (hostOps3_3 : List (HloOp τ sig (Elt Ideal))).Forall fun op => op.writes ⊆ (written3_3.map (Proc.devRef (τ := τ) .tc)).toFinset := by
  simp only [hostOps3_3, List.Forall, StableHlo.nullary_writes, StableHlo.unary_writes, StableHlo.binary_writes, StableHlo.ternary_writes, Finset.singleton_subset_iff, List.mem_toFinset]
  repeat' apply And.intro
  all_goals exact List.mem_map_of_mem (by decide)

/-- A buffer the padding of the output layer's bias does not write holds after it what it held before. -/
theorem W10_of (c : Dev nD) (r : Ref sig .tc) (h : r ∉ written3_3) :
    W10 (F := Ideal) m ρ c (Proc.devRef .tc r) = W9 m ρ c (Proc.devRef .tc r) :=
  StableHlo.after_of_writes_sub hostOps3_3 _ hostOps3_3_writes h

end Cert.KernelIdeal.Chain

end
-- ==== Proof.KChainBBack.lean ====
/-
  The buffers the second half of the program reads, walked back to where they were written.

  Between the second launch and the last, the column of `d`, each launch's rows, the aggregated rows and the
  arguments are read several times and written once: a buffer holds at a later boundary what it held when it was
  written, because no stretch of host operations in between writes it and a launch changes only its output array.
-/
import proofs.«172491_j1821066133824_2_alg».proof.Proof.Gen.KernelIdeal.Frame
import proofs.«172491_j1821066133824_2_alg».proof.Proof.KChainBPass

noncomputable section

open Idealize.ShloMosaic Idealize.ShloMosaic.TcCoe Idealize.ShloMosaic.ValueIdx Idealize.SL.Sem

namespace Cert.KernelIdeal.Chain

open Cert.KernelIdeal Cert.KernelIdeal.Gen

variable (m : (ℓ : Loc nD τ sig) → Buf (Elt Ideal) ℓ) (ρ : Dev nD → PrngReg)

/-! ### At the third launch's entry -/

/-- The second launch's rows are still there. -/
theorem W5_rows (c : Dev nD) : W5 (F := Ideal) m ρ c (Proc.devRef .tc main_v19) = W4 m ρ c (Proc.devRef .tc main_v19) :=
  W5_of m ρ c main_v19 (by decide)

/-- The column of `d` is still there. -/
theorem W5_dcol (c : Dev nD) : W5 (F := Ideal) m ρ c (Proc.devRef .tc main_v7) = W4 m ρ c (Proc.devRef .tc main_v7) :=
  W5_of m ρ c main_v7 (by decide)

/-- Argument 10 is as after the second launch. -/
theorem W5_main_arg10 (c : Dev nD) : W5 (F := Ideal) m ρ c (Proc.devRef .tc main_arg10) = W4 m ρ c (Proc.devRef .tc main_arg10) :=
  W5_of m ρ c main_arg10 (by decide)

/-- Argument 11 is as after the second launch. -/
theorem W5_main_arg11 (c : Dev nD) : W5 (F := Ideal) m ρ c (Proc.devRef .tc main_arg11) = W4 m ρ c (Proc.devRef .tc main_arg11) :=
  W5_of m ρ c main_arg11 (by decide)

/-- Argument 12 is as after the second launch. -/
theorem W5_main_arg12 (c : Dev nD) : W5 (F := Ideal) m ρ c (Proc.devRef .tc main_arg12) = W4 m ρ c (Proc.devRef .tc main_arg12) :=
  W5_of m ρ c main_arg12 (by decide)

/-- Argument 13 is as after the second launch. -/
theorem W5_main_arg13 (c : Dev nD) : W5 (F := Ideal) m ρ c (Proc.devRef .tc main_arg13) = W4 m ρ c (Proc.devRef .tc main_arg13) :=
  W5_of m ρ c main_arg13 (by decide)

/-- Argument 14 is as after the second launch. -/
theorem W5_main_arg14 (c : Dev nD) : W5 (F := Ideal) m ρ c (Proc.devRef .tc main_arg14) = W4 m ρ c (Proc.devRef .tc main_arg14) :=
  W5_of m ρ c main_arg14 (by decide)

/-- Argument 15 is as after the second launch. -/
theorem W5_main_arg15 (c : Dev nD) : W5 (F := Ideal) m ρ c (Proc.devRef .tc main_arg15) = W4 m ρ c (Proc.devRef .tc main_arg15) :=
  W5_of m ρ c main_arg15 (by decide)

/-! ### At the third launch's exit -/

/-- The third launch reads the column of `d` and leaves it. -/
theorem W6_dcol (c : Dev nD) : W6 (F := Ideal) m ρ c (Proc.devRef .tc main_v7) = W4 m ρ c (Proc.devRef .tc main_v7) :=
  ((W6_arr m ρ c 2).trans (((dat2 (V5 m ρ) c).arrAt_in 2 rfl _).trans (A_eq2 (V5 m ρ) c 2))).trans (W5_dcol m ρ c)

/-- Argument 1 is as after the second launch. -/
theorem W6_main_arg1 (c : Dev nD) : W6 (F := Ideal) m ρ c (Proc.devRef .tc main_arg1) = W4 m ρ c (Proc.devRef .tc main_arg1) :=
  (W6_of_ne m ρ c main_arg1 (by decide)).trans (W5_of m ρ c main_arg1 (by decide))

/-- Argument 2 is as after the second launch. -/
theorem W6_main_arg2 (c : Dev nD) : W6 (F := Ideal) m ρ c (Proc.devRef .tc main_arg2) = W4 m ρ c (Proc.devRef .tc main_arg2) :=
  (W6_of_ne m ρ c main_arg2 (by decide)).trans (W5_of m ρ c main_arg2 (by decide))

/-! ### At the last launch's entry -/

/-- A buffer none of the four stretches before the last launch writes. -/
theorem W10_of_W6 (c : Dev nD) (r : Ref sig .tc) (h3 : r ∉ written3) (h31 : r ∉ written3_1) (h32 : r ∉ written3_2)
    (h33 : r ∉ written3_3) : W10 (F := Ideal) m ρ c (Proc.devRef .tc r) = W6 m ρ c (Proc.devRef .tc r) :=
  (W10_of m ρ c r h33).trans ((W9_of m ρ c r h32).trans ((W8_of m ρ c r h31).trans (W7_of m ρ c r h3)))

/-- A buffer nothing between the second launch and the last launch writes. -/
theorem W10_of_W4 (c : Dev nD) (r : Ref sig .tc) (h2 : r ∉ written2) (hL : ∀ w, Pipeline.arrRef spec2 w ≠ r)
    (h3 : r ∉ written3) (h31 : r ∉ written3_1) (h32 : r ∉ written3_2) (h33 : r ∉ written3_3) :
    W10 (F := Ideal) m ρ c (Proc.devRef .tc r) = W4 m ρ c (Proc.devRef .tc r) :=
  (W10_of_W6 m ρ c r h3 h31 h32 h33).trans ((W6_of_ne m ρ c r hL).trans (W5_of m ρ c r h2))

/-- The third launch's rows are still there. -/
theorem W10_rows (c : Dev nD) : W10 (F := Ideal) m ρ c (Proc.devRef .tc main_v30) = W6 m ρ c (Proc.devRef .tc main_v30) :=
  W10_of_W6 m ρ c main_v30 (by decide) (by decide) (by decide) (by decide)

/-- The column of `d` is still there. -/
theorem W10_dcol (c : Dev nD) : W10 (F := Ideal) m ρ c (Proc.devRef .tc main_v7) = W4 m ρ c (Proc.devRef .tc main_v7) :=
  (W10_of_W6 m ρ c main_v7 (by decide) (by decide) (by decide) (by decide)).trans (W6_dcol m ρ c)

/-- The aggregated rows are as the aggregation wrote them. -/
theorem W10_aggregated (c : Dev nD) : W10 (F := Ideal) m ρ c (Proc.devRef .tc main_v40) = W7 m ρ c (Proc.devRef .tc main_v40) :=
  (W10_of m ρ c main_v40 (by decide)).trans ((W9_of m ρ c main_v40 (by decide)).trans (W8_of m ρ c main_v40 (by decide)))

/-- The padded matrix is as the padding wrote it. -/
theorem W10_matrix (c : Dev nD) : W10 (F := Ideal) m ρ c (Proc.devRef .tc main_v41) = W8 m ρ c (Proc.devRef .tc main_v41) :=
  (W10_of m ρ c main_v41 (by decide)).trans (W9_of m ρ c main_v41 (by decide))

/-- Argument 16 is as after the second launch. -/
theorem W10_main_arg16 (c : Dev nD) : W10 (F := Ideal) m ρ c (Proc.devRef .tc main_arg16) = W4 m ρ c (Proc.devRef .tc main_arg16) :=
  W10_of_W4 m ρ c main_arg16 (by decide) (by decide) (by decide) (by decide) (by decide) (by decide)

/-- Argument 17 is as after the second launch. -/
theorem W10_main_arg17 (c : Dev nD) : W10 (F := Ideal) m ρ c (Proc.devRef .tc main_arg17) = W4 m ρ c (Proc.devRef .tc main_arg17) :=
  W10_of_W4 m ρ c main_arg17 (by decide) (by decide) (by decide) (by decide) (by decide) (by decide)

/-- Argument 18 is as after the second launch. -/
theorem W10_main_arg18 (c : Dev nD) : W10 (F := Ideal) m ρ c (Proc.devRef .tc main_arg18) = W4 m ρ c (Proc.devRef .tc main_arg18) :=
  W10_of_W4 m ρ c main_arg18 (by decide) (by decide) (by decide) (by decide) (by decide) (by decide)

/-- Argument 19 is as after the second launch. -/
theorem W10_main_arg19 (c : Dev nD) : W10 (F := Ideal) m ρ c (Proc.devRef .tc main_arg19) = W4 m ρ c (Proc.devRef .tc main_arg19) :=
  W10_of_W4 m ρ c main_arg19 (by decide) (by decide) (by decide) (by decide) (by decide) (by decide)

/-- Argument 20 is as after the second launch. -/
theorem W10_main_arg20 (c : Dev nD) : W10 (F := Ideal) m ρ c (Proc.devRef .tc main_arg20) = W4 m ρ c (Proc.devRef .tc main_arg20) :=
  W10_of_W4 m ρ c main_arg20 (by decide) (by decide) (by decide) (by decide) (by decide) (by decide)

/-- Argument 21 is as after the second launch. -/
theorem W10_main_arg21 (c : Dev nD) : W10 (F := Ideal) m ρ c (Proc.devRef .tc main_arg21) = W4 m ρ c (Proc.devRef .tc main_arg21) :=
  W10_of_W4 m ρ c main_arg21 (by decide) (by decide) (by decide) (by decide) (by decide) (by decide)

/-- Argument 22 is as after the second launch. -/
theorem W10_main_arg22 (c : Dev nD) : W10 (F := Ideal) m ρ c (Proc.devRef .tc main_arg22) = W4 m ρ c (Proc.devRef .tc main_arg22) :=
  W10_of_W4 m ρ c main_arg22 (by decide) (by decide) (by decide) (by decide) (by decide) (by decide)

/-- The output layer's matrix, when it is padded, is as after the second launch. -/
theorem W7_main_arg23 (c : Dev nD) : W7 (F := Ideal) m ρ c (Proc.devRef .tc main_arg23) = W4 m ρ c (Proc.devRef .tc main_arg23) :=
  (W7_of m ρ c main_arg23 (by decide)).trans ((W6_of_ne m ρ c main_arg23 (by decide)).trans (W5_of m ρ c main_arg23 (by decide)))

/-- The output layer's bias, when it is padded, is as after the second launch. -/
theorem W9_main_arg24 (c : Dev nD) : W9 (F := Ideal) m ρ c (Proc.devRef .tc main_arg24) = W4 m ρ c (Proc.devRef .tc main_arg24) :=
  (W9_of m ρ c main_arg24 (by decide)).trans ((W8_of m ρ c main_arg24 (by decide)).trans ((W7_of m ρ c main_arg24 (by decide)).trans
    ((W6_of_ne m ρ c main_arg24 (by decide)).trans (W5_of m ρ c main_arg24 (by decide)))))

end Cert.KernelIdeal.Chain

end
-- ==== Proof.KChainBAgg.lean ====
/-
  The two aggregations after the second launch, each as one function of the rows it reads.

  The stretch of host operations before the third launch gathers the second launch's rows at the edges' wrapped
  source words and scatter-adds them through the destination words; the stretch before the last launch does the same
  with the third launch's rows. Each writes its aggregated rows into one buffer.
-/
import proofs.«172491_j1821066133824_2_alg».proof.Proof.Gen.KernelIdeal.Frame
import proofs.«172491_j1821066133824_2_alg».proof.Proof.KAgg

noncomputable section

open Idealize.ShloMosaic Idealize.ShloMosaic.TcCoe Idealize.ShloMosaic.ValueIdx Idealize.SL.Sem

namespace Cert.KernelIdeal.Chain

open Cert.KernelIdeal Cert.KernelIdeal.Gen

variable (m : (ℓ : Loc nD τ sig) → Buf (Elt Ideal) ℓ) (ρ : Dev nD → PrngReg)

/-- The aggregation before the third launch, over any contents before it. -/
theorem aggregate2_term (V : Valuation τ sig (Elt Ideal)) :
    StableHlo.after hostOps2 V (Proc.devRef .tc main_v29)
      = aggOps (V (Proc.devRef .tc main_v19)) (V (Proc.devRef .tc main_arg1)) (V (Proc.devRef .tc main_arg2)) := by
  after_results_simp
  rfl

/-- The aggregation before the last launch, over any contents before it. -/
theorem aggregate3_term (V : Valuation τ sig (Elt Ideal)) :
    StableHlo.after hostOps3 V (Proc.devRef .tc main_v40)
      = aggOps (V (Proc.devRef .tc main_v30)) (V (Proc.devRef .tc main_arg1)) (V (Proc.devRef .tc main_arg2)) := by
  after_results_simp
  rfl

/-- Before the third launch: the aggregation of the second launch's rows. -/
theorem W5_aggregated (c : Dev nD) :
    W5 (F := Ideal) m ρ c (Proc.devRef .tc main_v29)
      = aggOps (W4 m ρ c (Proc.devRef .tc main_v19)) (W4 m ρ c (Proc.devRef .tc main_arg1)) (W4 m ρ c (Proc.devRef .tc main_arg2)) :=
  aggregate2_term (W4 m ρ c)

/-- Before the last launch: the aggregation of the third launch's rows. -/
theorem W7_aggregated (c : Dev nD) :
    W7 (F := Ideal) m ρ c (Proc.devRef .tc main_v40)
      = aggOps (W6 m ρ c (Proc.devRef .tc main_v30)) (W6 m ρ c (Proc.devRef .tc main_arg1)) (W6 m ρ c (Proc.devRef .tc main_arg2)) :=
  aggregate3_term (W6 m ρ c)

end Cert.KernelIdeal.Chain

end
-- ==== Proof.KChainBPad.lean ====
/-
  The padded output layer and the final slice, read at the columns that matter.

  Before the last launch the output layer's matrix (128 by 64) and bias (64) are padded on the right to 128 columns;
  after it the result's first 64 columns are cut out. At a column below 64 the padded matrix and bias hold the
  original entries, whatever the padding value is, and the cut keeps the entry.
-/
import proofs.«172491_j1821066133824_2_alg».proof.Proof.Gen.KernelIdeal.Frame
import Idealize.ShloMosaic.Lib.KernelVsHost

noncomputable section

open Idealize.ShloMosaic Idealize.ShloMosaic.TcCoe Idealize.ShloMosaic.ValueIdx Idealize.SL.Sem

namespace Cert.KernelIdeal.Chain

open Cert.KernelIdeal Cert.KernelIdeal.Gen

variable (m : (ℓ : Loc nD τ sig) → Buf (Elt Ideal) ℓ) (ρ : Dev nD → PrngReg)

/-- Column `j` of the 64 kept, as a column of the 128. -/
def col (j : Fin 64) : Fin 128 := ⟨j.val, Nat.lt_of_lt_of_le j.isLt (by decide)⟩

/-- The padding of the matrix, over any contents before it. -/
theorem padMatrix_term (V : Valuation τ sig (Elt Ideal)) :
    StableHlo.after hostOps3_1 V (Proc.devRef .tc main_v41)
      = pad S128x128 ![0, 0] ![0, 64] ![0, 0] (V (Proc.devRef .tc main_arg23) : (⟨S128x64, .f32⟩ : BufTy).Contents (Elt Ideal))
          (sitofp (F := Ideal) .f32 (V (Proc.devRef .tc main_c_10) : (⟨S_, .i32⟩ : BufTy).Contents (Elt Ideal)))
          pads_S128x64_S128x128_000_0640 h_S_ := by
  after_results
  rfl

/-- The padding of the bias, over any contents before it. -/
theorem padBias_term (V : Valuation τ sig (Elt Ideal)) :
    StableHlo.after hostOps3_3 V (Proc.devRef .tc main_v42)
      = pad S128 ![0] ![64] ![0] (V (Proc.devRef .tc main_arg24) : (⟨S64, .f32⟩ : BufTy).Contents (Elt Ideal))
          (sitofp (F := Ideal) .f32 (V (Proc.devRef .tc main_c_11) : (⟨S_, .i32⟩ : BufTy).Contents (Elt Ideal)))
          pads_S64_S128_0640 h_S_ := by
  after_results
  rfl

/-- The final cut, over any contents before it. -/
theorem slice_term (V : Valuation τ sig (Elt Ideal)) :
    StableHlo.after hostOps4 V (Proc.devRef .tc main_v44)
      = extractStridedSlice S50000x64 ![0, 0] (V (Proc.devRef .tc main_v43) : (⟨S50000x128, .f32⟩ : BufTy).Contents (Elt Ideal))
          slices_S50000x128_S50000x64_0_0 := by
  after_results

/-- The padded matrix holds the matrix at the kept columns. -/
theorem W8_matrix (c : Dev nD) (k : Fin 128) (j : Fin 64) :
    (W8 (F := Ideal) m ρ c (Proc.devRef .tc main_v41) : S128x128.Idx → EReal) (ix2 k (col j))
      = (W7 m ρ c (Proc.devRef .tc main_arg23) : S128x64.Idx → EReal) (ix2 k j) := by
  show StableHlo.after hostOps3_1 (W7 m ρ c) (Proc.devRef .tc main_v41) (ix2 k (col j)) = _
  rw [padMatrix_term]
  exact pad_apply_of_inside _ _ _ _ _ _ _ (ix2 k (col j)) (ix2 k j) fun a => match a with
    | ⟨0, _⟩ => by show k.val = 0 + k.val * (0 + 1); omega
    | ⟨1, _⟩ => by show j.val = 0 + j.val * (0 + 1); omega

/-- The padded bias holds the bias at the kept columns. -/
theorem W10_bias (c : Dev nD) (j : Fin 64) :
    (W10 (F := Ideal) m ρ c (Proc.devRef .tc main_v42) : S128.Idx → EReal) (ix1 (col j))
      = (W9 m ρ c (Proc.devRef .tc main_arg24) : S64.Idx → EReal) (ix1 j) := by
  show StableHlo.after hostOps3_3 (W9 m ρ c) (Proc.devRef .tc main_v42) (ix1 (col j)) = _
  rw [padBias_term]
  exact pad_apply_of_inside _ _ _ _ _ _ _ (ix1 (col j)) (ix1 j) fun a => match a with
    | ⟨0, _⟩ => by show j.val = 0 + j.val * (0 + 1); omega

/-- The cut keeps the entries of the first 64 columns. -/
theorem W12_cut (c : Dev nD) (i : Fin 50000) (j : Fin 64) :
    (W12 (F := Ideal) m ρ c (Proc.devRef .tc main_v44) : S50000x64.Idx → EReal) (ix2 i j)
      = (W11 m ρ c (Proc.devRef .tc main_v43) : S50000x128.Idx → EReal) (ix2 i (col j)) := by
  show StableHlo.after hostOps4 (W11 m ρ c) (Proc.devRef .tc main_v44) (ix2 i j) = _
  rw [slice_term]
  exact extractStridedSlice_apply _ _ _ (ix2 i j) (ix2 i (col j)) fun a => match a with
    | ⟨0, _⟩ => by show i.val = 0 + i.val; omega
    | ⟨1, _⟩ => by show j.val = 0 + j.val; omega

end Cert.KernelIdeal.Chain

end
-- ==== Proof.KChainBLaunch.lean ====
/-
  The third and the last launch's output arrays, row by row, from the buffers at each launch's entry.

  A launch leaves in its output array, at row `i`, the row its body computes from row `i` of its row inputs and from
  its parameter arrays, all as they are when the launch is entered.
-/
import proofs.«172491_j1821066133824_2_alg».proof.Proof.Gen.KernelIdeal.Frame
import proofs.«172491_j1821066133824_2_alg».proof.Proof.Spec
import proofs.«172491_j1821066133824_2_alg».proof.Proof.KArr2
import proofs.«172491_j1821066133824_2_alg».proof.Proof.KArr3

noncomputable section

open Idealize.ShloMosaic Idealize.ShloMosaic.TcCoe Idealize.ShloMosaic.ValueIdx Idealize.SL.Sem

namespace Cert.KernelIdeal.Chain

open Cert.KernelIdeal Cert.KernelIdeal.Gen

variable (m : (ℓ : Loc nD τ sig) → Buf (Elt Ideal) ℓ) (ρ : Dev nD → PrngReg)

/-- Row `i` of the third launch's output, from the buffers at its entry. -/
theorem W6_rows_entry (c : Dev nD) (i : Fin 50000) (f : Fin 128) :
    (W6 (F := Ideal) m ρ c (Proc.devRef .tc main_v30) : S50000x128.Idx → EReal) (ix2 i f)
      = Cert.Gcn.layerRow (fun k : Fin 128 => (W5 m ρ c (Proc.devRef .tc main_v29) : S50000x128.Idx → EReal) (ix2 i k))
          (fun k : Fin 128 => (W5 m ρ c (Proc.devRef .tc main_v19) : S50000x128.Idx → EReal) (ix2 i k))
          ((W5 m ρ c (Proc.devRef .tc main_v7) : S50000x1.Idx → EReal) (ix2 i 0))
          (fun k : Fin 128 => (W5 m ρ c (Proc.devRef .tc main_arg10) : S128.Idx → EReal) (ix1 k)) (fun k : Fin 128 => (W5 m ρ c (Proc.devRef .tc main_arg11) : S128.Idx → EReal) (ix1 k))
          (fun k : Fin 128 => (W5 m ρ c (Proc.devRef .tc main_arg12) : S128.Idx → EReal) (ix1 k)) (fun k : Fin 128 => (W5 m ρ c (Proc.devRef .tc main_arg13) : S128.Idx → EReal) (ix1 k))
          (fun k : Fin 128 => (W5 m ρ c (Proc.devRef .tc main_arg14) : S128.Idx → EReal) (ix1 k))
          (fun (k : Fin 128) (g : Fin 128) => (W5 m ρ c (Proc.devRef .tc main_arg15) : S128x128.Idx → EReal) (ix2 k g)) f :=
  (congrFun (W6_arr m ρ c 9) (ix2 i f)).trans (Cert.KernelIdeal.Arrays.arr2_9 (V5 m ρ) c i f)

/-- Row `i` of the last launch's output, from the buffers at its entry. -/
theorem W11_rows_entry (c : Dev nD) (i : Fin 50000) (f : Fin 128) :
    (W11 (F := Ideal) m ρ c (Proc.devRef .tc main_v43) : S50000x128.Idx → EReal) (ix2 i f)
      = Cert.Gcn.finalRow (fun k : Fin 128 => (W10 m ρ c (Proc.devRef .tc main_v40) : S50000x128.Idx → EReal) (ix2 i k))
          (fun k : Fin 128 => (W10 m ρ c (Proc.devRef .tc main_v30) : S50000x128.Idx → EReal) (ix2 i k))
          ((W10 m ρ c (Proc.devRef .tc main_v7) : S50000x1.Idx → EReal) (ix2 i 0))
          (fun k : Fin 128 => (W10 m ρ c (Proc.devRef .tc main_arg16) : S128.Idx → EReal) (ix1 k)) (fun k : Fin 128 => (W10 m ρ c (Proc.devRef .tc main_arg17) : S128.Idx → EReal) (ix1 k))
          (fun k : Fin 128 => (W10 m ρ c (Proc.devRef .tc main_arg18) : S128.Idx → EReal) (ix1 k)) (fun k : Fin 128 => (W10 m ρ c (Proc.devRef .tc main_arg19) : S128.Idx → EReal) (ix1 k))
          (fun k : Fin 128 => (W10 m ρ c (Proc.devRef .tc main_arg20) : S128.Idx → EReal) (ix1 k))
          (fun (k : Fin 128) (g : Fin 128) => (W10 m ρ c (Proc.devRef .tc main_arg21) : S128x128.Idx → EReal) (ix2 k g))
          (fun k : Fin 128 => (W10 m ρ c (Proc.devRef .tc main_arg22) : S128.Idx → EReal) (ix1 k))
          (fun (k : Fin 128) (g : Fin 128) => (W10 m ρ c (Proc.devRef .tc main_v41) : S128x128.Idx → EReal) (ix2 k g))
          (fun k : Fin 128 => (W10 m ρ c (Proc.devRef .tc main_v42) : S128.Idx → EReal) (ix1 k)) f :=
  (congrFun (W11_arr m ρ c 12) (ix2 i f)).trans (Cert.KernelIdeal.Arrays.arr3_12 (V10 m ρ) c i f)

end Cert.KernelIdeal.Chain

end
-- ==== Proof.KChainBL2.lean ====
/-
  The third launch's output array holds the third layer's scaled rows.

  At the third launch's entry the aggregated rows are the aggregation of the second layer's scaled rows, those rows
  and the column of `d` are still in their buffers, and the layer's parameters are the arguments: the row the launch
  computes from them is the third layer's scaled row.
-/
import proofs.«172491_j1821066133824_2_alg».proof.Proof.Gen.KernelIdeal.Frame
import proofs.«172491_j1821066133824_2_alg».proof.Proof.Spec
import proofs.«172491_j1821066133824_2_alg».proof.Proof.KArgs
import proofs.«172491_j1821066133824_2_alg».proof.Proof.KAgg
import proofs.«172491_j1821066133824_2_alg».proof.Proof.KChainA
import proofs.«172491_j1821066133824_2_alg».proof.Proof.KChainBBack
import proofs.«172491_j1821066133824_2_alg».proof.Proof.KChainBAgg
import proofs.«172491_j1821066133824_2_alg».proof.Proof.KChainBLaunch

noncomputable section

open Idealize.ShloMosaic Idealize.ShloMosaic.TcCoe Idealize.ShloMosaic.ValueIdx Idealize.SL.Sem

namespace Cert.KernelIdeal.Chain

open Cert.KernelIdeal Cert.KernelIdeal.Gen

variable (m : (ℓ : Loc nD τ sig) → Buf (Elt Ideal) ℓ) (ρ : Dev nD → PrngReg)

/-- After the second launch its output array holds the second layer's scaled rows, entry by entry. -/
theorem W4_hs1_at (c : Dev nD) (n : Fin 50000) (g : Fin 128) :
    W4 (F := Ideal) m ρ c (no_index (Proc.devRef .tc main_v19)) (ix2 n g) = (argsK m c).hs1 n g := W4_hs1 m ρ c n g

/-- After the second launch the column of `d` holds `d`, entry by entry. -/
theorem W4_dcol_at (c : Dev nD) (n : Fin 50000) :
    W4 (F := Ideal) m ρ c (no_index (Proc.devRef .tc main_v7)) (ix2 n 0) = (argsK m c).d n := W4_dcol m ρ c n

/-- After the third launch its output array holds the third layer's scaled rows. -/
theorem W6_hs2 (c : Dev nD) (i : Fin 50000) (f : Fin 128) :
    (W6 (F := Ideal) m ρ c (Proc.devRef .tc main_v30) : S50000x128.Idx → EReal) (ix2 i f) = (argsK m c).hs2 i f := by
  rw [W6_rows_entry, W5_aggregated, W5_rows, W5_dcol, W5_main_arg10, W5_main_arg11, W5_main_arg12, W5_main_arg13,
    W5_main_arg14, W5_main_arg15, W4_main_arg10, W4_main_arg11, W4_main_arg12, W4_main_arg13, W4_main_arg14,
    W4_main_arg15, W4_main_arg1, W4_main_arg2]
  simp only [aggOps_apply, W4_hs1_at, W4_dcol_at]
  rfl

end Cert.KernelIdeal.Chain

end
-- ==== Proof.KChainBEnd.lean ====
/-
  The result, row by row.

  At the last launch's entry the aggregated rows are the aggregation of the third layer's scaled rows, those rows and
  the column of `d` are still in their buffers, the last layer's and the head's parameters are the arguments, and the
  output layer is the padded one. The row the launch computes is the head applied to the combined and normalized row;
  at a kept column the padded output layer gives what the unpadded one gives, and the final cut keeps that entry.
-/
import proofs.«172491_j1821066133824_2_alg».proof.Proof.Gen.KernelIdeal.Frame
import proofs.«172491_j1821066133824_2_alg».proof.Proof.Spec
import proofs.«172491_j1821066133824_2_alg».proof.Proof.KArgs
import proofs.«172491_j1821066133824_2_alg».proof.Proof.KAgg
import proofs.«172491_j1821066133824_2_alg».proof.Proof.KChainA
import proofs.«172491_j1821066133824_2_alg».proof.Proof.KChainBBack
import proofs.«172491_j1821066133824_2_alg».proof.Proof.KChainBAgg
import proofs.«172491_j1821066133824_2_alg».proof.Proof.KChainBPad
import proofs.«172491_j1821066133824_2_alg».proof.Proof.KChainBLaunch
import proofs.«172491_j1821066133824_2_alg».proof.Proof.KChainBL2

noncomputable section

open Idealize.ShloMosaic Idealize.ShloMosaic.TcCoe Idealize.ShloMosaic.ValueIdx Idealize.SL.Sem

namespace Cert.KernelIdeal.Chain

open Cert.KernelIdeal Cert.KernelIdeal.Gen

variable (m : (ℓ : Loc nD τ sig) → Buf (Elt Ideal) ℓ) (ρ : Dev nD → PrngReg)

/-- At a kept column the padded matrix, at the last launch's entry, is the output layer's matrix. -/
theorem W10_matrix_col (c : Dev nD) (k : Fin 128) (j : Fin 64) :
    (W10 (F := Ideal) m ρ c (Proc.devRef .tc main_v41) : S128x128.Idx → EReal) (ix2 k (col j)) = (argsK m c).Wm2 k j := by
  rw [W10_matrix, W8_matrix, W7_main_arg23, W4_main_arg23]
  rfl

/-- At a kept column the padded bias, at the last launch's entry, is the output layer's bias. -/
theorem W10_bias_col (c : Dev nD) (j : Fin 64) :
    (W10 (F := Ideal) m ρ c (Proc.devRef .tc main_v42) : S128.Idx → EReal) (ix1 (col j)) = (argsK m c).bm2 j := by
  rw [W10_bias, W9_main_arg24, W4_main_arg24]
  rfl

/-- After the third launch its output array holds the third layer's scaled rows, entry by entry. -/
theorem W6_hs2_at (c : Dev nD) (n : Fin 50000) (g : Fin 128) :
    W6 (F := Ideal) m ρ c (no_index (Proc.devRef .tc main_v30)) (ix2 n g) = (argsK m c).hs2 n g := W6_hs2 m ρ c n g

/-- Entry `(i, j)` of the result buffer at the last boundary is row `i`, column `j` of the network in the scaled form. -/
theorem result_rows_entry (c : Dev nD) (i : Fin 50000) (j : Fin 64) :
    (W12 (F := Ideal) m ρ c (Proc.devRef .tc main_v44) : S50000x64.Idx → EReal) (ix2 i j) = (argsK m c).outScaled i j := by
  rw [W12_cut, W11_rows_entry]
  unfold Cert.Gcn.finalRow
  refine (Cert.Gcn.headRow_cols _ _ _ _ _ (argsK m c).Wm2 (argsK m c).bm2 col
    (fun k j => W10_matrix_col m ρ c k j) (fun j => W10_bias_col m ρ c j) j).trans ?_
  rw [W10_aggregated, W7_aggregated, W10_rows, W10_dcol, W10_main_arg16, W10_main_arg17, W10_main_arg18, W10_main_arg19,
    W10_main_arg20, W10_main_arg21, W10_main_arg22, W4_main_arg16, W4_main_arg17, W4_main_arg18, W4_main_arg19,
    W4_main_arg20, W4_main_arg21, W4_main_arg22, W6_main_arg1, W6_main_arg2, W4_main_arg1, W4_main_arg2]
  simp only [aggOps_apply, W6_hs2_at, W4_dcol_at]
  rfl

end Cert.KernelIdeal.Chain

end
-- ==== Proof.KChain.lean ====
/-
  The idealized kernel program's result, row by row, is the network in the scaled form.

  From the boundary after the second launch on, every buffer the rest of the program reads is followed to the last
  boundary: the two aggregations, the third launch's rows, the padded output layer, the last launch's rows and the
  final cut. The statement here is the last link of that chain.
-/
import proofs.«172491_j1821066133824_2_alg».proof.Proof.Gen.KernelIdeal.Frame
import proofs.«172491_j1821066133824_2_alg».proof.Proof.Spec
import proofs.«172491_j1821066133824_2_alg».proof.Proof.KArgs
import proofs.«172491_j1821066133824_2_alg».proof.Proof.KAgg
import proofs.«172491_j1821066133824_2_alg».proof.Proof.KChainA
import proofs.«172491_j1821066133824_2_alg».proof.Proof.LibIdealEntries
import proofs.«172491_j1821066133824_2_alg».proof.Proof.KArr2
import proofs.«172491_j1821066133824_2_alg».proof.Proof.KArr3
import proofs.«172491_j1821066133824_2_alg».proof.Proof.KChainBEnd

noncomputable section

open Idealize.ShloMosaic Idealize.ShloMosaic.TcCoe Idealize.ShloMosaic.ValueIdx Idealize.SL.Sem

namespace Cert.KernelIdeal.Chain

open Cert.KernelIdeal Cert.KernelIdeal.Gen

variable (m : (ℓ : Loc nD τ sig) → Buf (Elt Ideal) ℓ) (ρ : Dev nD → PrngReg)

/-- Entry `(i, j)` of the result buffer at the last boundary is row `i`, column `j` of the network in the scaled form. -/
theorem result_rows (c : Dev nD) (i : Fin 50000) (j : Fin 64) :
    (W12 (F := Ideal) m ρ c (Proc.devRef .tc main_v44) : S50000x64.Idx → EReal) (ix2 i j)
      = (argsK m c).outScaled i j :=
  result_rows_entry m ρ c i j

end Cert.KernelIdeal.Chain

end
-- ==== Proof.lean ====
/-
  A three-layer graph convolution network with inference batch norm and a two-layer head, fused into four kernel
  launches, against its plain reference.

  The reference computes each convolution as  (sum over the edges landing on a node of the source row weighted by
  `d` at both ends) + (the node's own row times `d * d`) + bias,  with `d = deg ^ (-1/2)`. The kernel program keeps
  every layer's rows already scaled by `d`, aggregates the scaled rows, and multiplies the sum of the aggregate and the
  node's own scaled row by `d` once. Every edge landing on a node has that node as its destination, and `d` is a
  nonnegative real, which distributes over any sum of extended reals: the two are one function (Law). Batch norm, the
  positive part and the matrix products are the same operations on both sides; a change of float format is the identity
  on the extended reals; the kernel's output layer padded with 64 further columns agrees with the reference's on the 64
  columns kept.

  Spec states the network as functions of rows; RefValue reads the reference's result as the network in the reference's
  form; KArr0 … KArr3 read each launch's output array row by row, KChain follows the buffers through the launches and
  the host operations between them, KRun is the program's run with its result kept.
-/
import proofs.«172491_j1821066133824_2_alg».proof.Defs
import proofs.«172491_j1821066133824_2_alg».proof.Proof.Gen.Kernel
import proofs.«172491_j1821066133824_2_alg».proof.Proof.Gen.Kernel.Skeleton
import proofs.«172491_j1821066133824_2_alg».proof.Proof.Gen.Kernel.Launch
import proofs.«172491_j1821066133824_2_alg».proof.Proof.Gen.Kernel.Points
import proofs.«172491_j1821066133824_2_alg».proof.Proof.Gen.Kernel.Frame
import proofs.«172491_j1821066133824_2_alg».proof.Proof.Gen.KernelIdeal
import proofs.«172491_j1821066133824_2_alg».proof.Proof.Gen.KernelIdeal.Skeleton
import proofs.«172491_j1821066133824_2_alg».proof.Proof.Gen.KernelIdeal.Launch
import proofs.«172491_j1821066133824_2_alg».proof.Proof.Gen.KernelIdeal.Points
import proofs.«172491_j1821066133824_2_alg».proof.Proof.Gen.KernelIdeal.Frame
import proofs.«172491_j1821066133824_2_alg».proof.Proof.Gen.ReferenceIdeal
import proofs.«172491_j1821066133824_2_alg».proof.Proof.Gen.Pre_finite_inputs
import proofs.«172491_j1821066133824_2_alg».proof.Proof.Gen.ReferenceIdeal.Run
import proofs.«172491_j1821066133824_2_alg».proof.Proof.Gen.ReferenceIdeal.Read
import proofs.«172491_j1821066133824_2_alg».proof.Proof.Spec
import proofs.«172491_j1821066133824_2_alg».proof.Proof.Law
import proofs.«172491_j1821066133824_2_alg».proof.Proof.RefValue
import proofs.«172491_j1821066133824_2_alg».proof.Proof.KRun
import proofs.«172491_j1821066133824_2_alg».proof.Proof.KChain
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the same result: entry `(i, j)` of the reference's is
    the network in the reference's form, of the kernel program's the network in the scaled form, and the two forms
    are one function. -/
theorem algebraic : Cert.algebraic_KernelIdeal_ReferenceIdeal := by
  intro m ρ m' ρ' _ hagree
  refine ⟨fun c => Cert.KernelIdeal.Gen.W12 (F := Ideal) m ρ c (Proc.devRef .tc Cert.KernelIdeal.main_v44),
    Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v188_eq]
  rw [(hagree c).1,
    (hagree c).2.1,
    (hagree c).2.2.1,
    (hagree c).2.2.2.1,
    (hagree c).2.2.2.2.1,
    (hagree c).2.2.2.2.2.1,
    (hagree c).2.2.2.2.2.2.1,
    (hagree c).2.2.2.2.2.2.2.1,
    (hagree c).2.2.2.2.2.2.2.2.1,
    (hagree c).2.2.2.2.2.2.2.2.2.1,
    (hagree c).2.2.2.2.2.2.2.2.2.2.1,
    (hagree c).2.2.2.2.2.2.2.2.2.2.2.1,
    (hagree c).2.2.2.2.2.2.2.2.2.2.2.2.1,
    (hagree c).2.2.2.2.2.2.2.2.2.2.2.2.2.1,
    (hagree c).2.2.2.2.2.2.2.2.2.2.2.2.2.2.1,
    (hagree c).2.2.2.2.2.2.2.2.2.2.2.2.2.2.2.1,
    (hagree c).2.2.2.2.2.2.2.2.2.2.2.2.2.2.2.2.1,
    (hagree c).2.2.2.2.2.2.2.2.2.2.2.2.2.2.2.2.2.1,
    (hagree c).2.2.2.2.2.2.2.2.2.2.2.2.2.2.2.2.2.2.1,
    (hagree c).2.2.2.2.2.2.2.2.2.2.2.2.2.2.2.2.2.2.2.1,
    (hagree c).2.2.2.2.2.2.2.2.2.2.2.2.2.2.2.2.2.2.2.2.1,
    (hagree c).2.2.2.2.2.2.2.2.2.2.2.2.2.2.2.2.2.2.2.2.2.1,
    (hagree c).2.2.2.2.2.2.2.2.2.2.2.2.2.2.2.2.2.2.2.2.2.2.1,
    (hagree c).2.2.2.2.2.2.2.2.2.2.2.2.2.2.2.2.2.2.2.2.2.2.2.1,
    (hagree c).2.2.2.2.2.2.2.2.2.2.2.2.2.2.2.2.2.2.2.2.2.2.2.2]
  funext j
  obtain ⟨i, q, rfl⟩ : ∃ (i : Fin 50000) (q : Fin 64), j = ix2 i q := ⟨j 0, j 1, eq_ix2 j⟩
  refine (Cert.ReferenceIdeal.RefValue.result_rows _ _ _ _ _ _ _ _ _ _ _ _ _ _ _ _ _ _ _ _ _ _ _ _ _ i q).trans ?_
  rw [← Cert.Gcn.Args.outScaled_eq_outRef]
  exact (Cert.KernelIdeal.Chain.result_rows m ρ c i q).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
